-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x128x128 : Shape := ⟨3, ![16, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) (main_arg1 : IVec S16x128x128 32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S16x128x128 : Shape := ⟨3, ![16, 128, 128]⟩
abbrev S16x256x16384 : Shape := ⟨3, ![16, 256, 16384]⟩
abbrev S16x16384 : Shape := ⟨2, ![16, 16384]⟩
abbrev S_ : Shape := ⟨0, ![]⟩
abbrev S16x1024 : Shape := ⟨2, ![16, 1024]⟩
abbrev S16x1024x1 : Shape := ⟨3, ![16, 1024, 1]⟩
abbrev S1 : Shape := ⟨1, ![1]⟩
abbrev S1x1x1 : Shape := ⟨3, ![1, 1, 1]⟩
abbrev S16x1x1024 : Shape := ⟨3, ![16, 1, 1024]⟩
abbrev S16x256x1024 : Shape := ⟨3, ![16, 256, 1024]⟩
abbrev S16x1024x256 : Shape := ⟨3, ![16, 1024, 256]⟩
abbrev S15x1024x256 : Shape := ⟨3, ![15, 1024, 256]⟩
abbrev S1x1024x256 : Shape := ⟨3, ![1, 1024, 256]⟩
abbrev S16x2048x256 : Shape := ⟨3, ![16, 2048, 256]⟩
abbrev S15x1024 : Shape := ⟨2, ![15, 1024]⟩
abbrev S1x1024 : Shape := ⟨2, ![1, 1024]⟩
abbrev S16x2048 : Shape := ⟨2, ![16, 2048]⟩
abbrev S16x2048x1 : Shape := ⟨3, ![16, 2048, 1]⟩
abbrev S16x1x2048 : Shape := ⟨3, ![16, 1, 2048]⟩
abbrev S1x128x256 : Shape := ⟨3, ![1, 128, 256]⟩
abbrev S1x2048x256 : Shape := ⟨3, ![1, 2048, 256]⟩
abbrev S1x128x1 : Shape := ⟨3, ![1, 128, 1]⟩
abbrev S1x1x2048 : Shape := ⟨3, ![1, 1, 2048]⟩
abbrev S128x256 : Shape := ⟨2, ![128, 256]⟩
abbrev S2048x256 : Shape := ⟨2, ![2048, 256]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S16 : Shape := ⟨1, ![16]⟩

abbrev nBuf : Space → Nat
  | .hbm => 155
  | .vmem => 16
  | .smem => 0
  | _ => 0

abbrev hbmTy0_0 (i : Nat) : BufTy := match i % 128 with
  | 0 => ⟨S16x256x128x128, .f32⟩
  | 1 => ⟨S16x128x128, .i32⟩
  | 2 => ⟨S16x256x16384, .f32⟩
  | 3 => ⟨S16x16384, .i32⟩
  | 4 => ⟨S_, .i32⟩
  | 5 => ⟨S16x16384, .i32⟩
  | 6 => ⟨S16x16384, .i1⟩
  | 7 => ⟨S_, .i32⟩
  | 8 => ⟨S16x16384, .i32⟩
  | 9 => ⟨S16x16384, .i1⟩
  | 10 => ⟨S_, .i32⟩
  | 11 => ⟨S_, .i32⟩
  | 12 => ⟨S16x16384, .i32⟩
  | 13 => ⟨S16x16384, .i32⟩
  | 14 => ⟨S16x16384, .i32⟩
  | 15 => ⟨S_, .i32⟩
  | 16 => ⟨S16x16384, .i32⟩
  | 17 => ⟨S16x16384, .i32⟩
  | 18 => ⟨S16x16384, .i32⟩
  | 19 => ⟨S16x16384, .i32⟩
  | 20 => ⟨S16x16384, .i32⟩
  | 21 => ⟨S16x1024, .i32⟩
  | 22 => ⟨S_, .i32⟩
  | 23 => ⟨S16x1024, .i32⟩
  | 24 => ⟨S16x1024, .i1⟩
  | 25 => ⟨S_, .i32⟩
  | 26 => ⟨S16x1024, .i32⟩
  | 27 => ⟨S16x1024, .i32⟩
  | 28 => ⟨S16x1024, .i32⟩
  | 29 => ⟨S16x1024x1, .i32⟩
  | 30 => ⟨S1, .i32⟩
  | 31 => ⟨S_, .i32⟩
  | 32 => ⟨S16x1024x1, .i32⟩
  | 33 => ⟨S16x1024x1, .i1⟩
  | 34 => ⟨S1x1x1, .i32⟩
  | 35 => ⟨S16x1024x1, .i32⟩
  | 36 => ⟨S16x1024x1, .i1⟩
  | 37 => ⟨S16x1024x1, .i1⟩
  | 38 => ⟨S_, .i1⟩
  | 39 => ⟨S16x1024, .i1⟩
  | 40 => ⟨S16x1024, .i32⟩
  | 41 => ⟨S_, .i32⟩
  | 42 => ⟨S16x1024, .i32⟩
  | 43 => ⟨S16x1024, .i32⟩
  | 44 => ⟨S_, .i32⟩
  | 45 => ⟨S16x1024, .i32⟩
  | 46 => ⟨S16x1024, .i1⟩
  | 47 => ⟨S16x1x1024, .i32⟩
  | 48 => ⟨S_, .i32⟩
  | 49 => ⟨S16x1x1024, .i32⟩
  | 50 => ⟨S16x1x1024, .i1⟩
  | 51 => ⟨S_, .i32⟩
  | 52 => ⟨S16x1x1024, .i32⟩
  | 53 => ⟨S16x1x1024, .i32⟩
  | 54 => ⟨S16x1x1024, .i32⟩
  | 55 => ⟨S16x1024x1, .i32⟩
  | 56 => ⟨S1, .i32⟩
  | 57 => ⟨S_, .i32⟩
  | 58 => ⟨S16x1024x1, .i32⟩
  | 59 => ⟨S16x1024x1, .i1⟩
  | 60 => ⟨S1x1x1, .i32⟩
  | 61 => ⟨S16x1024x1, .i32⟩
  | 62 => ⟨S16x1024x1, .i1⟩
  | 63 => ⟨S16x1024x1, .i1⟩
  | 64 => ⟨S_, .i1⟩
  | 65 => ⟨S16x1024, .i1⟩
  | 66 => ⟨S16x256x1024, .f32⟩
  | 67 => ⟨S16x256x1024, .i1⟩
  | 68 => ⟨S_, .f32⟩
  | 69 => ⟨S16x256x1024, .f32⟩
  | 70 => ⟨S16x256x1024, .f32⟩
  | 71 => ⟨S16x1x1024, .i1⟩
  | 72 => ⟨S16x1x1024, .f32⟩
  | 73 => ⟨S16x256x1024, .f32⟩
  | 74 => ⟨S16x256x1024, .f32⟩
  | 75 => ⟨S16x1024x256, .f32⟩
  | 76 => ⟨S_, .i32⟩
  | 77 => ⟨S16x1024, .i32⟩
  | 78 => ⟨S16x1024, .i1⟩
  | 79 => ⟨S_, .i32⟩
  | 80 => ⟨S16x1024, .i32⟩
  | 81 => ⟨S16x1024, .i32⟩
  | 82 => ⟨S16x1024, .i32⟩
  | 83 => ⟨S16x1024x1, .i32⟩
  | 84 => ⟨S1, .i32⟩
  | 85 => ⟨S_, .i32⟩
  | 86 => ⟨S16x1024x1, .i32⟩
  | 87 => ⟨S16x1024x1, .i1⟩
  | 88 => ⟨S1x1x1, .i32⟩
  | 89 => ⟨S16x1024x1, .i32⟩
  | 90 => ⟨S16x1024x1, .i1⟩
  | 91 => ⟨S16x1024x1, .i1⟩
  | 92 => ⟨S_, .i1⟩
  | 93 => ⟨S16x1024, .i1⟩
  | 94 => ⟨S16x1024, .i32⟩
  | 95 => ⟨S_, .i32⟩
  | 96 => ⟨S16x1024, .i32⟩
  | 97 => ⟨S16x1024, .i32⟩
  | 98 => ⟨S_, .i32⟩
  | 99 => ⟨S_, .i32⟩
  | 100 => ⟨S16x1024, .i32⟩
  | 101 => ⟨S16x1024, .i32⟩
  | 102 => ⟨S15x1024x256, .f32⟩
  | 103 => ⟨S1x1024x256, .f32⟩
  | 104 => ⟨S16x1024x256, .f32⟩
  | 105 => ⟨S16x2048x256, .f32⟩
  | 106 => ⟨S15x1024, .i32⟩
  | 107 => ⟨S1x1024, .i32⟩
  | 108 => ⟨S16x1024, .i32⟩
  | 109 => ⟨S16x2048, .i32⟩
  | 110 => ⟨S15x1024, .i1⟩
  | 111 => ⟨S1x1024, .i1⟩
  | 112 => ⟨S16x1024, .i1⟩
  | 113 => ⟨S_, .i1⟩
  | 114 => ⟨S16x1024, .i1⟩
  | 115 => ⟨S16x1024, .i1⟩
  | 116 => ⟨S16x1024, .i1⟩
  | 117 => ⟨S_, .i1⟩
  | 118 => ⟨S16x1024, .i1⟩
  | 119 => ⟨S16x1024, .i1⟩
  | 120 => ⟨S16x1024, .i1⟩
  | 121 => ⟨S16x2048, .i1⟩
  | 122 => ⟨S16x2048x256, .f32⟩
  | 123 => ⟨S_, .f32⟩
  | 124 => ⟨S16x2048, .f32⟩
  | 125 => ⟨S16x2048x1, .f32⟩
  | 126 => ⟨S16x2048x1, .f32⟩
  | 127 => ⟨S_, .f32⟩
  | _ => ⟨S16x256x128x128, .f32⟩

abbrev hbmTy0_1 (i : Nat) : BufTy := match i % 128 with
  | 0 => ⟨S16x2048x1, .f32⟩
  | 1 => ⟨S16x2048x1, .f32⟩
  | 2 => ⟨S16x2048x256, .f32⟩
  | 3 => ⟨S16x2048x256, .f32⟩
  | 4 => ⟨S16x2048x256, .bf16⟩
  | 5 => ⟨S16x2048x1, .i32⟩
  | 6 => ⟨S16x1x2048, .i32⟩
  | 7 => ⟨S16x2048, .f32⟩
  | 8 => ⟨S16x2048x1, .f32⟩
  | 9 => ⟨S16x2048, .f32⟩
  | 10 => ⟨S16x1x2048, .f32⟩
  | 11 => ⟨S16x2048x1, .f32⟩
  | 12 => ⟨S16x2048x1, .f32⟩
  | 13 => ⟨S16x2048, .f32⟩
  | 14 => ⟨S_, .f32⟩
  | 15 => ⟨S16, .f32⟩
  | 16 => ⟨S16x2048, .f32⟩
  | 17 => ⟨S_, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S_, .f32⟩
  | 25 => ⟨S_, .f32⟩
  | 26 => ⟨S_, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | .local _ .vmem, ⟨0, _⟩ => ⟨S1x128x256, .bf16⟩
  | .local _ .vmem, ⟨1, _⟩ => ⟨S1x128x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x128x1, .i32⟩
  | .local _ .vmem, ⟨5, _⟩ => ⟨S1x128x1, .i32⟩
  | .local _ .vmem, ⟨6, _⟩ => ⟨S1x1x2048, .i32⟩
  | .local _ .vmem, ⟨7, _⟩ => ⟨S1x1x2048, .i32⟩
  | .local _ .vmem, ⟨8, _⟩ => ⟨S1x128x1, .f32⟩
  | .local _ .vmem, ⟨9, _⟩ => ⟨S1x128x1, .f32⟩
  | .local _ .vmem, ⟨10, _⟩ => ⟨S1x1x2048, .f32⟩
  | .local _ .vmem, ⟨11, _⟩ => ⟨S1x1x2048, .f32⟩
  | .local _ .vmem, ⟨12, _⟩ => ⟨S1x128x1, .f32⟩
  | .local _ .vmem, ⟨13, _⟩ => ⟨S1x128x1, .f32⟩
  | .local _ .vmem, ⟨14, _⟩ => ⟨S1x128x1, .f32⟩
  | .local _ .vmem, ⟨15, _⟩ => ⟨S1x128x1, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_c_3 : Ref sig .tc := ⟨.hbm, 15, rfl⟩
abbrev main_call1_v0 : Ref sig .tc := ⟨.hbm, 16, rfl⟩
abbrev main_v7 : Ref sig .tc := ⟨.hbm, 17, rfl⟩
abbrev main_call2_v0 : Ref sig .tc := ⟨.hbm, 18, rfl⟩
abbrev main_call2_v1_0 : Ref sig .tc := ⟨.hbm, 19, rfl⟩
abbrev main_v8 : Ref sig .tc := ⟨.hbm, 20, rfl⟩
abbrev main_v9 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_call3_c_1 : Ref sig .tc := ⟨.hbm, 30, rfl⟩
abbrev main_call3_c_2 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_call3_c_3 : Ref sig .tc := ⟨.hbm, 38, rfl⟩
abbrev main_call3_v12 : Ref sig .tc := ⟨.hbm, 39, rfl⟩
abbrev main_call3_v13 : Ref sig .tc := ⟨.hbm, 40, rfl⟩
abbrev main_call3_c_4 : Ref sig .tc := ⟨.hbm, 41, rfl⟩
abbrev main_call3_v14 : Ref sig .tc := ⟨.hbm, 42, rfl⟩
abbrev main_v10 : Ref sig .tc := ⟨.hbm, 43, rfl⟩
abbrev main_c_4 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call4_c : Ref sig .tc := ⟨.hbm, 48, rfl⟩
abbrev main_call4_v0 : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_v5 : Ref sig .tc := ⟨.hbm, 55, rfl⟩
abbrev main_call4_c_1 : Ref sig .tc := ⟨.hbm, 56, rfl⟩
abbrev main_call4_c_2 : Ref sig .tc := ⟨.hbm, 57, rfl⟩
abbrev main_call4_v6 : Ref sig .tc := ⟨.hbm, 58, rfl⟩
abbrev main_call4_v7 : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_call4_v11 : Ref sig .tc := ⟨.hbm, 63, rfl⟩
abbrev main_call4_c_3 : Ref sig .tc := ⟨.hbm, 64, rfl⟩
abbrev main_call4_v12 : Ref sig .tc := ⟨.hbm, 65, rfl⟩
abbrev main_call4_v13 : Ref sig .tc := ⟨.hbm, 66, rfl⟩
abbrev main_call4_v14 : Ref sig .tc := ⟨.hbm, 67, rfl⟩
abbrev main_call4_cst : Ref sig .tc := ⟨.hbm, 68, rfl⟩
abbrev main_call4_v15 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_call5_c : Ref sig .tc := ⟨.hbm, 76, rfl⟩
abbrev main_call5_v0 : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_c_1 : Ref sig .tc := ⟨.hbm, 84, rfl⟩
abbrev main_call5_c_2 : Ref sig .tc := ⟨.hbm, 85, rfl⟩
abbrev main_call5_v6 : Ref sig .tc := ⟨.hbm, 86, rfl⟩
abbrev main_call5_v7 : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_3 : Ref sig .tc := ⟨.hbm, 92, rfl⟩
abbrev main_call5_v12 : Ref sig .tc := ⟨.hbm, 93, rfl⟩
abbrev main_call5_v13 : Ref sig .tc := ⟨.hbm, 94, rfl⟩
abbrev main_call5_c_4 : Ref sig .tc := ⟨.hbm, 95, rfl⟩
abbrev main_call5_v14 : Ref sig .tc := ⟨.hbm, 96, rfl⟩
abbrev main_v20 : Ref sig .tc := ⟨.hbm, 97, rfl⟩
abbrev main_c_5 : Ref sig .tc := ⟨.hbm, 98, rfl⟩
abbrev main_call6_v0 : Ref sig .tc := ⟨.hbm, 99, rfl⟩
abbrev main_call6_v1 : Ref sig .tc := ⟨.hbm, 100, rfl⟩
abbrev main_v21 : Ref sig .tc := ⟨.hbm, 101, rfl⟩
abbrev main_call7_v0 : Ref sig .tc := ⟨.hbm, 102, rfl⟩
abbrev main_call7_v1 : Ref sig .tc := ⟨.hbm, 103, rfl⟩
abbrev main_v22 : Ref sig .tc := ⟨.hbm, 104, rfl⟩
abbrev main_v23 : Ref sig .tc := ⟨.hbm, 105, rfl⟩
abbrev main_call8_v0 : Ref sig .tc := ⟨.hbm, 106, rfl⟩
abbrev main_call8_v1 : Ref sig .tc := ⟨.hbm, 107, rfl⟩
abbrev main_v24 : Ref sig .tc := ⟨.hbm, 108, rfl⟩
abbrev main_v25 : Ref sig .tc := ⟨.hbm, 109, rfl⟩
abbrev main_call9_v0 : Ref sig .tc := ⟨.hbm, 110, rfl⟩
abbrev main_call9_v1 : Ref sig .tc := ⟨.hbm, 111, rfl⟩
abbrev main_v26 : Ref sig .tc := ⟨.hbm, 112, rfl⟩
abbrev main_c_6 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_7 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_cst : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_cst_8 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49_0 : Ref sig .tc := ⟨.hbm, 139, rfl⟩
abbrev main_v49_1 : Ref sig .tc := ⟨.hbm, 140, rfl⟩
abbrev main_v50 : Ref sig .tc := ⟨.hbm, 141, rfl⟩
abbrev main_cst_9 : Ref sig .tc := ⟨.hbm, 142, rfl⟩
abbrev main_v51 : Ref sig .tc := ⟨.hbm, 143, rfl⟩
abbrev main_v52 : Ref sig .tc := ⟨.hbm, 144, rfl⟩
abbrev main_cst_10 : Ref sig .tc := ⟨.hbm, 145, rfl⟩
abbrev main_v53 : Ref sig .tc := ⟨.hbm, 146, rfl⟩
abbrev main_cst_11 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_cst_12 : Ref sig .tc := ⟨.hbm, 151, rfl⟩
abbrev main_v57 : Ref sig .tc := ⟨.hbm, 152, rfl⟩
abbrev main_cst_13 : Ref sig .tc := ⟨.hbm, 153, rfl⟩
abbrev main_v58 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16x256x128x128_S16x256x16384 : S16x256x128x128.ShapeCasts S16x256x16384
  shapeCasts_S16x128x128_S16x16384 : S16x128x128.ShapeCasts S16x16384
  bcast_S_S16x16384 : S_.BroadcastsInDim S16x16384 (![] : Fin 0 → Fin S16x16384.rank)
  slices_S16x16384_S16x1024_0_0 : S16x16384.Slices ![0, 0] S16x1024
  bcast_S_S16x1024 : S_.BroadcastsInDim S16x1024 (![] : Fin 0 → Fin S16x1024.rank)
  shapeCasts_S16x1024_S16x1024x1 : S16x1024.ShapeCasts S16x1024x1
  bcast_S_S16x1024x1 : S_.BroadcastsInDim S16x1024x1 (![] : Fin 0 → Fin S16x1024x1.rank)
  bcast_S1_S1x1x1_2 : S1.BroadcastsInDim S1x1x1 (![2] : Fin 1 → Fin S1x1x1.rank)
  bcast_S1x1x1_S16x1024x1_0_1_2 : S1x1x1.BroadcastsInDim S16x1024x1 (![0, 1, 2] : Fin 3 → Fin S16x1024x1.rank)
  reducesTo_S16x1024x1_S16x1024_d2 : S16x1024x1.ReducesTo [2] S16x1024
  h_S_ : 0 < S_.numel
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  shapeCasts_S16x1x1024_S16x1024x1 : S16x1x1024.ShapeCasts S16x1024x1
  bcast_S16x1024_S16x256x1024_0_2 : S16x1024.BroadcastsInDim S16x256x1024 (![0, 2] : Fin 2 → Fin S16x256x1024.rank)
  bcast_S_S16x256x1024 : S_.BroadcastsInDim S16x256x1024 (![] : Fin 0 → Fin S16x256x1024.rank)
  bcast_S16x1x1024_S16x256x1024_0_1_2 : S16x1x1024.BroadcastsInDim S16x256x1024 (![0, 1, 2] : Fin 3 → Fin S16x256x1024.rank)
  transposes_S16x256x1024_S16x1024x256_0_2_1 : S16x256x1024.Transposes [0, 2, 1] S16x1024x256
  slices_S16x1024x256_S15x1024x256_1_0_0 : S16x1024x256.Slices ![1, 0, 0] S15x1024x256
  slices_S16x1024x256_S1x1024x256_0_0_0 : S16x1024x256.Slices ![0, 0, 0] S1x1024x256
  concatenates_S15x1024x256_S1x1024x256_S16x1024x256_d0 : Shape.Concatenates [S15x1024x256, S1x1024x256] S16x1024x256 0
  concatenates_S16x1024x256_S16x1024x256_S16x2048x256_d1 : Shape.Concatenates [S16x1024x256, S16x1024x256] S16x2048x256 1
  slices_S16x1024_S15x1024_1_0 : S16x1024.Slices ![1, 0] S15x1024
  slices_S16x1024_S1x1024_0_0 : S16x1024.Slices ![0, 0] S1x1024
  concatenates_S15x1024_S1x1024_S16x1024_d0 : Shape.Concatenates [S15x1024, S1x1024] S16x1024 0
  concatenates_S16x1024_S16x1024_S16x2048_d1 : Shape.Concatenates [S16x1024, S16x1024] S16x2048 1
  reducesTo_S16x2048x256_S16x2048_d2 : S16x2048x256.ReducesTo [2] S16x2048
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x256_0_1_2 : S16x2048x1.BroadcastsInDim S16x2048x256 (![0, 1, 2] : Fin 3 → Fin S16x2048x256.rank)
  bitsLt_bf16_f32 : FTy.bits .bf16 < FTy.bits .f32
  bcast_S16x2048_S16x1x2048_0_2 : S16x2048.BroadcastsInDim S16x1x2048 (![0, 2] : Fin 2 → Fin S16x1x2048.rank)
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  transposes_S2048x256_p1_0_S256x2048 : S2048x256.Transposes [1, 0] S256x2048
  reduces_S128x2048_S128 : S128x2048.Reduces [1] S128
  shapeCasts_S128_S128x1 : S128.ShapeCasts S128x1
  broadcasts_S128x1_S128x2048 : S128x1.Broadcasts S128x2048
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  natLt_1_32 : 1 < 32
  iota_S128x1_d0_w32 : S128x1.Iotas .tc 32 [0]
  iota_S1x2048_d1_w32 : S1x2048.Iotas .tc 32 [1]
  shapeCasts_S128x1_S1x128x1 : S128x1.ShapeCasts S1x128x1
  shapeCasts_S16x2048x1_S16x2048 : S16x2048x1.ShapeCasts S16x2048
  reducesTo_S16x2048_S16_d1 : S16x2048.ReducesTo [1] S16
  bcast_S_S16 : S_.BroadcastsInDim S16 (![] : Fin 0 → Fin S16.rank)
  reducesTo_S16_S_d0 : S16.ReducesTo [0] S_
  gather_S16x16384_S16x1024x1_S16x1024_n_1_0_0_1_2_11_wf : GatherDims.WF S16x16384 S16x1024x1 S16x1024 [] [1] [0] [1] [0] 2 ![1, 1]
  gather_S16x256x16384_S16x1024x1_S16x256x1024_1_2_0_0_2_2_12561_wf : GatherDims.WF S16x256x16384 S16x1024x1 S16x256x1024 [1] [2] [0] [2] [0] 2 ![1, 256, 1]
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S16x2048x256.size a
  hwx0_0 : ∀ i : grid0.Coords, EltTy.bits .bf16 = 32 ∨ (Rect.block (s := S16x2048x256) S1x128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .bf16 = 32 ∨ (Rect.block (s := S16x2048x256) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x2048x1.size a
  hwx0_2 : ∀ i : grid0.Coords, EltTy.bits .i32 = 32 ∨ (Rect.block (s := S16x2048x1) S1x128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .i32 = 32 ∨ (Rect.block (s := S16x1x2048) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S16x2048x1.size a
  hwx0_4 : ∀ i : grid0.Coords, EltTy.bits .f32 = 32 ∨ (Rect.block (s := S16x2048x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S16x1x2048.size a
  hwx0_5 : ∀ i : grid0.Coords, EltTy.bits .f32 = 32 ∨ (Rect.block (s := S16x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S16x2048x1.size a
  hwx0_6 : ∀ i : grid0.Coords, EltTy.bits .f32 = 32 ∨ (Rect.block (s := S16x2048x1) S1x128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1.size a ≤ S16x2048x1.size a
  hwx0_7 : ∀ i : grid0.Coords, EltTy.bits .f32 = 32 ∨ (Rect.block (s := S16x2048x1) S1x128x1.size (cc0_transform_7 i) (hinb0_7 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def gather_S16x16384_S16x1024x1_S16x1024_n_1_0_0_1_2_11 : GatherDims S16x16384 S16x1024x1 S16x1024 where
  offsetDims := []
  collapsedSliceDims := [1]
  operandBatchingDims := [0]
  startIndicesBatchingDims := [0]
  startIndexMap := [1]
  indexVectorDim := 2
  sliceSizes := ![1, 1]
  wf := gather_S16x16384_S16x1024x1_S16x1024_n_1_0_0_1_2_11_wf
def gather_S16x256x16384_S16x1024x1_S16x256x1024_1_2_0_0_2_2_12561 : GatherDims S16x256x16384 S16x1024x1 S16x256x1024 where
  offsetDims := [1]
  collapsedSliceDims := [2]
  operandBatchingDims := [0]
  startIndicesBatchingDims := [0]
  startIndexMap := [2]
  indexVectorDim := 2
  sliceSizes := ![1, 256, 1]
  wf := gather_S16x256x16384_S16x1024x1_S16x256x1024_1_2_0_0_2_2_12561_wf
def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_v42) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49_0) S1x128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49_1) S1x128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x128x128 : Shape := ⟨3, ![16, 128, 128]⟩
abbrev S16x128x128x256 : Shape := ⟨4, ![16, 128, 128, 256]⟩
abbrev S16x16384x256 : Shape := ⟨3, ![16, 16384, 256]⟩
abbrev S16x16384 : Shape := ⟨2, ![16, 16384]⟩
abbrev S_ : Shape := ⟨0, ![]⟩
abbrev S16x1024 : Shape := ⟨2, ![16, 1024]⟩
abbrev S16x1024x1 : Shape := ⟨3, ![16, 1024, 1]⟩
abbrev S1 : Shape := ⟨1, ![1]⟩
abbrev S1x1x1 : Shape := ⟨3, ![1, 1, 1]⟩
abbrev S16x1024x256 : Shape := ⟨3, ![16, 1024, 256]⟩
abbrev S15x1024x256 : Shape := ⟨3, ![15, 1024, 256]⟩
abbrev S1x1024x256 : Shape := ⟨3, ![1, 1024, 256]⟩
abbrev S16x2048x256 : Shape := ⟨3, ![16, 2048, 256]⟩
abbrev S15x1024 : Shape := ⟨2, ![15, 1024]⟩
abbrev S1x1024 : Shape := ⟨2, ![1, 1024]⟩
abbrev S16x2048 : Shape := ⟨2, ![16, 2048]⟩
abbrev S16x2048x1 : Shape := ⟨3, ![16, 2048, 1]⟩
abbrev S16x2048x2048 : Shape := ⟨3, ![16, 2048, 2048]⟩
abbrev S16x1x2048 : Shape := ⟨3, ![16, 1, 2048]⟩
abbrev S2x2 : Shape := ⟨2, ![2, 2]⟩
abbrev S1024x1024 : Shape := ⟨2, ![1024, 1024]⟩
abbrev S2x1x2x1 : Shape := ⟨4, ![2, 1, 2, 1]⟩
abbrev S1x1024x1x1024 : Shape := ⟨4, ![1, 1024, 1, 1024]⟩
abbrev S2x1024x2x1024 : Shape := ⟨4, ![2, 1024, 2, 1024]⟩
abbrev S2048x2048 : Shape := ⟨2, ![2048, 2048]⟩
abbrev S1x2048x2048 : Shape := ⟨3, ![1, 2048, 2048]⟩
abbrev S16 : Shape := ⟨1, ![16]⟩

abbrev nBuf : Space → Nat
  | .hbm => 231
  | .vmem => 0
  | .smem => 0
  | _ => 0

abbrev hbmTy0_0 (i : Nat) : BufTy := match i % 128 with
  | 0 => ⟨S16x256x128x128, .f32⟩
  | 1 => ⟨S16x128x128, .i32⟩
  | 2 => ⟨S16x128x128x256, .f32⟩
  | 3 => ⟨S16x16384x256, .f32⟩
  | 4 => ⟨S16x16384, .i32⟩
  | 5 => ⟨S_, .i32⟩
  | 6 => ⟨S16x16384, .i32⟩
  | 7 => ⟨S16x16384, .i1⟩
  | 8 => ⟨S_, .i32⟩
  | 9 => ⟨S16x16384, .i32⟩
  | 10 => ⟨S16x16384, .i1⟩
  | 11 => ⟨S_, .i32⟩
  | 12 => ⟨S_, .i32⟩
  | 13 => ⟨S16x16384, .i32⟩
  | 14 => ⟨S16x16384, .i32⟩
  | 15 => ⟨S16x16384, .i32⟩
  | 16 => ⟨S_, .i32⟩
  | 17 => ⟨S16x16384, .i32⟩
  | 18 => ⟨S16x16384, .i32⟩
  | 19 => ⟨S16x16384, .i32⟩
  | 20 => ⟨S16x16384, .i32⟩
  | 21 => ⟨S16x16384, .i32⟩
  | 22 => ⟨S16x1024, .i32⟩
  | 23 => ⟨S_, .i32⟩
  | 24 => ⟨S16x1024, .i32⟩
  | 25 => ⟨S16x1024, .i1⟩
  | 26 => ⟨S_, .i32⟩
  | 27 => ⟨S16x1024, .i32⟩
  | 28 => ⟨S16x1024, .i32⟩
  | 29 => ⟨S16x1024, .i32⟩
  | 30 => ⟨S16x1024x1, .i32⟩
  | 31 => ⟨S1, .i32⟩
  | 32 => ⟨S_, .i32⟩
  | 33 => ⟨S16x1024x1, .i32⟩
  | 34 => ⟨S16x1024x1, .i1⟩
  | 35 => ⟨S1x1x1, .i32⟩
  | 36 => ⟨S16x1024x1, .i32⟩
  | 37 => ⟨S16x1024x1, .i1⟩
  | 38 => ⟨S16x1024x1, .i1⟩
  | 39 => ⟨S_, .i1⟩
  | 40 => ⟨S16x1024, .i1⟩
  | 41 => ⟨S16x1024, .i32⟩
  | 42 => ⟨S_, .i32⟩
  | 43 => ⟨S16x1024, .i32⟩
  | 44 => ⟨S16x1024, .i32⟩
  | 45 => ⟨S_, .i32⟩
  | 46 => ⟨S16x1024, .i32⟩
  | 47 => ⟨S16x1024, .i1⟩
  | 48 => ⟨S16x1024x1, .i32⟩
  | 49 => ⟨S_, .i32⟩
  | 50 => ⟨S16x1024x1, .i32⟩
  | 51 => ⟨S16x1024x1, .i1⟩
  | 52 => ⟨S_, .i32⟩
  | 53 => ⟨S16x1024x1, .i32⟩
  | 54 => ⟨S16x1024x1, .i32⟩
  | 55 => ⟨S16x1024x1, .i32⟩
  | 56 => ⟨S1, .i32⟩
  | 57 => ⟨S_, .i32⟩
  | 58 => ⟨S16x1024x1, .i32⟩
  | 59 => ⟨S16x1024x1, .i1⟩
  | 60 => ⟨S1x1x1, .i32⟩
  | 61 => ⟨S16x1024x1, .i32⟩
  | 62 => ⟨S16x1024x1, .i1⟩
  | 63 => ⟨S16x1024x1, .i1⟩
  | 64 => ⟨S_, .i1⟩
  | 65 => ⟨S16x1024, .i1⟩
  | 66 => ⟨S16x1024x256, .f32⟩
  | 67 => ⟨S16x1024x256, .i1⟩
  | 68 => ⟨S_, .f32⟩
  | 69 => ⟨S16x1024x256, .f32⟩
  | 70 => ⟨S16x1024x256, .f32⟩
  | 71 => ⟨S16x1024x1, .i1⟩
  | 72 => ⟨S16x1024x1, .f32⟩
  | 73 => ⟨S16x1024x256, .f32⟩
  | 74 => ⟨S16x1024x256, .f32⟩
  | 75 => ⟨S_, .i32⟩
  | 76 => ⟨S16x1024, .i32⟩
  | 77 => ⟨S16x1024, .i1⟩
  | 78 => ⟨S_, .i32⟩
  | 79 => ⟨S16x1024, .i32⟩
  | 80 => ⟨S16x1024, .i32⟩
  | 81 => ⟨S16x1024, .i32⟩
  | 82 => ⟨S16x1024x1, .i32⟩
  | 83 => ⟨S1, .i32⟩
  | 84 => ⟨S_, .i32⟩
  | 85 => ⟨S16x1024x1, .i32⟩
  | 86 => ⟨S16x1024x1, .i1⟩
  | 87 => ⟨S1x1x1, .i32⟩
  | 88 => ⟨S16x1024x1, .i32⟩
  | 89 => ⟨S16x1024x1, .i1⟩
  | 90 => ⟨S16x1024x1, .i1⟩
  | 91 => ⟨S_, .i1⟩
  | 92 => ⟨S16x1024, .i1⟩
  | 93 => ⟨S16x1024, .i32⟩
  | 94 => ⟨S_, .i32⟩
  | 95 => ⟨S16x1024, .i32⟩
  | 96 => ⟨S16x1024, .i32⟩
  | 97 => ⟨S_, .i32⟩
  | 98 => ⟨S_, .i32⟩
  | 99 => ⟨S16x1024, .i32⟩
  | 100 => ⟨S16x1024, .i32⟩
  | 101 => ⟨S15x1024x256, .f32⟩
  | 102 => ⟨S1x1024x256, .f32⟩
  | 103 => ⟨S16x1024x256, .f32⟩
  | 104 => ⟨S16x2048x256, .f32⟩
  | 105 => ⟨S15x1024, .i32⟩
  | 106 => ⟨S1x1024, .i32⟩
  | 107 => ⟨S16x1024, .i32⟩
  | 108 => ⟨S16x2048, .i32⟩
  | 109 => ⟨S15x1024, .i1⟩
  | 110 => ⟨S1x1024, .i1⟩
  | 111 => ⟨S16x1024, .i1⟩
  | 112 => ⟨S_, .i1⟩
  | 113 => ⟨S16x1024, .i1⟩
  | 114 => ⟨S16x1024, .i1⟩
  | 115 => ⟨S16x1024, .i1⟩
  | 116 => ⟨S_, .i1⟩
  | 117 => ⟨S16x1024, .i1⟩
  | 118 => ⟨S16x1024, .i1⟩
  | 119 => ⟨S16x1024, .i1⟩
  | 120 => ⟨S16x2048, .i1⟩
  | 121 => ⟨S16x2048x256, .f32⟩
  | 122 => ⟨S_, .f32⟩
  | 123 => ⟨S16x2048, .f32⟩
  | 124 => ⟨S16x2048x1, .f32⟩
  | 125 => ⟨S16x2048x1, .f32⟩
  | 126 => ⟨S_, .f32⟩
  | 127 => ⟨S16x2048x1, .f32⟩
  | _ => ⟨S16x256x128x128, .f32⟩

abbrev hbmTy0_1 (i : Nat) : BufTy := match i % 128 with
  | 0 => ⟨S16x2048x1, .f32⟩
  | 1 => ⟨S16x2048x256, .f32⟩
  | 2 => ⟨S16x2048x256, .f32⟩
  | 3 => ⟨S16x2048, .f32⟩
  | 4 => ⟨S16x2048x2048, .f32⟩
  | 5 => ⟨S_, .f32⟩
  | 6 => ⟨S16x2048x2048, .f32⟩
  | 7 => ⟨S16x2048x2048, .f32⟩
  | 8 => ⟨S_, .f32⟩
  | 9 => ⟨S16x2048, .f32⟩
  | 10 => ⟨S16x2048x1, .f32⟩
  | 11 => ⟨S16x2048x2048, .f32⟩
  | 12 => ⟨S16x2048x2048, .f32⟩
  | 13 => ⟨S16x2048x1, .f32⟩
  | 14 => ⟨S16x1x2048, .f32⟩
  | 15 => ⟨S16x2048x2048, .f32⟩
  | 16 => ⟨S16x2048x2048, .f32⟩
  | 17 => ⟨S16x2048x2048, .f32⟩
  | 18 => ⟨S16x2048x1, .i32⟩
  | 19 => ⟨S16x1x2048, .i32⟩
  | 20 => ⟨S16x2048x2048, .i32⟩
  | 21 => ⟨S16x2048x2048, .i32⟩
  | 22 => ⟨S16x2048x2048, .i1⟩
  | 23 => ⟨S16x2048x2048, .f32⟩
  | 24 => ⟨S16x2048x2048, .f32⟩
  | 25 => ⟨S2x2, .i32⟩
  | 26 => ⟨S2x2, .i32⟩
  | 27 => ⟨S_, .i32⟩
  | 28 => ⟨S2x2, .i32⟩
  | 29 => ⟨S2x2, .i32⟩
  | 30 => ⟨S2x2, .i1⟩
  | 31 => ⟨S2x2, .f32⟩
  | 32 => ⟨S_, .f32⟩
  | 33 => ⟨S1024x1024, .f32⟩
  | 34 => ⟨S2x1x2x1, .f32⟩
  | 35 => ⟨S1x1024x1x1024, .f32⟩
  | 36 => ⟨S2x1024x2x1024, .f32⟩
  | 37 => ⟨S2x1024x2x1024, .f32⟩
  | 38 => ⟨S2x1024x2x1024, .f32⟩
  | 39 => ⟨S2048x2048, .f32⟩
  | 40 => ⟨S1x2048x2048, .f32⟩
  | 41 => ⟨S_, .f32⟩
  | 42 => ⟨S16x2048x2048, .f32⟩
  | 43 => ⟨S16x2048x2048, .f32⟩
  | 44 => ⟨S16x2048x2048, .f32⟩
  | 45 => ⟨S16x2048x2048, .f32⟩
  | 46 => ⟨S16x2048x2048, .f32⟩
  | 47 => ⟨S2048x2048, .i32⟩
  | 48 => ⟨S2048x2048, .i32⟩
  | 49 => ⟨S_, .i32⟩
  | 50 => ⟨S2048x2048, .i32⟩
  | 51 => ⟨S2048x2048, .i32⟩
  | 52 => ⟨S2048x2048, .i1⟩
  | 53 => ⟨S2048x2048, .f32⟩
  | 54 => ⟨S1x2048x2048, .f32⟩
  | 55 => ⟨S_, .f32⟩
  | 56 => ⟨S1x2048x2048, .f32⟩
  | 57 => ⟨S1x2048x2048, .f32⟩
  | 58 => ⟨S16x2048x2048, .f32⟩
  | 59 => ⟨S16x2048x2048, .f32⟩
  | 60 => ⟨S16x2048x2048, .f32⟩
  | 61 => ⟨S16x2048x2048, .f32⟩
  | 62 => ⟨S16x2048x2048, .f32⟩
  | 63 => ⟨S16x2048x2048, .f32⟩
  | 64 => ⟨S_, .f32⟩
  | 65 => ⟨S16x2048, .f32⟩
  | 66 => ⟨S16x2048x1, .f32⟩
  | 67 => ⟨S16x2048x2048, .f32⟩
  | 68 => ⟨S16x2048x2048, .f32⟩
  | 69 => ⟨S_, .f32⟩
  | 70 => ⟨S16x2048x2048, .f32⟩
  | 71 => ⟨S16x2048x2048, .f32⟩
  | 72 => ⟨S16x2048x2048, .f32⟩
  | 73 => ⟨S16x2048x2048, .f32⟩
  | 74 => ⟨S_, .f32⟩
  | 75 => ⟨S16x2048, .f32⟩
  | 76 => ⟨S_, .f32⟩
  | 77 => ⟨S16x2048, .f32⟩
  | 78 => ⟨S16x2048, .f32⟩
  | 79 => ⟨S16x2048x2048, .f32⟩
  | 80 => ⟨S_, .f32⟩
  | 81 => ⟨S16x2048, .f32⟩
  | 82 => ⟨S16x2048, .f32⟩
  | 83 => ⟨S_, .f32⟩
  | 84 => ⟨S16x2048, .f32⟩
  | 85 => ⟨S_, .f32⟩
  | 86 => ⟨S16x2048, .f32⟩
  | 87 => ⟨S16x2048, .i1⟩
  | 88 => ⟨S16x2048, .f32⟩
  | 89 => ⟨S16x2048, .f32⟩
  | 90 => ⟨S16x2048, .f32⟩
  | 91 => ⟨S_, .f32⟩
  | 92 => ⟨S16, .f32⟩
  | 93 => ⟨S_, .f32⟩
  | 94 => ⟨S16, .f32⟩
  | 95 => ⟨S_, .f32⟩
  | 96 => ⟨S16, .f32⟩
  | 97 => ⟨S16, .f32⟩
  | 98 => ⟨S16, .f32⟩
  | 99 => ⟨S_, .f32⟩
  | 100 => ⟨S_, .f32⟩
  | 101 => ⟨S_, .f32⟩
  | 102 => ⟨S_, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_c_3 : Ref sig .tc := ⟨.hbm, 16, rfl⟩
abbrev main_call1_v0 : Ref sig .tc := ⟨.hbm, 17, rfl⟩
abbrev main_v8 : Ref sig .tc := ⟨.hbm, 18, rfl⟩
abbrev main_call2_v0 : Ref sig .tc := ⟨.hbm, 19, rfl⟩
abbrev main_call2_v1_0 : Ref sig .tc := ⟨.hbm, 20, rfl⟩
abbrev main_v9 : Ref sig .tc := ⟨.hbm, 21, rfl⟩
abbrev main_v10 : Ref sig .tc := ⟨.hbm, 22, rfl⟩
abbrev main_call3_c : Ref sig .tc := ⟨.hbm, 23, rfl⟩
abbrev main_call3_v0 : Ref sig .tc := ⟨.hbm, 24, rfl⟩
abbrev main_call3_v1 : Ref sig .tc := ⟨.hbm, 25, rfl⟩
abbrev main_call3_c_0 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_call3_v5 : Ref sig .tc := ⟨.hbm, 30, rfl⟩
abbrev main_call3_c_1 : Ref sig .tc := ⟨.hbm, 31, rfl⟩
abbrev main_call3_c_2 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_v9 : Ref sig .tc := ⟨.hbm, 36, rfl⟩
abbrev main_call3_v10 : Ref sig .tc := ⟨.hbm, 37, rfl⟩
abbrev main_call3_v11 : Ref sig .tc := ⟨.hbm, 38, rfl⟩
abbrev main_call3_c_3 : Ref sig .tc := ⟨.hbm, 39, rfl⟩
abbrev main_call3_v12 : Ref sig .tc := ⟨.hbm, 40, rfl⟩
abbrev main_call3_v13 : Ref sig .tc := ⟨.hbm, 41, rfl⟩
abbrev main_call3_c_4 : Ref sig .tc := ⟨.hbm, 42, rfl⟩
abbrev main_call3_v14 : Ref sig .tc := ⟨.hbm, 43, rfl⟩
abbrev main_v11 : Ref sig .tc := ⟨.hbm, 44, rfl⟩
abbrev main_c_4 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_c_2 : Ref sig .tc := ⟨.hbm, 57, rfl⟩
abbrev main_call4_v5 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_c_3 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_cst : Ref sig .tc := ⟨.hbm, 68, rfl⟩
abbrev main_call4_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_c_4 : Ref sig .tc := ⟨.hbm, 94, rfl⟩
abbrev main_call5_v14 : Ref sig .tc := ⟨.hbm, 95, rfl⟩
abbrev main_v20 : Ref sig .tc := ⟨.hbm, 96, rfl⟩
abbrev main_c_5 : Ref sig .tc := ⟨.hbm, 97, rfl⟩
abbrev main_call6_v0 : Ref sig .tc := ⟨.hbm, 98, rfl⟩
abbrev main_call6_v1 : Ref sig .tc := ⟨.hbm, 99, rfl⟩
abbrev main_v21 : Ref sig .tc := ⟨.hbm, 100, rfl⟩
abbrev main_call7_v0 : Ref sig .tc := ⟨.hbm, 101, rfl⟩
abbrev main_call7_v1 : Ref sig .tc := ⟨.hbm, 102, rfl⟩
abbrev main_v22 : Ref sig .tc := ⟨.hbm, 103, rfl⟩
abbrev main_v23 : Ref sig .tc := ⟨.hbm, 104, rfl⟩
abbrev main_call8_v0 : Ref sig .tc := ⟨.hbm, 105, rfl⟩
abbrev main_call8_v1 : Ref sig .tc := ⟨.hbm, 106, rfl⟩
abbrev main_v24 : Ref sig .tc := ⟨.hbm, 107, rfl⟩
abbrev main_v25 : Ref sig .tc := ⟨.hbm, 108, rfl⟩
abbrev main_call9_v0 : Ref sig .tc := ⟨.hbm, 109, rfl⟩
abbrev main_call9_v1 : Ref sig .tc := ⟨.hbm, 110, rfl⟩
abbrev main_v26 : Ref sig .tc := ⟨.hbm, 111, rfl⟩
abbrev main_c_6 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_c_7 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_call10_v0 : Ref sig .tc := ⟨.hbm, 121, rfl⟩
abbrev main_call10_cst : Ref sig .tc := ⟨.hbm, 122, rfl⟩
abbrev main_call10_v1 : Ref sig .tc := ⟨.hbm, 123, rfl⟩
abbrev main_call10_v2 : Ref sig .tc := ⟨.hbm, 124, rfl⟩
abbrev main_v34 : Ref sig .tc := ⟨.hbm, 125, rfl⟩
abbrev main_cst : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_cst_8 : Ref sig .tc := ⟨.hbm, 133, rfl⟩
abbrev main_v41 : Ref sig .tc := ⟨.hbm, 134, rfl⟩
abbrev main_v42 : Ref sig .tc := ⟨.hbm, 135, rfl⟩
abbrev main_cst_9 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_c_10 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_cst_11 : Ref sig .tc := ⟨.hbm, 160, rfl⟩
abbrev main_v65 : Ref sig .tc := ⟨.hbm, 161, rfl⟩
abbrev main_call11_v0 : Ref sig .tc := ⟨.hbm, 162, rfl⟩
abbrev main_call11_v1 : Ref sig .tc := ⟨.hbm, 163, rfl⟩
abbrev main_call11_v2 : Ref sig .tc := ⟨.hbm, 164, rfl⟩
abbrev main_call11_v3 : Ref sig .tc := ⟨.hbm, 165, rfl⟩
abbrev main_call11_v4 : Ref sig .tc := ⟨.hbm, 166, rfl⟩
abbrev main_v66 : Ref sig .tc := ⟨.hbm, 167, rfl⟩
abbrev main_v67 : Ref sig .tc := ⟨.hbm, 168, rfl⟩
abbrev main_cst_12 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_c_13 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_cst_14 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_cst_15 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_cst_16 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_cst_17 : Ref sig .tc := ⟨.hbm, 202, rfl⟩
abbrev main_v96 : Ref sig .tc := ⟨.hbm, 203, rfl⟩
abbrev main_cst_18 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_cst_19 : Ref sig .tc := ⟨.hbm, 208, rfl⟩
abbrev main_v100 : Ref sig .tc := ⟨.hbm, 209, rfl⟩
abbrev main_v101 : Ref sig .tc := ⟨.hbm, 210, rfl⟩
abbrev main_cst_20 : Ref sig .tc := ⟨.hbm, 211, rfl⟩
abbrev main_v102 : Ref sig .tc := ⟨.hbm, 212, rfl⟩
abbrev main_cst_21 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_cst_22 : Ref sig .tc := ⟨.hbm, 219, rfl⟩
abbrev main_v108 : Ref sig .tc := ⟨.hbm, 220, rfl⟩
abbrev main_cst_23 : Ref sig .tc := ⟨.hbm, 221, rfl⟩
abbrev main_v109 : Ref sig .tc := ⟨.hbm, 222, rfl⟩
abbrev main_cst_24 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_cst_25 : Ref sig .tc := ⟨.hbm, 227, rfl⟩
abbrev main_v113 : Ref sig .tc := ⟨.hbm, 228, rfl⟩
abbrev main_cst_26 : Ref sig .tc := ⟨.hbm, 229, rfl⟩
abbrev main_v114 : Ref sig .tc := ⟨.hbm, 230, rfl⟩

abbrev nD : Nat := 1
abbrev τ : Topo := Topo.v7x

variable {F : FTy → Type} [FloatOps F]

class Facts₀ : Prop where
  transposes_S16x256x128x128_S16x128x128x256_0_2_3_1 : S16x256x128x128.Transposes [0, 2, 3, 1] S16x128x128x256
  shapeCasts_S16x128x128x256_S16x16384x256 : S16x128x128x256.ShapeCasts S16x16384x256
  shapeCasts_S16x128x128_S16x16384 : S16x128x128.ShapeCasts S16x16384
  bcast_S_S16x16384 : S_.BroadcastsInDim S16x16384 (![] : Fin 0 → Fin S16x16384.rank)
  slices_S16x16384_S16x1024_0_0 : S16x16384.Slices ![0, 0] S16x1024
  bcast_S_S16x1024 : S_.BroadcastsInDim S16x1024 (![] : Fin 0 → Fin S16x1024.rank)
  shapeCasts_S16x1024_S16x1024x1 : S16x1024.ShapeCasts S16x1024x1
  bcast_S_S16x1024x1 : S_.BroadcastsInDim S16x1024x1 (![] : Fin 0 → Fin S16x1024x1.rank)
  bcast_S1_S1x1x1_2 : S1.BroadcastsInDim S1x1x1 (![2] : Fin 1 → Fin S1x1x1.rank)
  bcast_S1x1x1_S16x1024x1_0_1_2 : S1x1x1.BroadcastsInDim S16x1024x1 (![0, 1, 2] : Fin 3 → Fin S16x1024x1.rank)
  reducesTo_S16x1024x1_S16x1024_d2 : S16x1024x1.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1024x256_0_1 : S16x1024.BroadcastsInDim S16x1024x256 (![0, 1] : Fin 2 → Fin S16x1024x256.rank)
  bcast_S_S16x1024x256 : S_.BroadcastsInDim S16x1024x256 (![] : Fin 0 → Fin S16x1024x256.rank)
  bcast_S16x1024x1_S16x1024x256_0_1_2 : S16x1024x1.BroadcastsInDim S16x1024x256 (![0, 1, 2] : Fin 3 → Fin S16x1024x256.rank)
  slices_S16x1024x256_S15x1024x256_1_0_0 : S16x1024x256.Slices ![1, 0, 0] S15x1024x256
  slices_S16x1024x256_S1x1024x256_0_0_0 : S16x1024x256.Slices ![0, 0, 0] S1x1024x256
  concatenates_S15x1024x256_S1x1024x256_S16x1024x256_d0 : Shape.Concatenates [S15x1024x256, S1x1024x256] S16x1024x256 0
  concatenates_S16x1024x256_S16x1024x256_S16x2048x256_d1 : Shape.Concatenates [S16x1024x256, S16x1024x256] S16x2048x256 1
  slices_S16x1024_S15x1024_1_0 : S16x1024.Slices ![1, 0] S15x1024
  slices_S16x1024_S1x1024_0_0 : S16x1024.Slices ![0, 0] S1x1024
  concatenates_S15x1024_S1x1024_S16x1024_d0 : Shape.Concatenates [S15x1024, S1x1024] S16x1024 0
  concatenates_S16x1024_S16x1024_S16x2048_d1 : Shape.Concatenates [S16x1024, S16x1024] S16x2048 1
  reducesTo_S16x2048x256_S16x2048_d2 : S16x2048x256.ReducesTo [2] S16x2048
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x256_0_1_2 : S16x2048x1.BroadcastsInDim S16x2048x256 (![0, 1, 2] : Fin 3 → Fin S16x2048x256.rank)
  bcast_S_S16x2048x2048 : S_.BroadcastsInDim S16x2048x2048 (![] : Fin 0 → Fin S16x2048x2048.rank)
  reducesTo_S16x2048x2048_S16x2048_d2 : S16x2048x2048.ReducesTo [2] S16x2048
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S2x2 : S_.BroadcastsInDim S2x2 (![] : Fin 0 → Fin S2x2.rank)
  bcast_S_S1024x1024 : S_.BroadcastsInDim S1024x1024 (![] : Fin 0 → Fin S1024x1024.rank)
  bcast_S2x2_S2x1x2x1_0_2 : S2x2.BroadcastsInDim S2x1x2x1 (![0, 2] : Fin 2 → Fin S2x1x2x1.rank)
  bcast_S1024x1024_S1x1024x1x1024_1_3 : S1024x1024.BroadcastsInDim S1x1024x1x1024 (![1, 3] : Fin 2 → Fin S1x1024x1x1024.rank)
  bcast_S2x1x2x1_S2x1024x2x1024_0_1_2_3 : S2x1x2x1.BroadcastsInDim S2x1024x2x1024 (![0, 1, 2, 3] : Fin 4 → Fin S2x1024x2x1024.rank)
  bcast_S1x1024x1x1024_S2x1024x2x1024_0_1_2_3 : S1x1024x1x1024.BroadcastsInDim S2x1024x2x1024 (![0, 1, 2, 3] : Fin 4 → Fin S2x1024x2x1024.rank)
  shapeCasts_S2x1024x2x1024_S2048x2048 : S2x1024x2x1024.ShapeCasts S2048x2048
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S2048x2048 : S_.BroadcastsInDim S2048x2048 (![] : Fin 0 → Fin S2048x2048.rank)
  bcast_S_S1x2048x2048 : S_.BroadcastsInDim S1x2048x2048 (![] : Fin 0 → Fin S1x2048x2048.rank)
  bcast_S_S16x2048 : S_.BroadcastsInDim S16x2048 (![] : Fin 0 → Fin S16x2048.rank)
  reducesTo_S16x2048_S16_d1 : S16x2048.ReducesTo [1] S16
  bcast_S_S16 : S_.BroadcastsInDim S16 (![] : Fin 0 → Fin S16.rank)
  reducesTo_S16_S_d0 : S16.ReducesTo [0] S_
  gather_S16x16384_S16x1024x1_S16x1024_n_1_0_0_1_2_11_wf : GatherDims.WF S16x16384 S16x1024x1 S16x1024 [] [1] [0] [1] [0] 2 ![1, 1]
  gather_S16x16384x256_S16x1024x1_S16x1024x256_2_1_0_0_1_2_11256_wf : GatherDims.WF S16x16384x256 S16x1024x1 S16x1024x256 [2] [1] [0] [1] [0] 2 ![1, 1, 256]
  dot_S16x2048x256_S16x2048x256_S16x2048x2048_2_2_1_1_0_0_wf : DotDims.WF S16x2048x256 S16x2048x256 S16x2048x2048 [2] [2] [1] [1] [0] [0]

variable [Facts₀]

def comparator_i32_i32_d1 : BitVec 32 × BitVec 32 → BitVec 32 × BitVec 32 → BitVec 1 :=
  fun l r =>
    let v2 := IntOp.cmpi .slt l.1 r.1
    v2
def gather_S16x16384_S16x1024x1_S16x1024_n_1_0_0_1_2_11 : GatherDims S16x16384 S16x1024x1 S16x1024 where
  offsetDims := []
  collapsedSliceDims := [1]
  operandBatchingDims := [0]
  startIndicesBatchingDims := [0]
  startIndexMap := [1]
  indexVectorDim := 2
  sliceSizes := ![1, 1]
  wf := gather_S16x16384_S16x1024x1_S16x1024_n_1_0_0_1_2_11_wf
def gather_S16x16384x256_S16x1024x1_S16x1024x256_2_1_0_0_1_2_11256 : GatherDims S16x16384x256 S16x1024x1 S16x1024x256 where
  offsetDims := [2]
  collapsedSliceDims := [1]
  operandBatchingDims := [0]
  startIndicesBatchingDims := [0]
  startIndexMap := [1]
  indexVectorDim := 2
  sliceSizes := ![1, 1, 256]
  wf := gather_S16x16384x256_S16x1024x1_S16x1024x256_2_1_0_0_1_2_11256_wf
def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf

class Facts : Prop extends Facts₀ where

variable [Facts]
-- ==== Proof.IdealBody.lean ====
/-
  The kernel body at one grid point, as a Hoare triple over its eight staging buffers.

  At a point of the 16 x 16 grid the body reads six blocks: the 128 query rows `q` of the point's row tile, all
  2048 key rows `k` of the point's image pair, the tile's row labels and row validities (columns of height 128)
  and the pair's column labels and column validities (rows of width 2048).  It computes the scaled logits
  `q kᵀ · c`, shifts each row by its maximum, builds the positive and negative masks from the labels, the
  validities and the row / column positions, and reduces each row to two numbers: its loss and whether it has
  a positive partner.  It stores the 128 losses into the seventh buffer and the 128 flags into the eighth, each
  by one store covering the whole buffer; both buffers are read once before being overwritten, the values read
  going nowhere.

  `rowLoss` and `rowFlag` name the two column vectors as pure terms of the six blocks and the grid point;
  `lossBlock` and `flagBlock` are what the two output buffers hold afterwards.  `body_triple` says that from
  the six input buffers held whole at given contents and the two output buffers held at anything, the body runs
  to its return with the inputs as they were and the outputs at those two blocks.
-/
import proofs.«110907_j88038239634215_2_alg».proof.Proof.Gen.KernelIdeal.Launch
import proofs.«110907_j88038239634215_2_alg».proof.Proof.Gen.KernelIdeal.Skeleton
import proofs.«110907_j88038239634215_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes through: each one a whole buffer -/

abbrev rQ : Rect S1x128x256 := Rect.unit (s := S1x128x256) ![0, 0, 0] S1x128x256.size inb_S1x128x256_S1x128x256_0_0_0
abbrev rK : Rect S1x2048x256 := Rect.unit (s := S1x2048x256) ![0, 0, 0] S1x2048x256.size inb_S1x2048x256_S1x2048x256_0_0_0
abbrev rCol : Rect S1x128x1 := Rect.unit (s := S1x128x1) ![0, 0, 0] S1x128x1.size inb_S1x128x1_S1x128x1_0_0_0
abbrev rRow : Rect S1x1x2048 := Rect.unit (s := S1x1x2048) ![0, 0, 0] S1x1x2048.size inb_S1x1x2048_S1x1x2048_0_0_0

/-! ## The two column vectors the body computes -/

/-- Per row of the tile: 1 if the row has a valid positive partner other than itself, else 0. -/
def rowFlag (i : grid0.Coords) (lr : Vec F S1x128x1 .i32) (lc : Vec F S1x1x2048 .i32) (vr : Vec F S1x128x1 .f32) (vc : Vec F S1x1x2048 .f32) :
    FVec F S128x1 .f32 :=
  k0_pay12 (k0_pay5 (View.ld lr rCol) (View.ld lc rRow) (View.ld vr rCol) (View.ld vc rRow)) (k0_pay7 i) k0_pay8

/-- Per row of the tile: minus the mean, over the row's positive partners, of the log-probability of the partner
    against the row's negatives, times the row's flag. -/
def rowLoss (i : grid0.Coords) (q : Vec F S1x128x256 .bf16) (k : Vec F S1x2048x256 .bf16)
    (lr : Vec F S1x128x1 .i32) (lc : Vec F S1x1x2048 .i32) (vr : Vec F S1x128x1 .f32) (vc : Vec F S1x1x2048 .f32) : FVec F S128x1 .f32 :=
  k0_pay13 (k0_pay3 (View.ld q rQ) (View.ld k rK)) (k0_pay4 (View.ld vr rCol) (View.ld vc rRow))
    (k0_pay5 (View.ld lr rCol) (View.ld lc rRow) (View.ld vr rCol) (View.ld vc rRow)) (k0_pay6 i)
    (iota .tc S1x2048 32 [1] iota_S1x2048_d1_w32) (k0_pay7 i) k0_pay8

/-- The loss buffer after the body: its one store, of the losses as a [1,128,1] block. -/
def lossBlock (i : grid0.Coords) (q : Vec F S1x128x256 .bf16) (k : Vec F S1x2048x256 .bf16)
    (lr : Vec F S1x128x1 .i32) (lc : Vec F S1x1x2048 .i32) (vr : Vec F S1x128x1 .f32) (vc : Vec F S1x1x2048 .f32) : Vec F S1x128x1 .f32 :=
  View.canon [⟨rCol, k0_pay1 (rowLoss i q k lr lc vr vc)⟩]

/-- The flag buffer after the body: its one store, of the flags as a [1,128,1] block. -/
def flagBlock (i : grid0.Coords) (lr : Vec F S1x128x1 .i32) (lc : Vec F S1x1x2048 .i32) (vr : Vec F S1x128x1 .f32) (vc : Vec F S1x1x2048 .f32) :
    Vec F S1x128x1 .f32 :=
  View.canon [⟨rCol, k0_pay2 (rowFlag i lr lc vr vc)⟩]

/-- One store through the whole-buffer rectangle covers the buffer. -/
theorem cover_col (p0 : rCol.shape.Idx → Elt F .f32) (y : S1x128x1.Idx) :
    ∃ pc ∈ ([⟨rCol, p0⟩] : List (View.Piece (Elt F) S1x128x1 .f32)), y ∈ pc.1.set :=
  View.cover_of_tiled [⟨rCol, p0⟩] S1x128x1.size (by rfl) y

/-! ## The body's triple -/

set_option maxHeartbeats 2000000 in
theorem body_triple (c : Dev nD) (E : Set ℕ) (i : grid0.Coords)
    (arg2 : Memref sig .tc .vmem S1x128x256 .bf16) (harg2 : arg2.IsWhole) (arg3 : Memref sig .tc .vmem S1x2048x256 .bf16) (harg3 : arg3.IsWhole)
    (arg4 : Memref sig .tc .vmem S1x128x1 .i32) (harg4 : arg4.IsWhole) (arg5 : Memref sig .tc .vmem S1x1x2048 .i32) (harg5 : arg5.IsWhole)
    (arg6 : Memref sig .tc .vmem S1x128x1 .f32) (harg6 : arg6.IsWhole) (arg7 : Memref sig .tc .vmem S1x1x2048 .f32) (harg7 : arg7.IsWhole)
    (arg8 : Memref sig .tc .vmem S1x128x1 .f32) (harg8 : arg8.IsWhole) (arg9 : Memref sig .tc .vmem S1x128x1 .f32) (harg9 : arg9.IsWhole)
    (q : Vec F S1x128x256 .bf16) (k : Vec F S1x2048x256 .bf16) (lr : Vec F S1x128x1 .i32) (lc : Vec F S1x1x2048 .i32)
    (vr : Vec F S1x128x1 .f32) (vc : Vec F S1x1x2048 .f32) (K : PUnit → sProp 𝕄) :
    iprop(owns (c : Thread nD τ) arg2 fullShare q ∗ owns (c : Thread nD τ) arg3 fullShare k ∗ owns (c : Thread nD τ) arg4 fullShare lr
        ∗ owns (c : Thread nD τ) arg5 fullShare lc ∗ owns (c : Thread nD τ) arg6 fullShare vr ∗ owns (c : Thread nD τ) arg7 fullShare vc
        ∗ (∃ d, owns (c : Thread nD τ) arg8 fullShare d) ∗ (∃ d, owns (c : Thread nD τ) arg9 fullShare d)
        ∗ (iprop(owns (c : Thread nD τ) arg2 fullShare q ∗ owns (c : Thread nD τ) arg3 fullShare k ∗ owns (c : Thread nD τ) arg4 fullShare lr
            ∗ owns (c : Thread nD τ) arg5 fullShare lc ∗ owns (c : Thread nD τ) arg6 fullShare vr ∗ owns (c : Thread nD τ) arg7 fullShare vc
            ∗ owns (c : Thread nD τ) arg8 fullShare (lossBlock i q k lr lc vr vc)
            ∗ owns (c : Thread nD τ) arg9 fullShare (flagBlock i lr lc vr vc)) -∗ K ⟨⟩))
      ⊢ wp frame (wpE (defs₀ (F := F)) Variants.none c none) E
          (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_col _)
  iexists _; isplitr
  swap; · iexact H7
  ipureintro
  exact View.read_writes_eq_canon _ _ _ (cover_col _)

end Cert.KernelIdeal.Body

end
-- ==== Proof.IdealRun.lean ====
/-
  The run of the program around its one kernel region, from the body's triple.

  @main is nineteen stretches of host operations (the sampling: a stable sort of the labels' priorities, the
  gathers it indexes, the pairing of each image with the next, the normalisation of the sampled features), the
  kernel region on a 16 x 16 grid (image pair x row tile), and fourteen more host operations that reduce the
  region's two column arrays to one number.

  The region has eight windows.  Windows 0 and 1 are two views of ONE array, the normalised features: the tile's
  128 rows and all 2048 rows of the pair.  The array is therefore held by the two windows at the two halves of the
  full share; every other input array, and the two output arrays, at the full share.  `dats` is the proof data: each
  input window's staging buffer holds the array's block at the point, each output window's what the body leaves
  there (`Body.lossBlock`, `Body.flagBlock` of the six input blocks).
-/
import proofs.«110907_j88038239634215_2_alg».proof.Proof.IdealBody
import Idealize.ShloMosaic.Lib.Pipeline.FrameSuffix

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The host stretches before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Every buffer's contents when the region is entered: the launch contents run through the prefix. -/
abbrev V0 (c : Dev nD) : Valuation τ sig (Elt F) := StableHlo.after (List.flatten prefixOps) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the fourteen later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lossBlock (grid0.coords t) (iblk m c 0 t) (iblk m c 1 t) (iblk m c 2 t) (iblk m c 3 t) (iblk m c 4 t) (iblk m c 5 t)
    | ⟨7, _⟩ => flagBlock (grid0.coords t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = lossBlock (grid0.coords t) (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = flagBlock (grid0.coords t) (iblk m c 2 t) (iblk m c 3 t) (iblk m c 4 t) (iblk m c 5 t) := by dsimp only [dats]

/-- Each input window's current staging buffer holds its block at every point, fetched there or not: an input not
    fetched at a point has the block index it had at the point before, and the body leaves input blocks in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.IdealLaunch.lean ====
/-
  The launch of the region whose first two windows share an array, and the program's run.

  What the launch hands the pipeline is the seven distinct buffers behind the eight windows, each held whole.  The
  pipeline wants one holding per window: the shared buffer is therefore split along the two halves of the full share
  (`arrays_iff`, read left to right at the region's entry).  When the region is left the same equivalence, read right
  to left, rejoins the halves — both windows are inputs, so both halves still hold the entry contents — and the
  fourteen host operations that follow run over all the unscoped buffers again.
-/
import proofs.«110907_j88038239634215_2_alg».proof.Proof.IdealRun

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The share each window holds its array at -/

theorem share_0 (c : Dev nD) : (dats m 0 c).share 0 = fullShare.left := by
  unfold Dat.share
  rw [show (cfg0.win 0).isOut = false from rfl]
  simp only [Bool.false_eq_true, ↓reduceIte]
  dsimp only [dats]
theorem share_1 (c : Dev nD) : (dats m 0 c).share 1 = fullShare.right := by
  unfold Dat.share
  rw [show (cfg0.win 1).isOut = false from rfl]
  simp only [Bool.false_eq_true, ↓reduceIte]
  dsimp only [dats]
theorem share_2 (c : Dev nD) : (dats m 0 c).share 2 = fullShare := by
  unfold Dat.share
  rw [show (cfg0.win 2).isOut = false from rfl]
  simp only [Bool.false_eq_true, ↓reduceIte]
  dsimp only [dats]
theorem share_3 (c : Dev nD) : (dats m 0 c).share 3 = fullShare := by
  unfold Dat.share
  rw [show (cfg0.win 3).isOut = false from rfl]
  simp only [Bool.false_eq_true, ↓reduceIte]
  dsimp only [dats]
theorem share_4 (c : Dev nD) : (dats m 0 c).share 4 = fullShare := by
  unfold Dat.share
  rw [show (cfg0.win 4).isOut = false from rfl]
  simp only [Bool.false_eq_true, ↓reduceIte]
  dsimp only [dats]
theorem share_5 (c : Dev nD) : (dats m 0 c).share 5 = fullShare := by
  unfold Dat.share
  rw [show (cfg0.win 5).isOut = false from rfl]
  simp only [Bool.false_eq_true, ↓reduceIte]
  dsimp only [dats]
theorem share_6 (c : Dev nD) : (dats m 0 c).share 6 = fullShare := by
  unfold Dat.share
  rw [show (cfg0.win 6).isOut = true from rfl]
  simp only [↓reduceIte]
theorem share_7 (c : Dev nD) : (dats m 0 c).share 7 = fullShare := by
  unfold Dat.share
  rw [show (cfg0.win 7).isOut = true from rfl]
  simp only [↓reduceIte]

/-! ## The arrays behind the windows, two of them one buffer -/

theorem arr_img : Finset.univ.image (Pipeline.arrRef spec0)
    = {Pipeline.arrRef spec0 0, Pipeline.arrRef spec0 2, Pipeline.arrRef spec0 3, Pipeline.arrRef spec0 4, Pipeline.arrRef spec0 5,
       Pipeline.arrRef spec0 6, Pipeline.arrRef spec0 7} := by decide

/-- Every window's array is a whole buffer, so the pipeline's holdings are plain points-tos, window by window. -/
theorem arrays_pts (c : Dev nD) (G : (w : Fin cfg0.W) → Buf (Elt F) ((cfg0.win w).arr.view.loc (c : Thread nD τ))) :
    (dats m 0 c).arrays G
      = bigSep Finset.univ fun w : Fin cfg0.W => (((cfg0.win w).arr.view.loc (c : Thread nD τ)) ↦{(dats m 0 c).share w} G w : sProp 𝕄) := by
  unfold Dat.arrays
  exact bigSep_congr fun w _ => by rw [(arr_whole0 w).set_eq_univ]

/-- The buffer behind window `w`, whole at the full share at what `X` gives it. -/
abbrev ptArr (c : Dev nD) (X : (b : Ref sig .tc) → Buf (Elt F) ((c : Thread nD τ).loc b)) (w : Fin cfg0.W) : sProp 𝕄 :=
  ((c : Thread nD τ).loc (Pipeline.arrRef spec0 w)) ↦{fullShare} X (Pipeline.arrRef spec0 w)

/-- The same at a share `q`. -/
abbrev ptArrAt (c : Dev nD) (X : (b : Ref sig .tc) → Buf (Elt F) ((c : Thread nD τ).loc b)) (w : Fin cfg0.W) (q : PosShare TreeShare) : sProp 𝕄 :=
  ((c : Thread nD τ).loc (Pipeline.arrRef spec0 w)) ↦{q} X (Pipeline.arrRef spec0 w)

/-- Seven distinct buffers stand behind the eight windows. -/
theorem arrBufs_eq (c : Dev nD) (X : (b : Ref sig .tc) → Buf (Elt F) ((c : Thread nD τ).loc b)) :
    (Pipeline.arrBufs spec0 c X : sProp 𝕄)
      = iprop(ptArr c X 0 ∗ ptArr c X 2 ∗ ptArr c X 3 ∗ ptArr c X 4 ∗ ptArr c X 5 ∗ ptArr c X 6 ∗ ptArr c X 7) := by
  unfold Pipeline.arrBufs
  rw [arr_img,
    BI.bigSep_insert (by decide), BI.bigSep_insert (by decide), BI.bigSep_insert (by decide), BI.bigSep_insert (by decide),
    BI.bigSep_insert (by decide), BI.bigSep_insert (by decide), BI.bigSep_singleton]
  rfl

/-- Held whole, each at the contents `X` gives it, the seven buffers are the pipeline's `arrays` at the same contents:
    the shared one split along the two halves of the full share for windows 0 and 1, the others as they are. -/
theorem arrays_iff (c : Dev nD) (X : (b : Ref sig .tc) → Buf (Elt F) ((c : Thread nD τ).loc b))
    (G : (w : Fin cfg0.W) → Buf (Elt F) ((cfg0.win w).arr.view.loc (c : Thread nD τ)))
    (hG : ∀ w, G w = X (Pipeline.arrRef spec0 w)) :
    (Pipeline.arrBufs spec0 c X : sProp 𝕄) ⊣⊢ (dats m 0 c).arrays G := by
  rw [arrays_pts, arrBufs_eq, bigSep_W0]
  rw [hG 0, hG 1, hG 2, hG 3, hG 4, hG 5, hG 6, hG 7]
  rw [share_0, share_1, share_2, share_3, share_4, share_5, share_6, share_7]
  show iprop(ptArr c X 0 ∗ ptArr c X 2 ∗ ptArr c X 3 ∗ ptArr c X 4 ∗ ptArr c X 5 ∗ ptArr c X 6 ∗ ptArr c X 7)
    ⊣⊢ iprop(ptArrAt c X 0 fullShare.left ∗ ptArrAt c X 0 fullShare.right
        ∗ ptArr c X 2 ∗ ptArr c X 3 ∗ ptArr c X 4 ∗ ptArr c X 5 ∗ ptArr c X 6 ∗ ptArr c X 7)
  constructor
  · iintro ⟨H0, H2, H3, H4, H5, H6, H7⟩
    ihave H01 := (pointsTo_share (PosShare.mem_left_op_right fullShare)).1 $$ H0
    icases H01 with ⟨H0, H1⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    iexact H7

/-! ## The contents when the region is left, and at the end -/

open Classical in
/-- Every buffer's contents when the region is left: the two output arrays at what the write-backs made of them,
    every other buffer as the region found it. -/
def Wx (c : Dev nD) : Valuation τ sig (Elt F) :=
  Function.update (Function.update (V0 m c) (Proc.devRef .tc (Pipeline.arrRef spec0 6)) ((dats m 0 c).arrAt 6 cfg0.N))
    (Proc.devRef .tc (Pipeline.arrRef spec0 7)) ((dats m 0 c).arrAt 7 cfg0.N)

/-- Every buffer's contents at the end: the fourteen last operations run from the exit contents. -/
def Wf (c : Dev nD) : Valuation τ sig (Elt F) := StableHlo.after (List.flatten [hostOps1]) (Wx m c)

theorem Wx_out7 (c : Dev nD) : Wx m c (Proc.devRef .tc (Pipeline.arrRef spec0 7)) = (dats m 0 c).arrAt 7 cfg0.N := by
  unfold Wx; exact Function.update_self ..

theorem Wx_out6 (c : Dev nD) : Wx m c (Proc.devRef .tc (Pipeline.arrRef spec0 6)) = (dats m 0 c).arrAt 6 cfg0.N := by
  unfold Wx
  rw [Function.update_of_ne (StableHlo.devRef_ne_of_ne (by decide))]; exact Function.update_self ..

theorem Wx_other (c : Dev nD) (b : Ref sig .tc) (h6 : b ≠ Pipeline.arrRef spec0 6) (h7 : b ≠ Pipeline.arrRef spec0 7) :
    Wx m c (Proc.devRef .tc b) = V m c b := by
  unfold Wx
  rw [Function.update_of_ne (StableHlo.devRef_ne_of_ne h7), Function.update_of_ne (StableHlo.devRef_ne_of_ne h6)]

/-- At every window the exit contents of its array are what the write-backs computed: an input array is never
    written back, so it holds what the region found. -/
theorem Wx_arr (c : Dev nD) : ∀ w : Fin cfg0.W, (dats m 0 c).arrAt w cfg0.N = Wx m c (Proc.devRef .tc (Pipeline.arrRef spec0 w))
  | ⟨0, _⟩ => (((dats m 0 c).arrAt_in 0 rfl _).trans (A_eq m c 0)).trans (Wx_other m c _ (by decide) (by decide)).symm
  | ⟨1, _⟩ => (((dats m 0 c).arrAt_in 1 rfl _).trans (A_eq m c 1)).trans (Wx_other m c _ (by decide) (by decide)).symm
  | ⟨2, _⟩ => (((dats m 0 c).arrAt_in 2 rfl _).trans (A_eq m c 2)).trans (Wx_other m c _ (by decide) (by decide)).symm
  | ⟨3, _⟩ => (((dats m 0 c).arrAt_in 3 rfl _).trans (A_eq m c 3)).trans (Wx_other m c _ (by decide) (by decide)).symm
  | ⟨4, _⟩ => (((dats m 0 c).arrAt_in 4 rfl _).trans (A_eq m c 4)).trans (Wx_other m c _ (by decide) (by decide)).symm
  | ⟨5, _⟩ => (((dats m 0 c).arrAt_in 5 rfl _).trans (A_eq m c 5)).trans (Wx_other m c _ (by decide) (by decide)).symm
  | ⟨6, _⟩ => (Wx_out6 m c).symm
  | ⟨7, _⟩ => (Wx_out7 m c).symm

/-- None of the fourteen last operations writes an array of the pipeline: each writes its own result buffer. -/
theorem tail_keeps (w : Fin cfg0.W) :
    ∀ op ∈ (hostOps1 : List (HloOp τ sig (Elt F))), Proc.devRef .tc (Pipeline.arrRef spec0 w) ∉ op.writes := by
  intro op hop
  simp only [hostOps1, List.mem_cons, List.mem_nil_iff, _root_.or_false] at hop
  rcases hop with rfl | rfl | rfl | rfl | rfl | rfl | rfl | rfl | rfl | rfl | rfl | rfl | rfl | rfl
  all_goals (fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide))

theorem Wf_arr (c : Dev nD) (w : Fin cfg0.W) : (dats m 0 c).arrAt w cfg0.N = Wf m c (Proc.devRef .tc (Pipeline.arrRef spec0 w)) := by
  unfold Wf
  rw [StableHlo.after_of_forall_not_mem _ _ (by
    simp only [List.flatten_cons, List.flatten_nil, List.append_nil]; exact tail_keeps w)]
  exact Wx_arr m c w

/-! ## The last host operations, run from the region's exit -/

/-- All the unscoped buffers held at `X` are the seven array buffers and the bypassing ones, at `X`. -/
theorem held_split (c : Dev nD) (X : Valuation τ sig (Elt F)) :
    (StableHlo.held (c : Thread nD τ) (Pipeline.ucRefs τ sig) X : sProp 𝕄)
      = iprop(Pipeline.arrBufs spec0 c (fun b => X (Proc.devRef .tc b)) ∗ Pipeline.unscopedRest spec0 c (fun b => X (Proc.devRef .tc b))) := by
  rw [← Pipeline.unscopedBufs_held]
  exact Pipeline.unscopedBufs_split₀ cfgs 0 winFacts₀0.arr_unscoped c _

/-- From the region's exit — the boundary, the pipeline's holdings of its arrays at their final contents, the bypassing
    buffers as the region found them — the fourteen operations run and hand back the same at the final contents:
    the halves of the shared array are rejoined (both still at the entry contents), the operations run over all the
    unscoped buffers, and the shared array is split again. -/
theorem tail_run (𝒱₀ : Variants) (c : Dev nD) (Q' : PUnit → sProp 𝕄) :
    iprop((iprop((dats m 0 c).arrays ((dats m 0 c).arrAt · cfg0.N)
              ∗ Pipeline.unscopedRestP Pipeline.Prefetch.none spec0 c (fun b => Wf m c (Proc.devRef .tc b))) -∗ Q' ⟨⟩)
        ∗ boundary (c : Thread nD τ) ∗ (dats m 0 c).arrays ((dats m 0 c).arrAt · cfg0.N)
        ∗ Pipeline.unscopedRestP Pipeline.Prefetch.none spec0 c (V m c))
      ⊢ wp frame (wpE (Pipeline.defs (pcfgs (F := F)) defs₀) (Variants.lift 𝒱₀) (c : Thread nD τ) none) Set.univ
          (Pipeline.chain [StableHlo.seq hostOps1]) Q' := by
  rw [Pipeline.unscopedRestP_none, Pipeline.unscopedRestP_none]
  have hrest : (Pipeline.unscopedRest spec0 c (V m c) : sProp 𝕄) = Pipeline.unscopedRest spec0 c (fun b => Wx m c (Proc.devRef .tc b)) := by
    unfold Pipeline.unscopedRest
    exact bigSep_congr fun b hb => by
      rw [← Wx_other m c b (fun e => (Finset.mem_sdiff.mp hb).2 (Finset.mem_image.mpr ⟨6, Finset.mem_univ _, e.symm⟩))
        (fun e => (Finset.mem_sdiff.mp hb).2 (Finset.mem_image.mpr ⟨7, Finset.mem_univ _, e.symm⟩))]
  have hentry : (iprop(boundary (c : Thread nD τ) ∗ (dats m 0 c).arrays ((dats m 0 c).arrAt · cfg0.N) ∗ Pipeline.unscopedRest spec0 c (V m c)) : sProp 𝕄)
      ⊢ iprop(boundary (c : Thread nD τ) ∗ StableHlo.held (c : Thread nD τ) (Pipeline.ucRefs τ sig) (Wx m c)) := by
    rw [hrest, held_split]
    iintro ⟨Hb, Ha, Hz⟩
    isplitl [Hb]; · iexact Hb
    isplitl [Ha]
    · iapply (arrays_iff m c (fun b => Wx m c (Proc.devRef .tc b)) _ (Wx_arr m c)).2; iexact Ha
    iexact Hz
  have hexit : (StableHlo.held (c : Thread nD τ) (Pipeline.ucRefs τ sig) (Wf m c) : sProp 𝕄)
      ⊢ iprop((dats m 0 c).arrays ((dats m 0 c).arrAt · cfg0.N) ∗ Pipeline.unscopedRest spec0 c (fun b => Wf m c (Proc.devRef .tc b))) := by
    rw [held_split]
    iintro ⟨Ha, Hz⟩
    isplitl [Ha]
    · iapply (arrays_iff m c (fun b => Wf m c (Proc.devRef .tc b)) _ (Wf_arr m c)).1; iexact Ha
    iexact Hz
  show _ ⊢ wp frame _ Set.univ (Pipeline.chain (([hostOps1] : List (List (HloOp τ sig (Elt F)))).map StableHlo.seq ++ [])) Q'
  iintro ⟨Hk, Hr⟩
  ihave Hb := hentry $$ Hr
  iapply (Pipeline.wp_seqs_then (pcfgs (F := F)) defs₀ 𝒱₀ c (Pipeline.ucRefs τ sig) [] [hostOps1]
    (fun ops ho op h => by
      obtain rfl := List.mem_singleton.mp ho
      exact Pipeline.sub_ucRefs op ((List.forall_iff_forall_mem.mp hostOps1_sub) op h))
    (fun ops ho op h => by
      obtain rfl := List.mem_singleton.mp ho
      exact (List.forall_iff_forall_mem.mp hostOps1_fresh) op h) (Wx m c)) $$ Hb
  iintro Hb
  rw [Pipeline.chain_nil, wp_pure]
  imodintro
  iapply Hk
  icases Hb with ⟨-, Hh⟩
  iapply hexit; iexact Hh

/-! ## The arguments are never written -/

set_option maxRecDepth 100000 in
theorem hostOps0_keeps_args (b : Ref sig .tc) (hb : b = main_arg0 ∨ b = main_arg1) :
    (hostOps0 : List (HloOp τ sig (Elt F))).Forall fun op => Proc.devRef .tc b ∉ op.writes := by
  rcases hb with rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_1_keeps_args (b : Ref sig .tc) (hb : b = main_arg0 ∨ b = main_arg1) :
    (hostOps0_1 : List (HloOp τ sig (Elt F))).Forall fun op => Proc.devRef .tc b ∉ op.writes := by
  rcases hb with rfl | rfl
  all_goals
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_2_keeps_args (b : Ref sig .tc) (hb : b = main_arg0 ∨ b = main_arg1) :
    (hostOps0_2 : List (HloOp τ sig (Elt F))).Forall fun op => Proc.devRef .tc b ∉ op.writes := by
  rcases hb with rfl | rfl
  all_goals
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_3_keeps_args (b : Ref sig .tc) (hb : b = main_arg0 ∨ b = main_arg1) :
    (hostOps0_3 : List (HloOp τ sig (Elt F))).Forall fun op => Proc.devRef .tc b ∉ op.writes := by
  rcases hb with rfl | rfl
  all_goals
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_4_keeps_args (b : Ref sig .tc) (hb : b = main_arg0 ∨ b = main_arg1) :
    (hostOps0_4 : List (HloOp τ sig (Elt F))).Forall fun op => Proc.devRef .tc b ∉ op.writes := by
  rcases hb with rfl | rfl
  all_goals
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_5_keeps_args (b : Ref sig .tc) (hb : b = main_arg0 ∨ b = main_arg1) :
    (hostOps0_5 : List (HloOp τ sig (Elt F))).Forall fun op => Proc.devRef .tc b ∉ op.writes := by
  rcases hb with rfl | rfl
  all_goals
    simp only [hostOps0_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_6_keeps_args (b : Ref sig .tc) (hb : b = main_arg0 ∨ b = main_arg1) :
    (hostOps0_6 : List (HloOp τ sig (Elt F))).Forall fun op => Proc.devRef .tc b ∉ op.writes := by
  rcases hb with rfl | rfl
  all_goals
    simp only [hostOps0_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_7_keeps_args (b : Ref sig .tc) (hb : b = main_arg0 ∨ b = main_arg1) :
    (hostOps0_7 : List (HloOp τ sig (Elt F))).Forall fun op => Proc.devRef .tc b ∉ op.writes := by
  rcases hb with rfl | rfl
  all_goals
    simp only [hostOps0_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_8_keeps_args (b : Ref sig .tc) (hb : b = main_arg0 ∨ b = main_arg1) :
    (hostOps0_8 : List (HloOp τ sig (Elt F))).Forall fun op => Proc.devRef .tc b ∉ op.writes := by
  rcases hb with rfl | rfl
  all_goals
    simp only [hostOps0_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_9_keeps_args (b : Ref sig .tc) (hb : b = main_arg0 ∨ b = main_arg1) :
    (hostOps0_9 : List (HloOp τ sig (Elt F))).Forall fun op => Proc.devRef .tc b ∉ op.writes := by
  rcases hb with rfl | rfl
  all_goals
    simp only [hostOps0_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_10_keeps_args (b : Ref sig .tc) (hb : b = main_arg0 ∨ b = main_arg1) :
    (hostOps0_10 : List (HloOp τ sig (Elt F))).Forall fun op => Proc.devRef .tc b ∉ op.writes := by
  rcases hb with rfl | rfl
  all_goals
    simp only [hostOps0_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_11_keeps_args (b : Ref sig .tc) (hb : b = main_arg0 ∨ b = main_arg1) :
    (hostOps0_11 : List (HloOp τ sig (Elt F))).Forall fun op => Proc.devRef .tc b ∉ op.writes := by
  rcases hb with rfl | rfl
  all_goals
    simp only [hostOps0_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_12_keeps_args (b : Ref sig .tc) (hb : b = main_arg0 ∨ b = main_arg1) :
    (hostOps0_12 : List (HloOp τ sig (Elt F))).Forall fun op => Proc.devRef .tc b ∉ op.writes := by
  rcases hb with rfl | rfl
  all_goals
    simp only [hostOps0_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_13_keeps_args (b : Ref sig .tc) (hb : b = main_arg0 ∨ b = main_arg1) :
    (hostOps0_13 : List (HloOp τ sig (Elt F))).Forall fun op => Proc.devRef .tc b ∉ op.writes := by
  rcases hb with rfl | rfl
  all_goals
    simp only [hostOps0_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_14_keeps_args (b : Ref sig .tc) (hb : b = main_arg0 ∨ b = main_arg1) :
    (hostOps0_14 : List (HloOp τ sig (Elt F))).Forall fun op => Proc.devRef .tc b ∉ op.writes := by
  rcases hb with rfl | rfl
  all_goals
    simp only [hostOps0_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_15_keeps_args (b : Ref sig .tc) (hb : b = main_arg0 ∨ b = main_arg1) :
    (hostOps0_15 : List (HloOp τ sig (Elt F))).Forall fun op => Proc.devRef .tc b ∉ op.writes := by
  rcases hb with rfl | rfl
  all_goals
    simp only [hostOps0_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_16_keeps_args (b : Ref sig .tc) (hb : b = main_arg0 ∨ b = main_arg1) :
    (hostOps0_16 : List (HloOp τ sig (Elt F))).Forall fun op => Proc.devRef .tc b ∉ op.writes := by
  rcases hb with rfl | rfl
  all_goals
    simp only [hostOps0_16, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_17_keeps_args (b : Ref sig .tc) (hb : b = main_arg0 ∨ b = main_arg1) :
    (hostOps0_17 : List (HloOp τ sig (Elt F))).Forall fun op => Proc.devRef .tc b ∉ op.writes := by
  rcases hb with rfl | rfl
  all_goals
    simp only [hostOps0_17, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_18_keeps_args (b : Ref sig .tc) (hb : b = main_arg0 ∨ b = main_arg1) :
    (hostOps0_18 : List (HloOp τ sig (Elt F))).Forall fun op => Proc.devRef .tc b ∉ op.writes := by
  rcases hb with rfl | rfl
  all_goals
    simp only [hostOps0_18, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No host operation before the region writes an argument array: each writes its own result buffer. -/
theorem prefix_keeps_args (b : Ref sig .tc) (hb : b = main_arg0 ∨ b = main_arg1) :
    ∀ ops ∈ (prefixOps : List (List (HloOp τ sig (Elt F)))), ∀ op ∈ ops, Proc.devRef .tc b ∉ op.writes := by
  intro ops hops
  simp only [prefixOps, List.mem_cons, List.mem_nil_iff, _root_.or_false] at hops
  rcases hops with rfl | rfl | rfl | rfl | rfl | rfl | rfl | rfl | rfl | rfl | rfl | rfl | rfl | rfl | rfl | rfl | rfl | rfl | rfl
  exacts [List.forall_iff_forall_mem.mp (hostOps0_keeps_args b hb),
    List.forall_iff_forall_mem.mp (hostOps0_1_keeps_args b hb),
    List.forall_iff_forall_mem.mp (hostOps0_2_keeps_args b hb),
    List.forall_iff_forall_mem.mp (hostOps0_3_keeps_args b hb),
    List.forall_iff_forall_mem.mp (hostOps0_4_keeps_args b hb),
    List.forall_iff_forall_mem.mp (hostOps0_5_keeps_args b hb),
    List.forall_iff_forall_mem.mp (hostOps0_6_keeps_args b hb),
    List.forall_iff_forall_mem.mp (hostOps0_7_keeps_args b hb),
    List.forall_iff_forall_mem.mp (hostOps0_8_keeps_args b hb),
    List.forall_iff_forall_mem.mp (hostOps0_9_keeps_args b hb),
    List.forall_iff_forall_mem.mp (hostOps0_10_keeps_args b hb),
    List.forall_iff_forall_mem.mp (hostOps0_11_keeps_args b hb),
    List.forall_iff_forall_mem.mp (hostOps0_12_keeps_args b hb),
    List.forall_iff_forall_mem.mp (hostOps0_13_keeps_args b hb),
    List.forall_iff_forall_mem.mp (hostOps0_14_keeps_args b hb),
    List.forall_iff_forall_mem.mp (hostOps0_15_keeps_args b hb),
    List.forall_iff_forall_mem.mp (hostOps0_16_keeps_args b hb),
    List.forall_iff_forall_mem.mp (hostOps0_17_keeps_args b hb),
    List.forall_iff_forall_mem.mp (hostOps0_18_keeps_args b hb)]

theorem V_main_arg0 (c : Dev nD) : V m c main_arg0 = m ((c : Thread nD τ).loc main_arg0) :=
  StableHlo.after_of_forall_not_mem (b := Proc.devRef .tc main_arg0) _ _ fun op hop => by
    obtain ⟨ops, hops, h⟩ := List.mem_flatten.mp hop
    exact prefix_keeps_args main_arg0 (.inl rfl) ops hops op h
theorem V_main_arg1 (c : Dev nD) : V m c main_arg1 = m ((c : Thread nD τ).loc main_arg1) :=
  StableHlo.after_of_forall_not_mem (b := Proc.devRef .tc main_arg1) _ _ fun op hop => by
    obtain ⟨ops, hops, h⟩ := List.mem_flatten.mp hop
    exact prefix_keeps_args main_arg1 (.inr rfl) ops hops op h

/-- Nor does any of the fourteen after it. -/
theorem Wf_main_arg0 (c : Dev nD) : Wf m c (Proc.devRef .tc main_arg0) = m ((c : Thread nD τ).loc main_arg0) := by
  unfold Wf
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))), Wx_other m c main_arg0 (by decide) (by decide), V_main_arg0]
theorem Wf_main_arg1 (c : Dev nD) : Wf m c (Proc.devRef .tc main_arg1) = m ((c : Thread nD τ).loc main_arg1) := by
  unfold Wf
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))), Wx_other m c main_arg1 (by decide) (by decide), V_main_arg1]

/-! ## The run -/

/-- An unscoped buffer that is no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- What every final state satisfies: the result buffer holds the final valuation's value, and both argument arrays
    hold what they held at launch. -/
def Post : PUnit × MemSt nD τ sig (Elt F) → Prop := fun r => ∀ c : Dev nD,
  r.2.mem ((c.tc : Thread nD τ).loc main_v58) = Wf m c (Proc.devRef .tc main_v58)
  ∧ r.2.mem ((c.tc : Thread nD τ).loc main_arg0) = m ((c.tc : Thread nD τ).loc main_arg0)
  ∧ r.2.mem ((c.tc : Thread nD τ).loc main_arg1) = m ((c.tc : Thread nD τ).loc main_arg1)

set_option maxRecDepth 400000 in
set_option maxHeartbeats 8000000 in
set_option backward.isDefEq.respectTransparency.types false in
/-- At the compiled mesh, for any values, from any memory with zero counters: every weakly fair execution of @main on the
    TensorCores terminates, nothing faulting, in a state satisfying `Post`. -/
theorem run_main : θ_run defs (onTc (τ := τ) (main (F := F))) (s₀ m ρ) (Post m) :=
  Pipeline.θ_run_region_pf_tail (pcfgs (F := F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun _ => rfl)).1)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m Variants.none)
    (QY := fun c s => ∀ b ∈ Pipeline.restRefsP sig Pipeline.Prefetch.none spec0,
      s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => Wf m c (Proc.devRef .tc b)) s')
      isplitl [HU] <;> iassumption)
    (hQ := fun s h c => ⟨(h c).2.2 main_v58 (mem_rest main_v58 rfl (by decide)),
      ((h c).2.2 main_arg0 (mem_rest main_arg0 rfl (by decide))).trans (Wf_main_arg0 m c),
      ((h c).2.2 main_arg1 (mem_rest main_arg1 rfl (by decide))).trans (Wf_main_arg1 m c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.KernelIdeal.Run

end
-- ==== Proof.BitsBody.lean ====
/-
  The kernel body at one grid point, as a Hoare triple over its eight staging buffers.

  At a point of the 16 x 16 grid the body reads six blocks: the 128 query rows `q` of the point's row tile, all
  2048 key rows `k` of the point's image pair, the tile's row labels and row validities (columns of height 128)
  and the pair's column labels and column validities (rows of width 2048).  It computes the scaled logits
  `q kᵀ · c`, shifts each row by its maximum, builds the positive and negative masks from the labels, the
  validities and the row / column positions, and reduces each row to two numbers: its loss and whether it has
  a positive partner.  It stores the 128 losses into the seventh buffer and the 128 flags into the eighth, each
  by one store covering the whole buffer; both buffers are read once before being overwritten, the values read
  going nowhere.

  `rowLoss` and `rowFlag` name the two column vectors as pure terms of the six blocks and the grid point;
  `lossBlock` and `flagBlock` are what the two output buffers hold afterwards.  `body_triple` says that from
  the six input buffers held whole at given contents and the two output buffers held at anything, the body runs
  to its return with the inputs as they were and the outputs at those two blocks.
-/
import proofs.«110907_j88038239634215_2_alg».proof.Proof.Gen.Kernel.Launch
import proofs.«110907_j88038239634215_2_alg».proof.Proof.Gen.Kernel.Skeleton
import proofs.«110907_j88038239634215_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each one a whole buffer -/

abbrev rQ : Rect S1x128x256 := Rect.unit (s := S1x128x256) ![0, 0, 0] S1x128x256.size inb_S1x128x256_S1x128x256_0_0_0
abbrev rK : Rect S1x2048x256 := Rect.unit (s := S1x2048x256) ![0, 0, 0] S1x2048x256.size inb_S1x2048x256_S1x2048x256_0_0_0
abbrev rCol : Rect S1x128x1 := Rect.unit (s := S1x128x1) ![0, 0, 0] S1x128x1.size inb_S1x128x1_S1x128x1_0_0_0
abbrev rRow : Rect S1x1x2048 := Rect.unit (s := S1x1x2048) ![0, 0, 0] S1x1x2048.size inb_S1x1x2048_S1x1x2048_0_0_0

/-! ## The two column vectors the body computes -/

/-- Per row of the tile: 1 if the row has a valid positive partner other than itself, else 0. -/
def rowFlag (i : grid0.Coords) (lr : Vec F S1x128x1 .i32) (lc : Vec F S1x1x2048 .i32) (vr : Vec F S1x128x1 .f32) (vc : Vec F S1x1x2048 .f32) :
    FVec F S128x1 .f32 :=
  k0_pay12 (k0_pay5 (View.ld lr rCol) (View.ld lc rRow) (View.ld vr rCol) (View.ld vc rRow)) (k0_pay7 i) k0_pay8

/-- Per row of the tile: minus the mean, over the row's positive partners, of the log-probability of the partner
    against the row's negatives, times the row's flag. -/
def rowLoss (i : grid0.Coords) (q : Vec F S1x128x256 .bf16) (k : Vec F S1x2048x256 .bf16)
    (lr : Vec F S1x128x1 .i32) (lc : Vec F S1x1x2048 .i32) (vr : Vec F S1x128x1 .f32) (vc : Vec F S1x1x2048 .f32) : FVec F S128x1 .f32 :=
  k0_pay13 (k0_pay3 (View.ld q rQ) (View.ld k rK)) (k0_pay4 (View.ld vr rCol) (View.ld vc rRow))
    (k0_pay5 (View.ld lr rCol) (View.ld lc rRow) (View.ld vr rCol) (View.ld vc rRow)) (k0_pay6 i)
    (iota .tc S1x2048 32 [1] iota_S1x2048_d1_w32) (k0_pay7 i) k0_pay8

/-- The loss buffer after the body: its one store, of the losses as a [1,128,1] block. -/
def lossBlock (i : grid0.Coords) (q : Vec F S1x128x256 .bf16) (k : Vec F S1x2048x256 .bf16)
    (lr : Vec F S1x128x1 .i32) (lc : Vec F S1x1x2048 .i32) (vr : Vec F S1x128x1 .f32) (vc : Vec F S1x1x2048 .f32) : Vec F S1x128x1 .f32 :=
  View.canon [⟨rCol, k0_pay1 (rowLoss i q k lr lc vr vc)⟩]

/-- The flag buffer after the body: its one store, of the flags as a [1,128,1] block. -/
def flagBlock (i : grid0.Coords) (lr : Vec F S1x128x1 .i32) (lc : Vec F S1x1x2048 .i32) (vr : Vec F S1x128x1 .f32) (vc : Vec F S1x1x2048 .f32) :
    Vec F S1x128x1 .f32 :=
  View.canon [⟨rCol, k0_pay2 (rowFlag i lr lc vr vc)⟩]

/-- One store through the whole-buffer rectangle covers the buffer. -/
theorem cover_col (p0 : rCol.shape.Idx → Elt F .f32) (y : S1x128x1.Idx) :
    ∃ pc ∈ ([⟨rCol, p0⟩] : List (View.Piece (Elt F) S1x128x1 .f32)), y ∈ pc.1.set :=
  View.cover_of_tiled [⟨rCol, p0⟩] S1x128x1.size (by rfl) y

/-! ## The body's triple -/

set_option maxHeartbeats 2000000 in
theorem body_triple (c : Dev nD) (E : Set ℕ) (i : grid0.Coords)
    (arg2 : Memref sig .tc .vmem S1x128x256 .bf16) (harg2 : arg2.IsWhole) (arg3 : Memref sig .tc .vmem S1x2048x256 .bf16) (harg3 : arg3.IsWhole)
    (arg4 : Memref sig .tc .vmem S1x128x1 .i32) (harg4 : arg4.IsWhole) (arg5 : Memref sig .tc .vmem S1x1x2048 .i32) (harg5 : arg5.IsWhole)
    (arg6 : Memref sig .tc .vmem S1x128x1 .f32) (harg6 : arg6.IsWhole) (arg7 : Memref sig .tc .vmem S1x1x2048 .f32) (harg7 : arg7.IsWhole)
    (arg8 : Memref sig .tc .vmem S1x128x1 .f32) (harg8 : arg8.IsWhole) (arg9 : Memref sig .tc .vmem S1x128x1 .f32) (harg9 : arg9.IsWhole)
    (q : Vec F S1x128x256 .bf16) (k : Vec F S1x2048x256 .bf16) (lr : Vec F S1x128x1 .i32) (lc : Vec F S1x1x2048 .i32)
    (vr : Vec F S1x128x1 .f32) (vc : Vec F S1x1x2048 .f32) (K : PUnit → sProp 𝕄) :
    iprop(owns (c : Thread nD τ) arg2 fullShare q ∗ owns (c : Thread nD τ) arg3 fullShare k ∗ owns (c : Thread nD τ) arg4 fullShare lr
        ∗ owns (c : Thread nD τ) arg5 fullShare lc ∗ owns (c : Thread nD τ) arg6 fullShare vr ∗ owns (c : Thread nD τ) arg7 fullShare vc
        ∗ (∃ d, owns (c : Thread nD τ) arg8 fullShare d) ∗ (∃ d, owns (c : Thread nD τ) arg9 fullShare d)
        ∗ (iprop(owns (c : Thread nD τ) arg2 fullShare q ∗ owns (c : Thread nD τ) arg3 fullShare k ∗ owns (c : Thread nD τ) arg4 fullShare lr
            ∗ owns (c : Thread nD τ) arg5 fullShare lc ∗ owns (c : Thread nD τ) arg6 fullShare vr ∗ owns (c : Thread nD τ) arg7 fullShare vc
            ∗ owns (c : Thread nD τ) arg8 fullShare (lossBlock i q k lr lc vr vc)
            ∗ owns (c : Thread nD τ) arg9 fullShare (flagBlock i lr lc vr vc)) -∗ K ⟨⟩))
      ⊢ wp frame (wpE (defs₀ (F := F)) Variants.none c none) E
          (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_col _)
  iexists _; isplitr
  swap; · iexact H7
  ipureintro
  exact View.read_writes_eq_canon _ _ _ (cover_col _)

end Cert.Kernel.Body

end
-- ==== Proof.BitsRun.lean ====
/-
  The run of the program around its one kernel region, from the body's triple.

  @main is nineteen stretches of host operations (the sampling: a stable sort of the labels' priorities, the
  gathers it indexes, the pairing of each image with the next, the normalisation of the sampled features), the
  kernel region on a 16 x 16 grid (image pair x row tile), and fourteen more host operations that reduce the
  region's two column arrays to one number.

  The region has eight windows.  Windows 0 and 1 are two views of ONE array, the normalised features: the tile's
  128 rows and all 2048 rows of the pair.  The array is therefore held by the two windows at the two halves of the
  full share; every other input array, and the two output arrays, at the full share.  `dats` is the proof data: each
  input window's staging buffer holds the array's block at the point, each output window's what the body leaves
  there (`Body.lossBlock`, `Body.flagBlock` of the six input blocks).
-/
import proofs.«110907_j88038239634215_2_alg».proof.Proof.BitsBody
import Idealize.ShloMosaic.Lib.Pipeline.FrameSuffix

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Every buffer's contents when the region is entered: the launch contents run through the prefix. -/
abbrev V0 (c : Dev nD) : Valuation τ sig (Elt F) := StableHlo.after (List.flatten prefixOps) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the fourteen later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lossBlock (grid0.coords t) (iblk m c 0 t) (iblk m c 1 t) (iblk m c 2 t) (iblk m c 3 t) (iblk m c 4 t) (iblk m c 5 t)
    | ⟨7, _⟩ => flagBlock (grid0.coords t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = lossBlock (grid0.coords t) (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = flagBlock (grid0.coords t) (iblk m c 2 t) (iblk m c 3 t) (iblk m c 4 t) (iblk m c 5 t) := by dsimp only [dats]

/-- Each input window's current staging buffer holds its block at every point, fetched there or not: an input not
    fetched at a point has the block index it had at the point before, and the body leaves input blocks in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

end Cert.Kernel.Run

end
-- ==== Proof.BitsLaunch.lean ====
/-
  The launch of the region whose first two windows share an array, and the program's run.

  What the launch hands the pipeline is the seven distinct buffers behind the eight windows, each held whole.  The
  pipeline wants one holding per window: the shared buffer is therefore split along the two halves of the full share
  (`arrays_iff`, read left to right at the region's entry).  When the region is left the same equivalence, read right
  to left, rejoins the halves — both windows are inputs, so both halves still hold the entry contents — and the
  fourteen host operations that follow run over all the unscoped buffers again.
-/
import proofs.«110907_j88038239634215_2_alg».proof.Proof.BitsRun

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The share each window holds its array at -/

theorem share_0 (c : Dev nD) : (dats m 0 c).share 0 = fullShare.left := by
  unfold Dat.share
  rw [show (cfg0.win 0).isOut = false from rfl]
  simp only [Bool.false_eq_true, ↓reduceIte]
  dsimp only [dats]
theorem share_1 (c : Dev nD) : (dats m 0 c).share 1 = fullShare.right := by
  unfold Dat.share
  rw [show (cfg0.win 1).isOut = false from rfl]
  simp only [Bool.false_eq_true, ↓reduceIte]
  dsimp only [dats]
theorem share_2 (c : Dev nD) : (dats m 0 c).share 2 = fullShare := by
  unfold Dat.share
  rw [show (cfg0.win 2).isOut = false from rfl]
  simp only [Bool.false_eq_true, ↓reduceIte]
  dsimp only [dats]
theorem share_3 (c : Dev nD) : (dats m 0 c).share 3 = fullShare := by
  unfold Dat.share
  rw [show (cfg0.win 3).isOut = false from rfl]
  simp only [Bool.false_eq_true, ↓reduceIte]
  dsimp only [dats]
theorem share_4 (c : Dev nD) : (dats m 0 c).share 4 = fullShare := by
  unfold Dat.share
  rw [show (cfg0.win 4).isOut = false from rfl]
  simp only [Bool.false_eq_true, ↓reduceIte]
  dsimp only [dats]
theorem share_5 (c : Dev nD) : (dats m 0 c).share 5 = fullShare := by
  unfold Dat.share
  rw [show (cfg0.win 5).isOut = false from rfl]
  simp only [Bool.false_eq_true, ↓reduceIte]
  dsimp only [dats]
theorem share_6 (c : Dev nD) : (dats m 0 c).share 6 = fullShare := by
  unfold Dat.share
  rw [show (cfg0.win 6).isOut = true from rfl]
  simp only [↓reduceIte]
theorem share_7 (c : Dev nD) : (dats m 0 c).share 7 = fullShare := by
  unfold Dat.share
  rw [show (cfg0.win 7).isOut = true from rfl]
  simp only [↓reduceIte]

/-! ## The arrays behind the windows, two of them one buffer -/

theorem arr_img : Finset.univ.image (Pipeline.arrRef spec0)
    = {Pipeline.arrRef spec0 0, Pipeline.arrRef spec0 2, Pipeline.arrRef spec0 3, Pipeline.arrRef spec0 4, Pipeline.arrRef spec0 5,
       Pipeline.arrRef spec0 6, Pipeline.arrRef spec0 7} := by decide

/-- Every window's array is a whole buffer, so the pipeline's holdings are plain points-tos, window by window. -/
theorem arrays_pts (c : Dev nD) (G : (w : Fin cfg0.W) → Buf (Elt F) ((cfg0.win w).arr.view.loc (c : Thread nD τ))) :
    (dats m 0 c).arrays G
      = bigSep Finset.univ fun w : Fin cfg0.W => (((cfg0.win w).arr.view.loc (c : Thread nD τ)) ↦{(dats m 0 c).share w} G w : sProp 𝕄) := by
  unfold Dat.arrays
  exact bigSep_congr fun w _ => by rw [(arr_whole0 w).set_eq_univ]

/-- The buffer behind window `w`, whole at the full share at what `X` gives it. -/
abbrev ptArr (c : Dev nD) (X : (b : Ref sig .tc) → Buf (Elt F) ((c : Thread nD τ).loc b)) (w : Fin cfg0.W) : sProp 𝕄 :=
  ((c : Thread nD τ).loc (Pipeline.arrRef spec0 w)) ↦{fullShare} X (Pipeline.arrRef spec0 w)

/-- The same at a share `q`. -/
abbrev ptArrAt (c : Dev nD) (X : (b : Ref sig .tc) → Buf (Elt F) ((c : Thread nD τ).loc b)) (w : Fin cfg0.W) (q : PosShare TreeShare) : sProp 𝕄 :=
  ((c : Thread nD τ).loc (Pipeline.arrRef spec0 w)) ↦{q} X (Pipeline.arrRef spec0 w)

/-- Seven distinct buffers stand behind the eight windows. -/
theorem arrBufs_eq (c : Dev nD) (X : (b : Ref sig .tc) → Buf (Elt F) ((c : Thread nD τ).loc b)) :
    (Pipeline.arrBufs spec0 c X : sProp 𝕄)
      = iprop(ptArr c X 0 ∗ ptArr c X 2 ∗ ptArr c X 3 ∗ ptArr c X 4 ∗ ptArr c X 5 ∗ ptArr c X 6 ∗ ptArr c X 7) := by
  unfold Pipeline.arrBufs
  rw [arr_img,
    BI.bigSep_insert (by decide), BI.bigSep_insert (by decide), BI.bigSep_insert (by decide), BI.bigSep_insert (by decide),
    BI.bigSep_insert (by decide), BI.bigSep_insert (by decide), BI.bigSep_singleton]
  rfl

/-- Held whole, each at the contents `X` gives it, the seven buffers are the pipeline's `arrays` at the same contents:
    the shared one split along the two halves of the full share for windows 0 and 1, the others as they are. -/
theorem arrays_iff (c : Dev nD) (X : (b : Ref sig .tc) → Buf (Elt F) ((c : Thread nD τ).loc b))
    (G : (w : Fin cfg0.W) → Buf (Elt F) ((cfg0.win w).arr.view.loc (c : Thread nD τ)))
    (hG : ∀ w, G w = X (Pipeline.arrRef spec0 w)) :
    (Pipeline.arrBufs spec0 c X : sProp 𝕄) ⊣⊢ (dats m 0 c).arrays G := by
  rw [arrays_pts, arrBufs_eq, bigSep_W0]
  rw [hG 0, hG 1, hG 2, hG 3, hG 4, hG 5, hG 6, hG 7]
  rw [share_0, share_1, share_2, share_3, share_4, share_5, share_6, share_7]
  show iprop(ptArr c X 0 ∗ ptArr c X 2 ∗ ptArr c X 3 ∗ ptArr c X 4 ∗ ptArr c X 5 ∗ ptArr c X 6 ∗ ptArr c X 7)
    ⊣⊢ iprop(ptArrAt c X 0 fullShare.left ∗ ptArrAt c X 0 fullShare.right
        ∗ ptArr c X 2 ∗ ptArr c X 3 ∗ ptArr c X 4 ∗ ptArr c X 5 ∗ ptArr c X 6 ∗ ptArr c X 7)
  constructor
  · iintro ⟨H0, H2, H3, H4, H5, H6, H7⟩
    ihave H01 := (pointsTo_share (PosShare.mem_left_op_right fullShare)).1 $$ H0
    icases H01 with ⟨H0, H1⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    iexact H7

/-! ## The contents when the region is left, and at the end -/

open Classical in
/-- Every buffer's contents when the region is left: the two output arrays at what the write-backs made of them,
    every other buffer as the region found it. -/
def Wx (c : Dev nD) : Valuation τ sig (Elt F) :=
  Function.update (Function.update (V0 m c) (Proc.devRef .tc (Pipeline.arrRef spec0 6)) ((dats m 0 c).arrAt 6 cfg0.N))
    (Proc.devRef .tc (Pipeline.arrRef spec0 7)) ((dats m 0 c).arrAt 7 cfg0.N)

/-- Every buffer's contents at the end: the fourteen last operations run from the exit contents. -/
def Wf (c : Dev nD) : Valuation τ sig (Elt F) := StableHlo.after (List.flatten [hostOps1]) (Wx m c)

theorem Wx_out7 (c : Dev nD) : Wx m c (Proc.devRef .tc (Pipeline.arrRef spec0 7)) = (dats m 0 c).arrAt 7 cfg0.N := by
  unfold Wx; exact Function.update_self ..

theorem Wx_out6 (c : Dev nD) : Wx m c (Proc.devRef .tc (Pipeline.arrRef spec0 6)) = (dats m 0 c).arrAt 6 cfg0.N := by
  unfold Wx
  rw [Function.update_of_ne (StableHlo.devRef_ne_of_ne (by decide))]; exact Function.update_self ..

theorem Wx_other (c : Dev nD) (b : Ref sig .tc) (h6 : b ≠ Pipeline.arrRef spec0 6) (h7 : b ≠ Pipeline.arrRef spec0 7) :
    Wx m c (Proc.devRef .tc b) = V m c b := by
  unfold Wx
  rw [Function.update_of_ne (StableHlo.devRef_ne_of_ne h7), Function.update_of_ne (StableHlo.devRef_ne_of_ne h6)]

/-- At every window the exit contents of its array are what the write-backs computed: an input array is never
    written back, so it holds what the region found. -/
theorem Wx_arr (c : Dev nD) : ∀ w : Fin cfg0.W, (dats m 0 c).arrAt w cfg0.N = Wx m c (Proc.devRef .tc (Pipeline.arrRef spec0 w))
  | ⟨0, _⟩ => (((dats m 0 c).arrAt_in 0 rfl _).trans (A_eq m c 0)).trans (Wx_other m c _ (by decide) (by decide)).symm
  | ⟨1, _⟩ => (((dats m 0 c).arrAt_in 1 rfl _).trans (A_eq m c 1)).trans (Wx_other m c _ (by decide) (by decide)).symm
  | ⟨2, _⟩ => (((dats m 0 c).arrAt_in 2 rfl _).trans (A_eq m c 2)).trans (Wx_other m c _ (by decide) (by decide)).symm
  | ⟨3, _⟩ => (((dats m 0 c).arrAt_in 3 rfl _).trans (A_eq m c 3)).trans (Wx_other m c _ (by decide) (by decide)).symm
  | ⟨4, _⟩ => (((dats m 0 c).arrAt_in 4 rfl _).trans (A_eq m c 4)).trans (Wx_other m c _ (by decide) (by decide)).symm
  | ⟨5, _⟩ => (((dats m 0 c).arrAt_in 5 rfl _).trans (A_eq m c 5)).trans (Wx_other m c _ (by decide) (by decide)).symm
  | ⟨6, _⟩ => (Wx_out6 m c).symm
  | ⟨7, _⟩ => (Wx_out7 m c).symm

/-- None of the fourteen last operations writes an array of the pipeline: each writes its own result buffer. -/
theorem tail_keeps (w : Fin cfg0.W) :
    ∀ op ∈ (hostOps1 : List (HloOp τ sig (Elt F))), Proc.devRef .tc (Pipeline.arrRef spec0 w) ∉ op.writes := by
  intro op hop
  simp only [hostOps1, List.mem_cons, List.mem_nil_iff, _root_.or_false] at hop
  rcases hop with rfl | rfl | rfl | rfl | rfl | rfl | rfl | rfl | rfl | rfl | rfl | rfl | rfl | rfl
  all_goals (fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide))

theorem Wf_arr (c : Dev nD) (w : Fin cfg0.W) : (dats m 0 c).arrAt w cfg0.N = Wf m c (Proc.devRef .tc (Pipeline.arrRef spec0 w)) := by
  unfold Wf
  rw [StableHlo.after_of_forall_not_mem _ _ (by
    simp only [List.flatten_cons, List.flatten_nil, List.append_nil]; exact tail_keeps w)]
  exact Wx_arr m c w

/-! ## The last host operations, run from the region's exit -/

/-- All the unscoped buffers held at `X` are the seven array buffers and the bypassing ones, at `X`. -/
theorem held_split (c : Dev nD) (X : Valuation τ sig (Elt F)) :
    (StableHlo.held (c : Thread nD τ) (Pipeline.ucRefs τ sig) X : sProp 𝕄)
      = iprop(Pipeline.arrBufs spec0 c (fun b => X (Proc.devRef .tc b)) ∗ Pipeline.unscopedRest spec0 c (fun b => X (Proc.devRef .tc b))) := by
  rw [← Pipeline.unscopedBufs_held]
  exact Pipeline.unscopedBufs_split₀ cfgs 0 winFacts₀0.arr_unscoped c _

/-- From the region's exit — the boundary, the pipeline's holdings of its arrays at their final contents, the bypassing
    buffers as the region found them — the fourteen operations run and hand back the same at the final contents:
    the halves of the shared array are rejoined (both still at the entry contents), the operations run over all the
    unscoped buffers, and the shared array is split again. -/
theorem tail_run (𝒱₀ : Variants) (c : Dev nD) (Q' : PUnit → sProp 𝕄) :
    iprop((iprop((dats m 0 c).arrays ((dats m 0 c).arrAt · cfg0.N)
              ∗ Pipeline.unscopedRestP Pipeline.Prefetch.none spec0 c (fun b => Wf m c (Proc.devRef .tc b))) -∗ Q' ⟨⟩)
        ∗ boundary (c : Thread nD τ) ∗ (dats m 0 c).arrays ((dats m 0 c).arrAt · cfg0.N)
        ∗ Pipeline.unscopedRestP Pipeline.Prefetch.none spec0 c (V m c))
      ⊢ wp frame (wpE (Pipeline.defs (pcfgs (F := F)) defs₀) (Variants.lift 𝒱₀) (c : Thread nD τ) none) Set.univ
          (Pipeline.chain [StableHlo.seq hostOps1]) Q' := by
  rw [Pipeline.unscopedRestP_none, Pipeline.unscopedRestP_none]
  have hrest : (Pipeline.unscopedRest spec0 c (V m c) : sProp 𝕄) = Pipeline.unscopedRest spec0 c (fun b => Wx m c (Proc.devRef .tc b)) := by
    unfold Pipeline.unscopedRest
    exact bigSep_congr fun b hb => by
      rw [← Wx_other m c b (fun e => (Finset.mem_sdiff.mp hb).2 (Finset.mem_image.mpr ⟨6, Finset.mem_univ _, e.symm⟩))
        (fun e => (Finset.mem_sdiff.mp hb).2 (Finset.mem_image.mpr ⟨7, Finset.mem_univ _, e.symm⟩))]
  have hentry : (iprop(boundary (c : Thread nD τ) ∗ (dats m 0 c).arrays ((dats m 0 c).arrAt · cfg0.N) ∗ Pipeline.unscopedRest spec0 c (V m c)) : sProp 𝕄)
      ⊢ iprop(boundary (c : Thread nD τ) ∗ StableHlo.held (c : Thread nD τ) (Pipeline.ucRefs τ sig) (Wx m c)) := by
    rw [hrest, held_split]
    iintro ⟨Hb, Ha, Hz⟩
    isplitl [Hb]; · iexact Hb
    isplitl [Ha]
    · iapply (arrays_iff m c (fun b => Wx m c (Proc.devRef .tc b)) _ (Wx_arr m c)).2; iexact Ha
    iexact Hz
  have hexit : (StableHlo.held (c : Thread nD τ) (Pipeline.ucRefs τ sig) (Wf m c) : sProp 𝕄)
      ⊢ iprop((dats m 0 c).arrays ((dats m 0 c).arrAt · cfg0.N) ∗ Pipeline.unscopedRest spec0 c (fun b => Wf m c (Proc.devRef .tc b))) := by
    rw [held_split]
    iintro ⟨Ha, Hz⟩
    isplitl [Ha]
    · iapply (arrays_iff m c (fun b => Wf m c (Proc.devRef .tc b)) _ (Wf_arr m c)).1; iexact Ha
    iexact Hz
  show _ ⊢ wp frame _ Set.univ (Pipeline.chain (([hostOps1] : List (List (HloOp τ sig (Elt F)))).map StableHlo.seq ++ [])) Q'
  iintro ⟨Hk, Hr⟩
  ihave Hb := hentry $$ Hr
  iapply (Pipeline.wp_seqs_then (pcfgs (F := F)) defs₀ 𝒱₀ c (Pipeline.ucRefs τ sig) [] [hostOps1]
    (fun ops ho op h => by
      obtain rfl := List.mem_singleton.mp ho
      exact Pipeline.sub_ucRefs op ((List.forall_iff_forall_mem.mp hostOps1_sub) op h))
    (fun ops ho op h => by
      obtain rfl := List.mem_singleton.mp ho
      exact (List.forall_iff_forall_mem.mp hostOps1_fresh) op h) (Wx m c)) $$ Hb
  iintro Hb
  rw [Pipeline.chain_nil, wp_pure]
  imodintro
  iapply Hk
  icases Hb with ⟨-, Hh⟩
  iapply hexit; iexact Hh

/-! ## The arguments are never written -/

set_option maxRecDepth 100000 in
theorem hostOps0_keeps_args (b : Ref sig .tc) (hb : b = main_arg0 ∨ b = main_arg1) :
    (hostOps0 : List (HloOp τ sig (Elt F))).Forall fun op => Proc.devRef .tc b ∉ op.writes := by
  rcases hb with rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_1_keeps_args (b : Ref sig .tc) (hb : b = main_arg0 ∨ b = main_arg1) :
    (hostOps0_1 : List (HloOp τ sig (Elt F))).Forall fun op => Proc.devRef .tc b ∉ op.writes := by
  rcases hb with rfl | rfl
  all_goals
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_2_keeps_args (b : Ref sig .tc) (hb : b = main_arg0 ∨ b = main_arg1) :
    (hostOps0_2 : List (HloOp τ sig (Elt F))).Forall fun op => Proc.devRef .tc b ∉ op.writes := by
  rcases hb with rfl | rfl
  all_goals
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_3_keeps_args (b : Ref sig .tc) (hb : b = main_arg0 ∨ b = main_arg1) :
    (hostOps0_3 : List (HloOp τ sig (Elt F))).Forall fun op => Proc.devRef .tc b ∉ op.writes := by
  rcases hb with rfl | rfl
  all_goals
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_4_keeps_args (b : Ref sig .tc) (hb : b = main_arg0 ∨ b = main_arg1) :
    (hostOps0_4 : List (HloOp τ sig (Elt F))).Forall fun op => Proc.devRef .tc b ∉ op.writes := by
  rcases hb with rfl | rfl
  all_goals
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_5_keeps_args (b : Ref sig .tc) (hb : b = main_arg0 ∨ b = main_arg1) :
    (hostOps0_5 : List (HloOp τ sig (Elt F))).Forall fun op => Proc.devRef .tc b ∉ op.writes := by
  rcases hb with rfl | rfl
  all_goals
    simp only [hostOps0_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_6_keeps_args (b : Ref sig .tc) (hb : b = main_arg0 ∨ b = main_arg1) :
    (hostOps0_6 : List (HloOp τ sig (Elt F))).Forall fun op => Proc.devRef .tc b ∉ op.writes := by
  rcases hb with rfl | rfl
  all_goals
    simp only [hostOps0_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_7_keeps_args (b : Ref sig .tc) (hb : b = main_arg0 ∨ b = main_arg1) :
    (hostOps0_7 : List (HloOp τ sig (Elt F))).Forall fun op => Proc.devRef .tc b ∉ op.writes := by
  rcases hb with rfl | rfl
  all_goals
    simp only [hostOps0_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_8_keeps_args (b : Ref sig .tc) (hb : b = main_arg0 ∨ b = main_arg1) :
    (hostOps0_8 : List (HloOp τ sig (Elt F))).Forall fun op => Proc.devRef .tc b ∉ op.writes := by
  rcases hb with rfl | rfl
  all_goals
    simp only [hostOps0_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_9_keeps_args (b : Ref sig .tc) (hb : b = main_arg0 ∨ b = main_arg1) :
    (hostOps0_9 : List (HloOp τ sig (Elt F))).Forall fun op => Proc.devRef .tc b ∉ op.writes := by
  rcases hb with rfl | rfl
  all_goals
    simp only [hostOps0_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_10_keeps_args (b : Ref sig .tc) (hb : b = main_arg0 ∨ b = main_arg1) :
    (hostOps0_10 : List (HloOp τ sig (Elt F))).Forall fun op => Proc.devRef .tc b ∉ op.writes := by
  rcases hb with rfl | rfl
  all_goals
    simp only [hostOps0_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_11_keeps_args (b : Ref sig .tc) (hb : b = main_arg0 ∨ b = main_arg1) :
    (hostOps0_11 : List (HloOp τ sig (Elt F))).Forall fun op => Proc.devRef .tc b ∉ op.writes := by
  rcases hb with rfl | rfl
  all_goals
    simp only [hostOps0_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_12_keeps_args (b : Ref sig .tc) (hb : b = main_arg0 ∨ b = main_arg1) :
    (hostOps0_12 : List (HloOp τ sig (Elt F))).Forall fun op => Proc.devRef .tc b ∉ op.writes := by
  rcases hb with rfl | rfl
  all_goals
    simp only [hostOps0_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_13_keeps_args (b : Ref sig .tc) (hb : b = main_arg0 ∨ b = main_arg1) :
    (hostOps0_13 : List (HloOp τ sig (Elt F))).Forall fun op => Proc.devRef .tc b ∉ op.writes := by
  rcases hb with rfl | rfl
  all_goals
    simp only [hostOps0_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_14_keeps_args (b : Ref sig .tc) (hb : b = main_arg0 ∨ b = main_arg1) :
    (hostOps0_14 : List (HloOp τ sig (Elt F))).Forall fun op => Proc.devRef .tc b ∉ op.writes := by
  rcases hb with rfl | rfl
  all_goals
    simp only [hostOps0_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_15_keeps_args (b : Ref sig .tc) (hb : b = main_arg0 ∨ b = main_arg1) :
    (hostOps0_15 : List (HloOp τ sig (Elt F))).Forall fun op => Proc.devRef .tc b ∉ op.writes := by
  rcases hb with rfl | rfl
  all_goals
    simp only [hostOps0_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_16_keeps_args (b : Ref sig .tc) (hb : b = main_arg0 ∨ b = main_arg1) :
    (hostOps0_16 : List (HloOp τ sig (Elt F))).Forall fun op => Proc.devRef .tc b ∉ op.writes := by
  rcases hb with rfl | rfl
  all_goals
    simp only [hostOps0_16, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_17_keeps_args (b : Ref sig .tc) (hb : b = main_arg0 ∨ b = main_arg1) :
    (hostOps0_17 : List (HloOp τ sig (Elt F))).Forall fun op => Proc.devRef .tc b ∉ op.writes := by
  rcases hb with rfl | rfl
  all_goals
    simp only [hostOps0_17, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
set_option maxRecDepth 100000 in
theorem hostOps0_18_keeps_args (b : Ref sig .tc) (hb : b = main_arg0 ∨ b = main_arg1) :
    (hostOps0_18 : List (HloOp τ sig (Elt F))).Forall fun op => Proc.devRef .tc b ∉ op.writes := by
  rcases hb with rfl | rfl
  all_goals
    simp only [hostOps0_18, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No host operation before the region writes an argument array: each writes its own result buffer. -/
theorem prefix_keeps_args (b : Ref sig .tc) (hb : b = main_arg0 ∨ b = main_arg1) :
    ∀ ops ∈ (prefixOps : List (List (HloOp τ sig (Elt F)))), ∀ op ∈ ops, Proc.devRef .tc b ∉ op.writes := by
  intro ops hops
  simp only [prefixOps, List.mem_cons, List.mem_nil_iff, _root_.or_false] at hops
  rcases hops with rfl | rfl | rfl | rfl | rfl | rfl | rfl | rfl | rfl | rfl | rfl | rfl | rfl | rfl | rfl | rfl | rfl | rfl | rfl
  exacts [List.forall_iff_forall_mem.mp (hostOps0_keeps_args b hb),
    List.forall_iff_forall_mem.mp (hostOps0_1_keeps_args b hb),
    List.forall_iff_forall_mem.mp (hostOps0_2_keeps_args b hb),
    List.forall_iff_forall_mem.mp (hostOps0_3_keeps_args b hb),
    List.forall_iff_forall_mem.mp (hostOps0_4_keeps_args b hb),
    List.forall_iff_forall_mem.mp (hostOps0_5_keeps_args b hb),
    List.forall_iff_forall_mem.mp (hostOps0_6_keeps_args b hb),
    List.forall_iff_forall_mem.mp (hostOps0_7_keeps_args b hb),
    List.forall_iff_forall_mem.mp (hostOps0_8_keeps_args b hb),
    List.forall_iff_forall_mem.mp (hostOps0_9_keeps_args b hb),
    List.forall_iff_forall_mem.mp (hostOps0_10_keeps_args b hb),
    List.forall_iff_forall_mem.mp (hostOps0_11_keeps_args b hb),
    List.forall_iff_forall_mem.mp (hostOps0_12_keeps_args b hb),
    List.forall_iff_forall_mem.mp (hostOps0_13_keeps_args b hb),
    List.forall_iff_forall_mem.mp (hostOps0_14_keeps_args b hb),
    List.forall_iff_forall_mem.mp (hostOps0_15_keeps_args b hb),
    List.forall_iff_forall_mem.mp (hostOps0_16_keeps_args b hb),
    List.forall_iff_forall_mem.mp (hostOps0_17_keeps_args b hb),
    List.forall_iff_forall_mem.mp (hostOps0_18_keeps_args b hb)]

theorem V_main_arg0 (c : Dev nD) : V m c main_arg0 = m ((c : Thread nD τ).loc main_arg0) :=
  StableHlo.after_of_forall_not_mem (b := Proc.devRef .tc main_arg0) _ _ fun op hop => by
    obtain ⟨ops, hops, h⟩ := List.mem_flatten.mp hop
    exact prefix_keeps_args main_arg0 (.inl rfl) ops hops op h
theorem V_main_arg1 (c : Dev nD) : V m c main_arg1 = m ((c : Thread nD τ).loc main_arg1) :=
  StableHlo.after_of_forall_not_mem (b := Proc.devRef .tc main_arg1) _ _ fun op hop => by
    obtain ⟨ops, hops, h⟩ := List.mem_flatten.mp hop
    exact prefix_keeps_args main_arg1 (.inr rfl) ops hops op h

/-- Nor does any of the fourteen after it. -/
theorem Wf_main_arg0 (c : Dev nD) : Wf m c (Proc.devRef .tc main_arg0) = m ((c : Thread nD τ).loc main_arg0) := by
  unfold Wf
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))), Wx_other m c main_arg0 (by decide) (by decide), V_main_arg0]
theorem Wf_main_arg1 (c : Dev nD) : Wf m c (Proc.devRef .tc main_arg1) = m ((c : Thread nD τ).loc main_arg1) := by
  unfold Wf
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))), Wx_other m c main_arg1 (by decide) (by decide), V_main_arg1]

/-! ## The run -/

/-- An unscoped buffer that is no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- What every final state satisfies: the result buffer holds the final valuation's value, and both argument arrays
    hold what they held at launch. -/
def Post : PUnit × MemSt nD τ sig (Elt F) → Prop := fun r => ∀ c : Dev nD,
  r.2.mem ((c.tc : Thread nD τ).loc main_v58) = Wf m c (Proc.devRef .tc main_v58)
  ∧ r.2.mem ((c.tc : Thread nD τ).loc main_arg0) = m ((c.tc : Thread nD τ).loc main_arg0)
  ∧ r.2.mem ((c.tc : Thread nD τ).loc main_arg1) = m ((c.tc : Thread nD τ).loc main_arg1)

set_option maxRecDepth 400000 in
set_option maxHeartbeats 8000000 in
set_option backward.isDefEq.respectTransparency.types false in
/-- At the compiled mesh, for any values, from any memory with zero counters: every weakly fair execution of @main on the
    TensorCores terminates, nothing faulting, in a state satisfying `Post`. -/
theorem run_main : θ_run defs (onTc (τ := τ) (main (F := F))) (s₀ m ρ) (Post m) :=
  Pipeline.θ_run_region_pf_tail (pcfgs (F := F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun _ => rfl)).1)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m Variants.none)
    (QY := fun c s => ∀ b ∈ Pipeline.restRefsP sig Pipeline.Prefetch.none spec0,
      s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => Wf m c (Proc.devRef .tc b)) s')
      isplitl [HU] <;> iassumption)
    (hQ := fun s h c => ⟨(h c).2.2 main_v58 (mem_rest main_v58 rfl (by decide)),
      ((h c).2.2 main_arg0 (mem_rest main_arg0 rfl (by decide))).trans (Wf_main_arg0 m c),
      ((h c).2.2 main_arg1 (mem_rest main_arg1 rfl (by decide))).trans (Wf_main_arg1 m c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.Kernel.Run

end
-- ==== Proof.Spec.lean ====
/-
  One row of the pixel-contrastive loss, as a function of one image pair's sampled pixels.

  For an image pair there are 2048 sampled pixels: the normalised features `f j c` (256 channels), the labels `l j`
  (32-bit words) and the validities `v j` (0 or 1, as numbers).  For a row `i`:
    * the logit against column `j` is the inner product of the two feature rows times `cinv`, the reciprocal of the
      temperature, shifted by the row's maximum;
    * column `j` is a POSITIVE of `i` when the labels agree, both are valid, and `j ≠ i`; a NEGATIVE when the labels
      differ (or one is invalid), both lie in the same image of the pair, both are valid, and `j ≠ i`;
    * `sn i` sums the exponentials of the row's negatives, `lpr i j` is the log-probability of `j` against them;
    * the row's loss is minus the mean of `lpr` over its positives, times the row's flag: whether it has a positive.
  All arithmetic is on the extended reals, each operation the exact one; the three float literals the programs carry
  (1, the epsilon under the logarithm, minus infinity under the maximum) stay as the words they are.
-/
import Idealize.ShloMosaic.PureOps.Ideal
import Idealize.ShloMosaic.PureOps.Ideal.Laws

noncomputable section

namespace Cert.Spec

open Idealize.ShloMosaic

/-- 1 when `p` holds, else 0. -/
def ind (p : Prop) [Decidable p] : EReal := if p then 1 else 0

/-- The reciprocal of the temperature's f32 word `9395241 / 2^27`. -/
def cinv : EReal := ((134217728 / 9395241 : ℝ) : EReal)
/-- The literals the two programs share, as their words. -/
def oneW : EReal := Ideal.ofBits .f32 0x3F800000#32
def epsW : EReal := Ideal.ofBits .f32 0x322BCC77#32
def negInfW : EReal := Ideal.ofBits .f32 0xFF800000#32

variable (f : Fin 2048 → Fin 256 → EReal) (l : Fin 2048 → BitVec 32) (v : Fin 2048 → EReal)

/-- The scaled logit of row `i` against column `j`. -/
def z (i j : Fin 2048) : EReal := (∑ c : Fin 256, f i c * f j c) * cinv
/-- The row's maximum. -/
def rowMax (i : Fin 2048) : EReal := (Finset.univ : Finset (Fin 2048)).fold max negInfW (fun j => z f i j)
/-- The shifted logit. -/
def g (i j : Fin 2048) : EReal := z f i j - rowMax f i
/-- Both pixels valid. -/
def vm (i j : Fin 2048) : EReal := v i * v j
/-- Same label and both valid. -/
def pr (i j : Fin 2048) : EReal := ind (l i = l j) * vm v i j
/-- Not the pixel itself. -/
def ns (i j : Fin 2048) : EReal := ind (i ≠ j)
/-- Both in the same image of the pair. -/
def si (i j : Fin 2048) : EReal := ind ((1024 ≤ i.val) ↔ (1024 ≤ j.val))
/-- The positive mask. -/
def pm (i j : Fin 2048) : EReal := pr l v i j * ns i j
/-- The negative mask. -/
def nm (i j : Fin 2048) : EReal := (((oneW - pr l v i j) * si i j) * vm v i j) * ns i j
/-- The sum of the exponentials of the row's negatives. -/
def sn (i : Fin 2048) : EReal := ∑ j : Fin 2048, Ideal.exp (g f i j) * nm l v i j
/-- The log-probability of column `j` against the row's negatives. -/
def lpr (i j : Fin 2048) : EReal := g f i j - Ideal.log ((Ideal.exp (g f i j) + sn f l v i) + epsW)
/-- The number of positives. -/
def np (i : Fin 2048) : EReal := ∑ j : Fin 2048, pm l v i j
/-- The sum of the positives' log-probabilities. -/
def num (i : Fin 2048) : EReal := ∑ j : Fin 2048, pm l v i j * lpr f l v i j
/-- Whether the row has a positive. -/
def flag (i : Fin 2048) : EReal := ind (0 < np l v i)
/-- The row's loss. -/
def loss (i : Fin 2048) : EReal := (-(Ideal.div (num f l v i) (max (np l v i) oneW))) * flag l v i

end Cert.Spec

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.KernelRows.lean ====
/-
  The kernel body's two column vectors, row by row, are the row specification.

  At the grid point (image pair, row tile `a`) the body holds the tile's 128 query rows and all 2048 key rows of the
  pair.  If the six blocks are the pair's features, labels and validities — the query-side blocks the rows
  `a·128 + r` of the same data — then row `r` of the body's flag vector is `Spec.flag` and row `r` of its loss
  vector is `Spec.loss`, at the pair's row `a·128 + r`.

  The steps: each payload of the body read at an index `(r, j)`; the positions `a·128 + r` and `j` as 32-bit
  words and the three comparisons the masks make of them; the two 0/1 conversions; the matrix product as a sum over
  the 256 channels; the row maximum as a fold of `max`; the three row sums.
-/
import proofs.«110907_j88038239634215_2_alg».proof.Proof.Gen.KernelIdeal.Skeleton
import proofs.«110907_j88038239634215_2_alg».proof.Proof.Spec
import proofs.«110907_j88038239634215_2_alg».proof.Proof.LibColBroadcast
import proofs.«110907_j88038239634215_2_alg».proof.Proof.LibRowBroadcast
import proofs.«110907_j88038239634215_2_alg».proof.Proof.LibMatrixLayout
import proofs.«110907_j88038239634215_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Rows

open Cert.KernelIdeal Cert.KernelIdeal.Gen Idealize.ShloMosaic Idealize.ShloMosaic.ValueIdx Cert.Spec

/-! ## Positions as 32-bit words -/

theorem rowIdx_word (a r : Nat) (ha : a < 16) (hr : r < 128) :
    IntOp.addi (Scalar.muli (BitVec.ofNat 32 a) 128#32) (BitVec.ofNat 32 r) = BitVec.ofNat 32 (a * 128 + r) := by
  apply BitVec.eq_of_toNat_eq
  simp only [IntOp.addi, Scalar.muli, IntOp.muli, BitVec.toNat_add, BitVec.toNat_mul, BitVec.toNat_ofNat, Nat.reducePow]
  omega

theorem ofBool_eq_one (b : Bool) : (BitVec.ofBool b = 1#1) ↔ b = true := by cases b <;> decide

theorem toInt_small (x : Nat) (hx : x < 2048) : (BitVec.ofNat 32 x).toInt = (x : Int) := by
  rw [BitVec.toInt_eq_toNat_of_lt]
  · simp only [BitVec.toNat_ofNat, Nat.reducePow]; omega
  · simp only [BitVec.toNat_ofNat, Nat.reducePow]; omega

theorem cmpi_ne_small (x y : Nat) (hx : x < 2048) (hy : y < 2048) :
    (IntOp.cmpi .ne (BitVec.ofNat 32 x) (BitVec.ofNat 32 y) = 1#1) ↔ x ≠ y := by
  unfold IntOp.cmpi
  rw [ofBool_eq_one]
  simp only [bne_iff_ne, ne_eq]
  constructor
  · intro h e; exact h (by rw [e])
  · intro h e
    have := congrArg BitVec.toNat e
    simp only [BitVec.toNat_ofNat, Nat.reducePow] at this
    omega

theorem cmpi_sge_1024 (x : Nat) (hx : x < 2048) :
    (IntOp.cmpi .sge (BitVec.ofNat 32 x) 1024#32 = 1#1) ↔ 1024 ≤ x := by
  unfold IntOp.cmpi
  rw [ofBool_eq_one]
  show (BitVec.sle 1024#32 (BitVec.ofNat 32 x)) = true ↔ _
  rw [BitVec.sle, decide_eq_true_eq, toInt_small x hx, show (1024#32 : BitVec 32).toInt = 1024 from by decide]
  omega

theorem cmpi_eq_bits (b1 b2 : BitVec 1) :
    (IntOp.cmpi .eq (b1.setWidth 32) (b2.setWidth 32) = 1#1) ↔ b1 = b2 := by
  rcases BitVec.eq_zero_or_eq_one b1 with h1 | h1 <;> rcases BitVec.eq_zero_or_eq_one b2 with h2 | h2 <;> subst h1 <;> subst h2 <;> decide

theorem cmpi_eq_word (x y : BitVec 32) : (IntOp.cmpi .eq x y = 1#1) ↔ x = y := by
  unfold IntOp.cmpi
  rw [ofBool_eq_one]
  simp only [beq_iff_eq]

/-- A bit is 1 or it is 0. -/
theorem bit_eq_iff (b1 b2 : BitVec 1) : b1 = b2 ↔ ((b1 = 1#1) ↔ (b2 = 1#1)) := by
  rcases BitVec.eq_zero_or_eq_one b1 with h1 | h1 <;> rcases BitVec.eq_zero_or_eq_one b2 with h2 | h2 <;> subst h1 <;> subst h2 <;> decide

/-! ## The two 0/1 conversions -/

theorem sitofp_extui_bit (b : BitVec 1) :
    (FloatOps.sitofp (F := Ideal) .f32 (b.setWidth 32) : EReal) = ind (b = 1#1) := by
  unfold ind
  rcases BitVec.eq_zero_or_eq_one b with h | h <;> subst h
  · show (((((0#1 : BitVec 1).setWidth 32).toInt : Int) : ℝ) : EReal) = _
    rw [show ((0#1 : BitVec 1).setWidth 32).toInt = 0 from by decide]; simp
  · show (((((1#1 : BitVec 1).setWidth 32).toInt : Int) : ℝ) : EReal) = _
    rw [show ((1#1 : BitVec 1).setWidth 32).toInt = 1 from by decide]; simp

theorem ind_congr {p q : Prop} [Decidable p] [Decidable q] (h : p ↔ q) : ind p = ind q := by
  unfold ind; by_cases hp : p
  · rw [if_pos hp, if_pos (h.mp hp)]
  · rw [if_neg hp, if_neg (fun hq => hp (h.mpr hq))]

/-! ## The payloads at an index -/

/-- The validity product. -/
theorem pay4_apply (v16 : FVec Ideal S1x128x1 .f32) (v18 : FVec Ideal S1x1x2048 .f32) (r : Fin 128) (j : Fin 2048) :
    k0_pay4 (F := Ideal) v16 v18 (ix2 r j) = v16 (ix3 (0 : Fin 1) r (0 : Fin 1)) * v18 (ix3 (0 : Fin 1) (0 : Fin 1) j) := by
  unfold k0_pay4
  refine (mulf_apply _ _ _).trans ?_
  rw [LibColBroadcast.broadcastTo_a1_ab_apply, LibRowBroadcast.broadcastTo_1b_ab_apply,
    shapeCast_1ab_ab_apply, shapeCast_1ab_ab_apply]

/-- Same label and both valid. -/
theorem pay5_apply (v12 : Vec Ideal S1x128x1 .i32) (v14 : Vec Ideal S1x1x2048 .i32) (v16 : FVec Ideal S1x128x1 .f32) (v18 : FVec Ideal S1x1x2048 .f32)
    (r : Fin 128) (j : Fin 2048) :
    k0_pay5 (F := Ideal) v12 v14 v16 v18 (ix2 r j)
      = ind (v12 (ix3 (0 : Fin 1) r (0 : Fin 1)) = v14 (ix3 (0 : Fin 1) (0 : Fin 1) j))
        * (v16 (ix3 (0 : Fin 1) r (0 : Fin 1)) * v18 (ix3 (0 : Fin 1) (0 : Fin 1) j)) := by
  unfold k0_pay5
  refine (mulf_apply _ _ _).trans ?_
  rw [pay4_apply]
  refine congrArg (· * _) ?_
  refine (sitofp_extui_bit _).trans (ind_congr ?_)
  show (IntOp.cmpi .eq (broadcastTo S128x2048 (shapeCast S128x1 v12 shapeCasts_S1x128x1_S128x1) broadcasts_S128x1_S128x2048 (ix2 r j))
      (broadcastTo S128x2048 (shapeCast S1x2048 v14 shapeCasts_S1x1x2048_S1x2048) broadcasts_S1x2048_S128x2048 (ix2 r j)) = 1#1) ↔ _
  rw [LibColBroadcast.broadcastTo_a1_ab_apply, LibRowBroadcast.broadcastTo_1b_ab_apply,
    shapeCast_1ab_ab_apply, shapeCast_1ab_ab_apply]
  exact cmpi_eq_word _ _

/-- The row's position in the pair, as a word. -/
theorem pay6_apply (i : grid0.Coords) (r : Fin 128) :
    k0_pay6 i (ix2 r (0 : Fin 1)) = BitVec.ofNat 32 ((i 1).val * 128 + r.val) := by
  unfold k0_pay6
  show IntOp.addi (Scalar.muli (BitVec.ofNat 32 (i 1).val) 128#32) (iota .tc S128x1 32 [0] iota_S128x1_d0_w32 (ix2 r (0 : Fin 1))) = _
  rw [iota_single_apply]
  exact rowIdx_word _ _ (i 1).isLt r.isLt

theorem pay7_apply (i : grid0.Coords) (r : Fin 128) (j : Fin 2048) :
    k0_pay7 i (ix2 r j) = BitVec.ofNat 32 ((i 1).val * 128 + r.val) := by
  unfold k0_pay7
  rw [LibColBroadcast.broadcastTo_a1_ab_apply]
  exact pay6_apply i r

/-- The column's position, as a word. -/
theorem pay8_apply (r : Fin 128) (j : Fin 2048) : k0_pay8 (ix2 r j) = BitVec.ofNat 32 j.val := by
  unfold k0_pay8
  rw [LibRowBroadcast.broadcastTo_1b_ab_apply, iota_single_apply]

/-! ## The tile's rows in the pair -/

/-- Row `r` of tile `i 1` is row `(i 1)·128 + r` of the pair. -/
def grow (i : grid0.Coords) (r : Fin 128) : Fin 2048 :=
  ⟨(i 1).val * 128 + r.val, by
    have h : (i 1).val < 16 := (i 1).isLt
    have := r.isLt
    omega⟩

/-- Not the pixel itself: the two positions, as words, differ. -/
theorem pay9_apply (i : grid0.Coords) (r : Fin 128) (j : Fin 2048) :
    k0_pay9 (F := Ideal) (k0_pay7 i) k0_pay8 (ix2 r j) = ns (grow i r) j := by
  unfold k0_pay9
  refine (sitofp_extui_bit _).trans ?_
  unfold ns
  refine ind_congr ?_
  show (IntOp.cmpi .ne (k0_pay7 i (ix2 r j)) (k0_pay8 (ix2 r j)) = 1#1) ↔ _
  rw [pay7_apply, pay8_apply]
  refine (cmpi_ne_small _ _ (grow i r).isLt j.isLt).trans ?_
  constructor
  · intro h e; exact h (congrArg Fin.val e)
  · intro h e; exact h (Fin.ext e)

/-- Both pixels valid, when the blocks are the pair's validities. -/
theorem vm_apply (i : grid0.Coords) (v16 : FVec Ideal S1x128x1 .f32) (v18 : FVec Ideal S1x1x2048 .f32) (v : Fin 2048 → EReal)
    (h16 : ∀ r : Fin 128, v16 (ix3 (0 : Fin 1) r (0 : Fin 1)) = v (grow i r))
    (h18 : ∀ j : Fin 2048, v18 (ix3 (0 : Fin 1) (0 : Fin 1) j) = v j) (r : Fin 128) (j : Fin 2048) :
    k0_pay4 (F := Ideal) v16 v18 (ix2 r j) = vm v (grow i r) j := by
  rw [pay4_apply, h16, h18]; rfl

/-- Same label and both valid, when the blocks are the pair's labels and validities. -/
theorem pr_apply (i : grid0.Coords) (v12 : Vec Ideal S1x128x1 .i32) (v14 : Vec Ideal S1x1x2048 .i32)
    (v16 : FVec Ideal S1x128x1 .f32) (v18 : FVec Ideal S1x1x2048 .f32) (l : Fin 2048 → BitVec 32) (v : Fin 2048 → EReal)
    (h12 : ∀ r : Fin 128, v12 (ix3 (0 : Fin 1) r (0 : Fin 1)) = l (grow i r))
    (h14 : ∀ j : Fin 2048, v14 (ix3 (0 : Fin 1) (0 : Fin 1) j) = l j)
    (h16 : ∀ r : Fin 128, v16 (ix3 (0 : Fin 1) r (0 : Fin 1)) = v (grow i r))
    (h18 : ∀ j : Fin 2048, v18 (ix3 (0 : Fin 1) (0 : Fin 1) j) = v j) (r : Fin 128) (j : Fin 2048) :
    k0_pay5 (F := Ideal) v12 v14 v16 v18 (ix2 r j) = pr l v (grow i r) j := by
  rw [pay5_apply, h12, h14, h16, h18]; rfl

/-- The positive mask. -/
theorem pay10_apply (i : grid0.Coords) (v12 : Vec Ideal S1x128x1 .i32) (v14 : Vec Ideal S1x1x2048 .i32)
    (v16 : FVec Ideal S1x128x1 .f32) (v18 : FVec Ideal S1x1x2048 .f32) (l : Fin 2048 → BitVec 32) (v : Fin 2048 → EReal)
    (h12 : ∀ r : Fin 128, v12 (ix3 (0 : Fin 1) r (0 : Fin 1)) = l (grow i r))
    (h14 : ∀ j : Fin 2048, v14 (ix3 (0 : Fin 1) (0 : Fin 1) j) = l j)
    (h16 : ∀ r : Fin 128, v16 (ix3 (0 : Fin 1) r (0 : Fin 1)) = v (grow i r))
    (h18 : ∀ j : Fin 2048, v18 (ix3 (0 : Fin 1) (0 : Fin 1) j) = v j) (r : Fin 128) (j : Fin 2048) :
    k0_pay10 (F := Ideal) (k0_pay5 v12 v14 v16 v18) (k0_pay7 i) k0_pay8 (ix2 r j) = pm l v (grow i r) j := by
  unfold k0_pay10
  refine (mulf_apply _ _ _).trans ?_
  rw [pr_apply i v12 v14 v16 v18 l v h12 h14 h16 h18, pay9_apply]; rfl

/-! ## Row reductions -/

/-- The kernel's sum along a row of a 128 × 2048 matrix, into the zero word, is the sum of the row's 2048 entries. -/
theorem rowSum_apply (src : FVec Ideal S128x2048 .f32) (r : Fin 128) :
    multiReduction .add [1] S128 src 0x00000000#32 reduces_S128x2048_S128 (.inl rfl) rfl (ix1 r)
      = ∑ j : Fin 2048, src (ix2 r j) := by
  refine (Ideal.multiReduction_add_single src 0x00000000#32 reduces_S128x2048_S128 (.inl rfl) rfl (ix1 r)).trans ?_
  refine Finset.sum_congr rfl fun k _ => congrArg src ?_
  funext c; match c with | ⟨0, _⟩ => rfl | ⟨1, _⟩ => rfl

/-- The number of positives of a row. -/
theorem pay11_apply (i : grid0.Coords) (v12 : Vec Ideal S1x128x1 .i32) (v14 : Vec Ideal S1x1x2048 .i32)
    (v16 : FVec Ideal S1x128x1 .f32) (v18 : FVec Ideal S1x1x2048 .f32) (l : Fin 2048 → BitVec 32) (v : Fin 2048 → EReal)
    (h12 : ∀ r : Fin 128, v12 (ix3 (0 : Fin 1) r (0 : Fin 1)) = l (grow i r))
    (h14 : ∀ j : Fin 2048, v14 (ix3 (0 : Fin 1) (0 : Fin 1) j) = l j)
    (h16 : ∀ r : Fin 128, v16 (ix3 (0 : Fin 1) r (0 : Fin 1)) = v (grow i r))
    (h18 : ∀ j : Fin 2048, v18 (ix3 (0 : Fin 1) (0 : Fin 1) j) = v j) (r : Fin 128) :
    k0_pay11 (F := Ideal) (k0_pay5 v12 v14 v16 v18) (k0_pay7 i) k0_pay8 (ix2 r (0 : Fin 1)) = np l v (grow i r) := by
  unfold k0_pay11
  refine (LibMatrixLayout.shapeCast_a_a1_apply _ _ r 0).trans ?_
  refine (rowSum_apply _ r).trans ?_
  unfold np
  exact Finset.sum_congr rfl fun j _ => pay10_apply i v12 v14 v16 v18 l v h12 h14 h16 h18 r j

/-- Row `r` of the body's flag vector: whether the pair's row has a positive. -/
theorem flag_row (i : grid0.Coords) (v12 : Vec Ideal S1x128x1 .i32) (v14 : Vec Ideal S1x1x2048 .i32)
    (v16 : FVec Ideal S1x128x1 .f32) (v18 : FVec Ideal S1x1x2048 .f32) (l : Fin 2048 → BitVec 32) (v : Fin 2048 → EReal)
    (h12 : ∀ r : Fin 128, v12 (ix3 (0 : Fin 1) r (0 : Fin 1)) = l (grow i r))
    (h14 : ∀ j : Fin 2048, v14 (ix3 (0 : Fin 1) (0 : Fin 1) j) = l j)
    (h16 : ∀ r : Fin 128, v16 (ix3 (0 : Fin 1) r (0 : Fin 1)) = v (grow i r))
    (h18 : ∀ j : Fin 2048, v18 (ix3 (0 : Fin 1) (0 : Fin 1) j) = v j) (r : Fin 128) :
    k0_pay12 (F := Ideal) (k0_pay5 v12 v14 v16 v18) (k0_pay7 i) k0_pay8 (ix2 r (0 : Fin 1)) = Cert.Spec.flag l v (grow i r) := by
  unfold k0_pay12
  refine (sitofp_extui_bit _).trans ?_
  unfold flag
  refine ind_congr ?_
  show (Ideal.cmp .ogt (k0_pay11 (F := Ideal) (k0_pay5 v12 v14 v16 v18) (k0_pay7 i) k0_pay8 (ix2 r (0 : Fin 1)))
      (Ideal.ofBits .f32 0x00000000#32) = 1#1) ↔ _
  rw [pay11_apply i v12 v14 v16 v18 l v h12 h14 h16 h18 r, Ideal.ofBits_zero_f32]
  show (BitVec.ofBool (decide ((0 : EReal) < np l v (grow i r))) = 1#1) ↔ _
  rw [ofBool_eq_one, decide_eq_true_eq]

/-- The kernel's maximum along a row of a 128 × 2048 matrix, from the minus-infinity word, is the fold of `max` over
    the row's 2048 entries. -/
theorem rowMax_apply (src : FVec Ideal S128x2048 .f32) (r : Fin 128) :
    multiReduction .maximumf [1] S128 src 0xFF800000#32 reduces_S128x2048_S128 (.inl rfl) rfl (ix1 r)
      = (Finset.univ : Finset (Fin 2048)).fold max negInfW (fun j => src (ix2 r j)) := by
  refine (Ideal.multiReduction_maximumf_single src 0xFF800000#32 reduces_S128x2048_S128 (.inl rfl) rfl (ix1 r)).trans ?_
  show (Finset.univ : Finset (Fin 2048)).fold max negInfW (src ∘ reduces_S128x2048_S128.lift (ix1 r)) = _
  refine congrArg (fun g => (Finset.univ : Finset (Fin 2048)).fold max negInfW g) ?_
  funext k
  refine congrArg src ?_
  funext c; match c with | ⟨0, _⟩ => rfl | ⟨1, _⟩ => rfl

/-! ## The logits -/

/-- The reciprocal of the temperature, by the certificate's table. -/
theorem inv_temp : Named.named (F := Ideal) Cert.KernelIdeal.κ "inv_temp" (φ := .f32) 0x41649249#32 = cinv := by
  unfold cinv
  exact IdealRules.named_const.ideal_named_scalar _ _ _ _ rfl

/-- The tile's scaled logits: the matrix product of the query rows with the transposed key rows, times the reciprocal
    of the temperature. -/
def zmat (v0 : FVec Ideal S1x128x256 .bf16) (v2 : FVec Ideal S1x2048x256 .bf16) : FVec Ideal S128x2048 .f32 :=
  mulf (matmul dot_S128x256_S256x2048_S128x2048_1_0_0_1_n_n none (shapeCast S128x256 v0 shapeCasts_S1x128x256_S128x256)
      (transpose S256x2048 [1, 0] (shapeCast S2048x256 v2 shapeCasts_S1x2048x256_S2048x256) transposes_S2048x256_p1_0_S256x2048)
      (constant (F := Ideal) S128x2048 .f32 0x00000000#32))
    (broadcast S128x2048 (Named.named (F := Ideal) Cert.KernelIdeal.κ "inv_temp" (φ := .f32) 0x41649249#32))

theorem zmat_apply (i : grid0.Coords) (v0 : FVec Ideal S1x128x256 .bf16) (v2 : FVec Ideal S1x2048x256 .bf16)
    (f : Fin 2048 → Fin 256 → EReal)
    (h0 : ∀ (r : Fin 128) (c : Fin 256), v0 (ix3 (0 : Fin 1) r c) = f (grow i r) c)
    (h2 : ∀ (j : Fin 2048) (c : Fin 256), v2 (ix3 (0 : Fin 1) j c) = f j c) (r : Fin 128) (j : Fin 2048) :
    zmat v0 v2 (ix2 r j) = z f (grow i r) j := by
  unfold zmat
  refine (mulf_apply _ _ _).trans ?_
  unfold z
  refine congrArg₂ (· * ·) ?_ inv_temp
  refine (PlainDot.matmul_zero_ix2 dot_S128x256_S256x2048_S128x2048_1_0_0_1_n_n rfl none _ _ r j).trans ?_
  refine Finset.sum_congr rfl fun q _ => ?_
  rw [shapeCast_1ab_ab_apply, transpose_ix2_apply, shapeCast_1ab_ab_apply, h0, h2]

/-- The body's shifted logits are the scaled logits minus their row maximum. -/
theorem pay3_eq (v0 : FVec Ideal S1x128x256 .bf16) (v2 : FVec Ideal S1x2048x256 .bf16) :
    k0_pay3 (F := Ideal) v0 v2
      = subf (zmat v0 v2) (broadcastTo S128x2048 (shapeCast S128x1
          (multiReduction .maximumf [1] S128 (zmat v0 v2) 0xFF800000#32 reduces_S128x2048_S128 (.inl rfl) rfl)
          shapeCasts_S128_S128x1) broadcasts_S128x1_S128x2048) := rfl

/-- The shifted logit. -/
theorem pay3_apply (i : grid0.Coords) (v0 : FVec Ideal S1x128x256 .bf16) (v2 : FVec Ideal S1x2048x256 .bf16)
    (f : Fin 2048 → Fin 256 → EReal)
    (h0 : ∀ (r : Fin 128) (c : Fin 256), v0 (ix3 (0 : Fin 1) r c) = f (grow i r) c)
    (h2 : ∀ (j : Fin 2048) (c : Fin 256), v2 (ix3 (0 : Fin 1) j c) = f j c) (r : Fin 128) (j : Fin 2048) :
    k0_pay3 (F := Ideal) v0 v2 (ix2 r j) = g f (grow i r) j := by
  rw [pay3_eq]
  refine (subf_apply _ _ _).trans ?_
  unfold g rowMax
  refine congrArg₂ (· - ·) (zmat_apply i v0 v2 f h0 h2 r j) ?_
  refine (LibColBroadcast.broadcastTo_a1_ab_apply _ _ r j).trans ?_
  refine (LibMatrixLayout.shapeCast_a_a1_apply _ _ r 0).trans ?_
  refine (rowMax_apply _ r).trans ?_
  refine congrArg (fun g => (Finset.univ : Finset (Fin 2048)).fold max negInfW g) ?_
  funext k
  exact zmat_apply i v0 v2 f h0 h2 r k

/-! ## The masks -/

/-- Both in the same image of the pair: the two positions' "at least 1024" bits, widened to words, are equal. -/
def siMat (i : grid0.Coords) : FVec Ideal S128x2048 .f32 :=
  sitofp .f32 (extui 32 (cmpi .eq
    (broadcastTo S128x2048 (extui 32 (cmpi .sge (k0_pay6 i) (broadcast S128x1 1024#32)) natLt_1_32) broadcasts_S128x1_S128x2048)
    (broadcastTo S128x2048 (extui 32 (cmpi .sge (iota .tc S1x2048 32 [1] iota_S1x2048_d1_w32) (broadcast S1x2048 1024#32)) natLt_1_32)
      broadcasts_S1x2048_S128x2048)) natLt_1_32)

theorem siMat_apply (i : grid0.Coords) (r : Fin 128) (j : Fin 2048) : siMat i (ix2 r j) = si (grow i r) j := by
  unfold siMat
  refine (sitofp_extui_bit _).trans ?_
  unfold si
  refine ind_congr ?_
  show (IntOp.cmpi .eq
      (broadcastTo S128x2048 (extui 32 (cmpi .sge (k0_pay6 i) (broadcast S128x1 1024#32)) natLt_1_32) broadcasts_S128x1_S128x2048 (ix2 r j))
      (broadcastTo S128x2048 (extui 32 (cmpi .sge (iota .tc S1x2048 32 [1] iota_S1x2048_d1_w32) (broadcast S1x2048 1024#32)) natLt_1_32)
        broadcasts_S1x2048_S128x2048 (ix2 r j)) = 1#1) ↔ _
  rw [LibColBroadcast.broadcastTo_a1_ab_apply, LibRowBroadcast.broadcastTo_1b_ab_apply]
  show (IntOp.cmpi .eq ((IntOp.cmpi .sge (k0_pay6 i (ix2 r (0 : Fin 1))) 1024#32).setWidth 32)
      ((IntOp.cmpi .sge (iota .tc S1x2048 32 [1] iota_S1x2048_d1_w32 (ix2 (0 : Fin 1) j)) 1024#32).setWidth 32) = 1#1) ↔ _
  rw [pay6_apply, iota_single_apply]
  refine (cmpi_eq_bits _ _).trans ?_
  refine (bit_eq_iff _ _).trans ?_
  exact iff_congr (cmpi_sge_1024 _ (grow i r).isLt) (cmpi_sge_1024 _ j.isLt)

/-- The negative mask of the tile. -/
def nmMat (i : grid0.Coords) (v12 : Vec Ideal S1x128x1 .i32) (v14 : Vec Ideal S1x1x2048 .i32)
    (v16 : FVec Ideal S1x128x1 .f32) (v18 : FVec Ideal S1x1x2048 .f32) : FVec Ideal S128x2048 .f32 :=
  mulf (mulf (mulf (subf (broadcast S128x2048 (Scalar.ofBits (F := Ideal) .f32 0x3F800000#32)) (k0_pay5 (F := Ideal) v12 v14 v16 v18))
    (siMat i)) (k0_pay4 (F := Ideal) v16 v18)) (k0_pay9 (F := Ideal) (k0_pay7 i) k0_pay8)

theorem nmMat_apply (i : grid0.Coords) (v12 : Vec Ideal S1x128x1 .i32) (v14 : Vec Ideal S1x1x2048 .i32)
    (v16 : FVec Ideal S1x128x1 .f32) (v18 : FVec Ideal S1x1x2048 .f32) (l : Fin 2048 → BitVec 32) (v : Fin 2048 → EReal)
    (h12 : ∀ r : Fin 128, v12 (ix3 (0 : Fin 1) r (0 : Fin 1)) = l (grow i r))
    (h14 : ∀ j : Fin 2048, v14 (ix3 (0 : Fin 1) (0 : Fin 1) j) = l j)
    (h16 : ∀ r : Fin 128, v16 (ix3 (0 : Fin 1) r (0 : Fin 1)) = v (grow i r))
    (h18 : ∀ j : Fin 2048, v18 (ix3 (0 : Fin 1) (0 : Fin 1) j) = v j) (r : Fin 128) (j : Fin 2048) :
    nmMat i v12 v14 v16 v18 (ix2 r j) = nm l v (grow i r) j := by
  unfold nmMat
  refine (mulf_apply _ _ _).trans ?_
  unfold nm
  refine congrArg₂ (· * ·) ?_ (pay9_apply i r j)
  refine (mulf_apply _ _ _).trans ?_
  refine congrArg₂ (· * ·) ?_ (vm_apply i v16 v18 v h16 h18 r j)
  refine (mulf_apply _ _ _).trans ?_
  refine congrArg₂ (· * ·) ?_ (siMat_apply i r j)
  refine (subf_apply _ _ _).trans ?_
  exact congrArg₂ (· - ·) rfl (pr_apply i v12 v14 v16 v18 l v h12 h14 h16 h18 r j)

/-! ## The log-probabilities -/

/-- The log-probability of every column against the row's negatives, from the shifted logits and the negative mask. -/
def lprMat (G N : FVec Ideal S128x2048 .f32) : FVec Ideal S128x2048 .f32 :=
  subf G (log (addf (addf (exp G) (broadcastTo S128x2048 (shapeCast S128x1
      (multiReduction .add [1] S128 (mulf (exp G) N) 0x00000000#32 reduces_S128x2048_S128 (.inl rfl) rfl)
      shapeCasts_S128_S128x1) broadcasts_S128x1_S128x2048))
    (broadcast S128x2048 (Scalar.ofBits (F := Ideal) .f32 0x322BCC77#32))))

theorem lprMat_apply (G N : FVec Ideal S128x2048 .f32) (f : Fin 2048 → Fin 256 → EReal) (l : Fin 2048 → BitVec 32)
    (v : Fin 2048 → EReal) (a : Fin 2048) (r : Fin 128) (hG : ∀ j : Fin 2048, G (ix2 r j) = g f a j)
    (hN : ∀ j : Fin 2048, N (ix2 r j) = nm l v a j) (j : Fin 2048) :
    lprMat G N (ix2 r j) = lpr f l v a j := by
  unfold lprMat
  refine (subf_apply _ _ _).trans ?_
  unfold lpr
  refine congrArg₂ (· - ·) (hG j) ?_
  show Ideal.log ((Ideal.exp (G (ix2 r j)) + broadcastTo S128x2048 (shapeCast S128x1
      (multiReduction .add [1] S128 (mulf (exp G) N) 0x00000000#32 reduces_S128x2048_S128 (.inl rfl) rfl)
      shapeCasts_S128_S128x1) broadcasts_S128x1_S128x2048 (ix2 r j)) + epsW) = _
  rw [hG j]
  refine congrArg (fun s => Ideal.log ((Ideal.exp (g f a j) + s) + epsW)) ?_
  refine (LibColBroadcast.broadcastTo_a1_ab_apply _ _ r j).trans ?_
  refine (LibMatrixLayout.shapeCast_a_a1_apply _ _ r 0).trans ?_
  refine (rowSum_apply _ r).trans ?_
  unfold sn
  refine Finset.sum_congr rfl fun k _ => ?_
  show Ideal.exp (G (ix2 r k)) * N (ix2 r k) = _
  rw [hG k, hN k]

/-! ## The loss -/

/-- The body's loss vector: minus the mean log-probability over the positives, times the flag. -/
theorem pay13_eq (i : grid0.Coords) (v0 : FVec Ideal S1x128x256 .bf16) (v2 : FVec Ideal S1x2048x256 .bf16) (v12 : Vec Ideal S1x128x1 .i32) (v14 : Vec Ideal S1x1x2048 .i32)
    (v16 : FVec Ideal S1x128x1 .f32) (v18 : FVec Ideal S1x1x2048 .f32) :
    k0_pay13 (F := Ideal) (k0_pay3 v0 v2) (k0_pay4 v16 v18) (k0_pay5 v12 v14 v16 v18) (k0_pay6 i)
        (iota .tc S1x2048 32 [1] iota_S1x2048_d1_w32) (k0_pay7 i) k0_pay8
      = mulf (subf (broadcast S128x1 (Scalar.ofBits (F := Ideal) .f32 0x00000000#32))
          (divf (shapeCast S128x1 (multiReduction .add [1] S128
                (mulf (k0_pay10 (F := Ideal) (k0_pay5 v12 v14 v16 v18) (k0_pay7 i) k0_pay8)
                  (lprMat (k0_pay3 (F := Ideal) v0 v2) (nmMat i v12 v14 v16 v18)))
                0x00000000#32 reduces_S128x2048_S128 (.inl rfl) rfl) shapeCasts_S128_S128x1)
            (maximumf (k0_pay11 (F := Ideal) (k0_pay5 v12 v14 v16 v18) (k0_pay7 i) k0_pay8)
              (broadcast S128x1 (Scalar.ofBits (F := Ideal) .f32 0x3F800000#32)))))
        (k0_pay12 (F := Ideal) (k0_pay5 v12 v14 v16 v18) (k0_pay7 i) k0_pay8) := rfl

/-- Row `r` of the body's loss vector is the pair's row loss. -/
theorem loss_row (i : grid0.Coords) (v0 : FVec Ideal S1x128x256 .bf16) (v2 : FVec Ideal S1x2048x256 .bf16) (v12 : Vec Ideal S1x128x1 .i32) (v14 : Vec Ideal S1x1x2048 .i32)
    (v16 : FVec Ideal S1x128x1 .f32) (v18 : FVec Ideal S1x1x2048 .f32)
    (f : Fin 2048 → Fin 256 → EReal) (l : Fin 2048 → BitVec 32) (v : Fin 2048 → EReal)
    (h0 : ∀ (r : Fin 128) (c : Fin 256), v0 (ix3 (0 : Fin 1) r c) = f (grow i r) c)
    (h2 : ∀ (j : Fin 2048) (c : Fin 256), v2 (ix3 (0 : Fin 1) j c) = f j c)
    (h12 : ∀ r : Fin 128, v12 (ix3 (0 : Fin 1) r (0 : Fin 1)) = l (grow i r))
    (h14 : ∀ j : Fin 2048, v14 (ix3 (0 : Fin 1) (0 : Fin 1) j) = l j)
    (h16 : ∀ r : Fin 128, v16 (ix3 (0 : Fin 1) r (0 : Fin 1)) = v (grow i r))
    (h18 : ∀ j : Fin 2048, v18 (ix3 (0 : Fin 1) (0 : Fin 1) j) = v j) (r : Fin 128) :
    k0_pay13 (F := Ideal) (k0_pay3 v0 v2) (k0_pay4 v16 v18) (k0_pay5 v12 v14 v16 v18) (k0_pay6 i)
        (iota .tc S1x2048 32 [1] iota_S1x2048_d1_w32) (k0_pay7 i) k0_pay8 (ix2 r (0 : Fin 1))
      = Cert.Spec.loss f l v (grow i r) := by
  rw [pay13_eq]
  refine (mulf_apply _ _ _).trans ?_
  unfold loss
  refine congrArg₂ (· * ·) ?_ (flag_row i v12 v14 v16 v18 l v h12 h14 h16 h18 r)
  refine (subf_apply _ _ _).trans ?_
  refine (congrArg₂ (· - ·) Ideal.ofBits_zero_f32 ?_).trans (zero_sub _)
  refine (divf_apply _ _ _).trans ?_
  refine congrArg₂ Ideal.div ?_ ?_
  · refine (LibMatrixLayout.shapeCast_a_a1_apply _ _ r 0).trans ?_
    refine (rowSum_apply _ r).trans ?_
    unfold num
    refine Finset.sum_congr rfl fun j _ => ?_
    refine (mulf_apply _ _ _).trans ?_
    refine congrArg₂ (· * ·) (pay10_apply i v12 v14 v16 v18 l v h12 h14 h16 h18 r j) ?_
    exact lprMat_apply _ _ f l v (grow i r) r (fun k => pay3_apply i v0 v2 f h0 h2 r k)
      (fun k => nmMat_apply i v12 v14 v16 v18 l v h12 h14 h16 h18 r k) j
  · refine (maximumf_apply _ _ _).trans ?_
    exact congrArg₂ max (pay11_apply i v12 v14 v16 v18 l v h12 h14 h16 h18 r) rfl

end Cert.KernelIdeal.Rows

end
-- ==== Proof.IdealValue.lean ====
/-
  The idealized kernel program's result as a function of the pairs' data.

  After the region the two column arrays hold, at (pair, row, 0), the row's loss and the row's flag: a grid point
  (pair, tile `a`) writes rows `a·128 … a·128 + 127` of its pair, each from the pair's 2048 sampled pixels as the row
  specification says (`Rows.loss_row`, `Rows.flag_row`), and the 256 points' blocks tile the arrays.  The result is
  the fourteen last host operations applied to these two arrays (`tailOf`).

  The five arrays the region stages are taken as given: the normalised features `fA`, and the labels `lA` and the
  validities `vA` as a column and as a row.  The blocks-to-array step (what a point writes back, membership in a
  block, the cover) is written for this kernel's windows: block coordinate = block index x block size + coordinate
  inside the block, the indices decided once over the 256 grid points.
-/
import proofs.«110907_j88038239634215_2_alg».proof.Proof.IdealLaunch
import proofs.«110907_j88038239634215_2_alg».proof.Proof.KernelRows
import Idealize.ShloMosaic.Lib.ValueIdx
import Idealize.ShloMosaic.Lib.ValueLayout
import Idealize.ShloMosaic.Lib.Pipeline.Value

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-! ## The last host operations as one function -/

/-- The fourteen operations after the region, as one function of the two column arrays the region wrote: each
    pair's 2048 entries are summed, the loss sum is divided by the flag count (at least 1), and the sixteen quotients
    are averaged. -/
def tailOf {F : FTy → Type} [FloatOps F] (L R : (⟨S16x2048x1, .f32⟩ : BufTy).Contents (Elt F)) : (⟨S_, .f32⟩ : BufTy).Contents (Elt F) :=
  Host.divf (Host.reduceAdd (Host.divf
      (Host.reduceAdd (shapeCast S16x2048 L shapeCasts_S16x2048x1_S16x2048) (constant S_ .f32 0x00000000#32) reducesTo_S16x2048_S16_d1 h_S_)
      (maximumf (Host.reduceAdd (shapeCast S16x2048 R shapeCasts_S16x2048x1_S16x2048) (constant S_ .f32 0x00000000#32) reducesTo_S16x2048_S16_d1 h_S_)
        (broadcastInDim S16 ![] bcast_S_S16 (constant S_ .f32 0x3F800000#32))))
    (constant S_ .f32 0x00000000#32) reducesTo_S16_S_d0 h_S_) (constant S_ .f32 0x41800000#32)

theorem Wf_result (c : Dev nD) :
    Wf m c (Proc.devRef .tc main_v58) = tailOf (Wx m c (Proc.devRef .tc main_v49_0)) (Wx m c (Proc.devRef .tc main_v49_1)) := by
  unfold Wf tailOf
  simp only [List.flatten_cons, List.flatten_nil, List.append_nil]
  after_results
  rfl

/-! ## The windows' block indices, decided over the grid -/

theorem idx_facts : ∀ t : Fin cfg0.N,
    win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, 0, 0]
    ∧ win0_4.index t = ![(grid0.coords t 0).val, (grid0.coords t 1).val, 0]
    ∧ win0_5.index t = ![(grid0.coords t 0).val, 0, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- Every (pair, row tile) is some grid point's. -/
theorem idx_onto : ∀ (q0 : Fin 16) (q1 : Fin 16), ∃ t : Fin cfg0.N, (grid0.coords t 0).val = q0.val ∧ (grid0.coords t 1).val = q1.val :=
  (by decide +kernel : ∀ (q0 : Fin 16) (q1 : Fin 16), ∃ t : Fin grid0.N, (grid0.coords t 0).val = q0.val ∧ (grid0.coords t 1).val = q1.val)

/-! ## The output blocks, entry by entry -/

theorem hz3 : (![0, 0, 0] : Fin 3 → Nat) = fun _ => 0 := funext fun a => by fin_cases a <;> rfl

/-- Row `r` of the loss buffer is row `r` of the body's loss vector. -/
theorem lossBlock_apply (i : grid0.Coords) (q : Vec Ideal S1x128x256 .bf16) (k : Vec Ideal S1x2048x256 .bf16)
    (lr : Vec Ideal S1x128x1 .i32) (lc : Vec Ideal S1x1x2048 .i32) (vr : Vec Ideal S1x128x1 .f32) (vc : Vec Ideal S1x1x2048 .f32) (r : Fin 128) :
    lossBlock (F := Ideal) i q k lr lc vr vc (ix3 (0 : Fin 1) r (0 : Fin 1))
      = k0_pay13 (F := Ideal) (k0_pay3 q k) (k0_pay4 vr vc) (k0_pay5 lr lc vr vc) (k0_pay6 i)
          (iota .tc S1x2048 32 [1] iota_S1x2048_d1_w32) (k0_pay7 i) k0_pay8 (ix2 r (0 : Fin 1)) := by
  unfold lossBlock rowLoss
  rw [View.canon_unit_zero hz3]
  simp only [View.ld_unit_zero (S := S1x128x256) hz3, View.ld_unit_zero (S := S1x2048x256) hz3,
    View.ld_unit_zero (S := S1x128x1) hz3, View.ld_unit_zero (S := S1x1x2048) hz3]
  unfold k0_pay1
  exact shapeCast_ab_1ab_apply _ _ _ _ _

/-- Row `r` of the flag buffer is row `r` of the body's flag vector. -/
theorem flagBlock_apply (i : grid0.Coords) (lr : Vec Ideal S1x128x1 .i32) (lc : Vec Ideal S1x1x2048 .i32)
    (vr : Vec Ideal S1x128x1 .f32) (vc : Vec Ideal S1x1x2048 .f32) (r : Fin 128) :
    flagBlock (F := Ideal) i lr lc vr vc (ix3 (0 : Fin 1) r (0 : Fin 1))
      = k0_pay12 (F := Ideal) (k0_pay5 lr lc vr vc) (k0_pay7 i) k0_pay8 (ix2 r (0 : Fin 1)) := by
  unfold flagBlock rowFlag
  rw [View.canon_unit_zero hz3]
  simp only [View.ld_unit_zero (S := S1x128x1) hz3, View.ld_unit_zero (S := S1x1x2048) hz3]
  unfold k0_pay2
  exact shapeCast_ab_1ab_apply _ _ _ _ _

/-! ## The blocks the region stages, read off the pair's arrays

`fA`, `lA`, `vA` are the normalised features [16,2048,256], the labels [16,2048] and the validities [16,2048] of all
pairs; the five arrays the region stages are these, the labels and validities as a column and as a row. -/

section Blocks

variable (c : Dev nD) (fA : S16x2048x256.Idx → EReal) (lA : S16x2048.Idx → BitVec 32) (vA : S16x2048.Idx → EReal)
  (hf : ∀ (b : Fin 16) (j : Fin 2048) (ch : Fin 256), V m c main_v42 (ix3 b j ch) = fA (ix3 b j ch))
  (hlc : V m c main_v43 = broadcastInDim S16x2048x1 ![0, 1] bcast_S16x2048_S16x2048x1_0_1 lA)
  (hlr : V m c main_v44 = broadcastInDim S16x1x2048 ![0, 2] bcast_S16x2048_S16x1x2048_0_2 lA)
  (hvc : V m c main_v46 = broadcastInDim S16x2048x1 ![0, 1] bcast_S16x2048_S16x2048x1_0_1 vA)
  (hvr : V m c main_v48 = broadcastInDim S16x1x2048 ![0, 2] bcast_S16x2048_S16x1x2048_0_2 vA)

/-- A [16,2048] array as a column [16,2048,1], read at an index. -/
theorem col_apply {α : Type} (x : S16x2048.Idx → α) (b : Fin 16) (j : Fin 2048) (u : Fin 1) :
    broadcastInDim S16x2048x1 ![0, 1] bcast_S16x2048_S16x2048x1_0_1 x (ix3 b j u) = x (ix2 b j) :=
  broadcastInDim_apply _ bcast_S16x2048_S16x2048x1_0_1 x (ix3 b j u) (ix2 b j) fun a => match a with
    | ⟨0, _⟩ => by show b.val = if (16 : Nat) = 1 then 0 else b.val; rw [if_neg (by decide)]
    | ⟨1, _⟩ => by show j.val = if (2048 : Nat) = 1 then 0 else j.val; rw [if_neg (by decide)]

/-- A [16,2048] array as a row [16,1,2048], read at an index. -/
theorem row_apply {α : Type} (x : S16x2048.Idx → α) (b : Fin 16) (u : Fin 1) (j : Fin 2048) :
    broadcastInDim S16x1x2048 ![0, 2] bcast_S16x2048_S16x1x2048_0_2 x (ix3 b u j) = x (ix2 b j) :=
  broadcastInDim_apply _ bcast_S16x2048_S16x1x2048_0_2 x (ix3 b u j) (ix2 b j) fun a => match a with
    | ⟨0, _⟩ => by show b.val = if (16 : Nat) = 1 then 0 else b.val; rw [if_neg (by decide)]
    | ⟨1, _⟩ => by show j.val = if (2048 : Nat) = 1 then 0 else j.val; rw [if_neg (by decide)]

/-- The pair of a grid point, and the pair's row that row `r` of the point's tile is. -/
abbrev pairOf (t : Fin cfg0.N) : Fin 16 := ⟨(grid0.coords t 0).val, (grid0.coords t 0).isLt⟩

include hf in
theorem blk0_apply (t : Fin cfg0.N) (r : Fin 128) (ch : Fin 256) :
    iblk m c 0 t (ix3 (0 : Fin 1) r ch) = fA (ix3 (pairOf t) (Rows.grow (grid0.coords t) r) ch) := by
  obtain ⟨e0, -⟩ := idx_facts t
  rw [← hf]
  show V m c main_v42 (((cfg0.win 0).blk t).view.emb (ix3 (0 : Fin 1) r ch)) = _
  refine congrArg (V m c main_v42) (funext fun a => Fin.ext ?_)
  match a with
  | ⟨0, _⟩ => show win0_0.index t (0 : Fin 3) * 1 + 1 * 0 = (grid0.coords t 0).val; rw [e0]; show (grid0.coords t 0).val * 1 + 1 * 0 = _; omega
  | ⟨1, _⟩ => show win0_0.index t (1 : Fin 3) * 128 + 1 * r.val = (grid0.coords t 1).val * 128 + r.val; rw [e0]; show (grid0.coords t 1).val * 128 + 1 * r.val = _; omega
  | ⟨2, _⟩ => show win0_0.index t (2 : Fin 3) * 256 + 1 * ch.val = ch.val; rw [e0]; show 0 * 256 + 1 * ch.val = _; omega

end Blocks

section Blocks2

variable (c : Dev nD) (fA : S16x2048x256.Idx → EReal) (lA : S16x2048.Idx → BitVec 32) (vA : S16x2048.Idx → EReal)
  (hf : ∀ (b : Fin 16) (j : Fin 2048) (ch : Fin 256), V m c main_v42 (ix3 b j ch) = fA (ix3 b j ch))
  (hlc : V m c main_v43 = broadcastInDim S16x2048x1 ![0, 1] bcast_S16x2048_S16x2048x1_0_1 lA)
  (hlr : V m c main_v44 = broadcastInDim S16x1x2048 ![0, 2] bcast_S16x2048_S16x1x2048_0_2 lA)
  (hvc : V m c main_v46 = broadcastInDim S16x2048x1 ![0, 1] bcast_S16x2048_S16x2048x1_0_1 vA)
  (hvr : V m c main_v48 = broadcastInDim S16x1x2048 ![0, 2] bcast_S16x2048_S16x1x2048_0_2 vA)

include hf in
theorem blk1_apply (t : Fin cfg0.N) (j : Fin 2048) (ch : Fin 256) :
    iblk m c 1 t (ix3 (0 : Fin 1) j ch) = fA (ix3 (pairOf t) j ch) := by
  obtain ⟨-, e1, -⟩ := idx_facts t
  rw [← hf]
  show V m c main_v42 (((cfg0.win 1).blk t).view.emb (ix3 (0 : Fin 1) j ch)) = _
  refine congrArg (V m c main_v42) (funext fun a => Fin.ext ?_)
  match a with
  | ⟨0, _⟩ => show win0_1.index t (0 : Fin 3) * 1 + 1 * 0 = (grid0.coords t 0).val; rw [e1]; show (grid0.coords t 0).val * 1 + 1 * 0 = _; omega
  | ⟨1, _⟩ => show win0_1.index t (1 : Fin 3) * 2048 + 1 * j.val = j.val; rw [e1]; show 0 * 2048 + 1 * j.val = _; omega
  | ⟨2, _⟩ => show win0_1.index t (2 : Fin 3) * 256 + 1 * ch.val = ch.val; rw [e1]; show 0 * 256 + 1 * ch.val = _; omega

include hlc in
theorem blk2_apply (t : Fin cfg0.N) (r : Fin 128) :
    iblk m c 2 t (ix3 (0 : Fin 1) r (0 : Fin 1)) = lA (ix2 (pairOf t) (Rows.grow (grid0.coords t) r)) := by
  obtain ⟨-, -, e2, -⟩ := idx_facts t
  have hb : ((cfg0.win 2).blk t).view.emb (ix3 (0 : Fin 1) r (0 : Fin 1)) = ix3 (pairOf t) (Rows.grow (grid0.coords t) r) (0 : Fin 1) :=
    funext fun a => Fin.ext (by
      match a with
      | ⟨0, _⟩ => show win0_2.index t (0 : Fin 3) * 1 + 1 * 0 = (grid0.coords t 0).val; rw [e2]; show (grid0.coords t 0).val * 1 + 1 * 0 = _; omega
      | ⟨1, _⟩ => show win0_2.index t (1 : Fin 3) * 128 + 1 * r.val = (grid0.coords t 1).val * 128 + r.val; rw [e2]; show (grid0.coords t 1).val * 128 + 1 * r.val = _; omega
      | ⟨2, _⟩ => show win0_2.index t (2 : Fin 3) * 1 + 1 * 0 = 0; rw [e2]; show 0 * 1 + 1 * 0 = _; omega)
  show V m c main_v43 (((cfg0.win 2).blk t).view.emb (ix3 (0 : Fin 1) r (0 : Fin 1))) = _
  rw [hb, hlc, col_apply]

include hlr in
theorem blk3_apply (t : Fin cfg0.N) (j : Fin 2048) :
    iblk m c 3 t (ix3 (0 : Fin 1) (0 : Fin 1) j) = lA (ix2 (pairOf t) j) := by
  obtain ⟨-, -, -, e3, -⟩ := idx_facts t
  have hb : ((cfg0.win 3).blk t).view.emb (ix3 (0 : Fin 1) (0 : Fin 1) j) = ix3 (pairOf t) (0 : Fin 1) j :=
    funext fun a => Fin.ext (by
      match a with
      | ⟨0, _⟩ => show win0_3.index t (0 : Fin 3) * 1 + 1 * 0 = (grid0.coords t 0).val; rw [e3]; show (grid0.coords t 0).val * 1 + 1 * 0 = _; omega
      | ⟨1, _⟩ => show win0_3.index t (1 : Fin 3) * 1 + 1 * 0 = 0; rw [e3]; show 0 * 1 + 1 * 0 = _; omega
      | ⟨2, _⟩ => show win0_3.index t (2 : Fin 3) * 2048 + 1 * j.val = j.val; rw [e3]; show 0 * 2048 + 1 * j.val = _; omega)
  show V m c main_v44 (((cfg0.win 3).blk t).view.emb (ix3 (0 : Fin 1) (0 : Fin 1) j)) = _
  rw [hb, hlr, row_apply]

include hvc in
theorem blk4_apply (t : Fin cfg0.N) (r : Fin 128) :
    iblk m c 4 t (ix3 (0 : Fin 1) r (0 : Fin 1)) = vA (ix2 (pairOf t) (Rows.grow (grid0.coords t) r)) := by
  obtain ⟨-, -, -, -, e4, -⟩ := idx_facts t
  have hb : ((cfg0.win 4).blk t).view.emb (ix3 (0 : Fin 1) r (0 : Fin 1)) = ix3 (pairOf t) (Rows.grow (grid0.coords t) r) (0 : Fin 1) :=
    funext fun a => Fin.ext (by
      match a with
      | ⟨0, _⟩ => show win0_4.index t (0 : Fin 3) * 1 + 1 * 0 = (grid0.coords t 0).val; rw [e4]; show (grid0.coords t 0).val * 1 + 1 * 0 = _; omega
      | ⟨1, _⟩ => show win0_4.index t (1 : Fin 3) * 128 + 1 * r.val = (grid0.coords t 1).val * 128 + r.val; rw [e4]; show (grid0.coords t 1).val * 128 + 1 * r.val = _; omega
      | ⟨2, _⟩ => show win0_4.index t (2 : Fin 3) * 1 + 1 * 0 = 0; rw [e4]; show 0 * 1 + 1 * 0 = _; omega)
  show V m c main_v46 (((cfg0.win 4).blk t).view.emb (ix3 (0 : Fin 1) r (0 : Fin 1))) = _
  rw [hb, hvc, col_apply]

include hvr in
theorem blk5_apply (t : Fin cfg0.N) (j : Fin 2048) :
    iblk m c 5 t (ix3 (0 : Fin 1) (0 : Fin 1) j) = vA (ix2 (pairOf t) j) := by
  obtain ⟨-, -, -, -, -, e5, -⟩ := idx_facts t
  have hb : ((cfg0.win 5).blk t).view.emb (ix3 (0 : Fin 1) (0 : Fin 1) j) = ix3 (pairOf t) (0 : Fin 1) j :=
    funext fun a => Fin.ext (by
      match a with
      | ⟨0, _⟩ => show win0_5.index t (0 : Fin 3) * 1 + 1 * 0 = (grid0.coords t 0).val; rw [e5]; show (grid0.coords t 0).val * 1 + 1 * 0 = _; omega
      | ⟨1, _⟩ => show win0_5.index t (1 : Fin 3) * 1 + 1 * 0 = 0; rw [e5]; show 0 * 1 + 1 * 0 = _; omega
      | ⟨2, _⟩ => show win0_5.index t (2 : Fin 3) * 2048 + 1 * j.val = j.val; rw [e5]; show 0 * 2048 + 1 * j.val = _; omega)
  show V m c main_v48 (((cfg0.win 5).blk t).view.emb (ix3 (0 : Fin 1) (0 : Fin 1) j)) = _
  rw [hb, hvr, row_apply]

/-! ## What every pair's rows end holding -/

/-- The pair and the row an index of a column array [16,2048,1] names. -/
abbrev p0 (idx : S16x2048x1.Idx) : Fin 16 := ⟨(idx 0).val, (idx 0).isLt⟩
abbrev p1 (idx : S16x2048x1.Idx) : Fin 2048 := ⟨(idx 1).val, (idx 1).isLt⟩

/-- Pair `b`'s data. -/
abbrev fOf (b : Fin 16) : Fin 2048 → Fin 256 → EReal := fun j ch => fA (ix3 b j ch)
abbrev lOf (b : Fin 16) : Fin 2048 → BitVec 32 := fun j => lA (ix2 b j)
abbrev vOf (b : Fin 16) : Fin 2048 → EReal := fun j => vA (ix2 b j)

/-- The loss array: each row's loss. -/
def lossArr : S16x2048x1.Idx → EReal := fun idx => Cert.Spec.loss (fOf fA (p0 idx)) (lOf lA (p0 idx)) (vOf vA (p0 idx)) (p1 idx)
/-- The flag array: each row's flag. -/
def flagArr : S16x2048x1.Idx → EReal := fun idx => Cert.Spec.flag (lOf lA (p0 idx)) (vOf vA (p0 idx)) (p1 idx)

/-- Row `r` of point `t`'s output block sits at (pair, a·128 + r, 0). -/
theorem emb6 (t : Fin cfg0.N) (r : Fin 128) :
    ((cfg0.win 6).blk t).view.emb (ix3 (0 : Fin 1) r (0 : Fin 1)) = ix3 (pairOf t) (Rows.grow (grid0.coords t) r) (0 : Fin 1) := by
  obtain ⟨-, -, -, -, -, -, e6, -⟩ := idx_facts t
  exact funext fun a => Fin.ext (by
    match a with
    | ⟨0, _⟩ => show win0_6.index t (0 : Fin 3) * 1 + 1 * 0 = (grid0.coords t 0).val; rw [e6]; show (grid0.coords t 0).val * 1 + 1 * 0 = _; omega
    | ⟨1, _⟩ => show win0_6.index t (1 : Fin 3) * 128 + 1 * r.val = (grid0.coords t 1).val * 128 + r.val; rw [e6]; show (grid0.coords t 1).val * 128 + 1 * r.val = _; omega
    | ⟨2, _⟩ => show win0_6.index t (2 : Fin 3) * 1 + 1 * 0 = 0; rw [e6]; show 0 * 1 + 1 * 0 = _; omega)
theorem emb7 (t : Fin cfg0.N) (r : Fin 128) :
    ((cfg0.win 7).blk t).view.emb (ix3 (0 : Fin 1) r (0 : Fin 1)) = ix3 (pairOf t) (Rows.grow (grid0.coords t) r) (0 : Fin 1) := by
  obtain ⟨-, -, -, -, -, -, -, e7⟩ := idx_facts t
  exact funext fun a => Fin.ext (by
    match a with
    | ⟨0, _⟩ => show win0_7.index t (0 : Fin 3) * 1 + 1 * 0 = (grid0.coords t 0).val; rw [e7]; show (grid0.coords t 0).val * 1 + 1 * 0 = _; omega
    | ⟨1, _⟩ => show win0_7.index t (1 : Fin 3) * 128 + 1 * r.val = (grid0.coords t 1).val * 128 + r.val; rw [e7]; show (grid0.coords t 1).val * 128 + 1 * r.val = _; omega
    | ⟨2, _⟩ => show win0_7.index t (2 : Fin 3) * 1 + 1 * 0 = 0; rw [e7]; show 0 * 1 + 1 * 0 = _; omega)

/-- An index of a [1,128,1] block is (0, r, 0). -/
theorem blockIdx_eq (y : S1x128x1.Idx) : y = ix3 (0 : Fin 1) (⟨(y 1).val, (y 1).isLt⟩ : Fin 128) (0 : Fin 1) :=
  funext fun a => Fin.ext (by
    match a with
    | ⟨0, _⟩ => exact Nat.lt_one_iff.mp (y 0).isLt
    | ⟨1, _⟩ => rfl
    | ⟨2, _⟩ => exact Nat.lt_one_iff.mp (y 2).isLt)

include hf hlc hlr hvc hvr in
/-- WHAT POINT `t` WRITES BACK into the loss array is block `t` of `lossArr`. -/
theorem flushed6_eq (t : Fin cfg0.N) :
    (dats m 0 c).flushed 6 t = ((cfg0.win 6).blk t).view.read (Elt Ideal) (lossArr fA lA vA) := by
  show (cfg0.win 6).cut (grid0.coords t) ((dats m 0 c).after 6 t) = _
  rw [after_6]
  funext y
  obtain ⟨r, rfl⟩ : ∃ r : Fin 128, y = ix3 (0 : Fin 1) r (0 : Fin 1) := ⟨_, blockIdx_eq y⟩
  show lossBlock (grid0.coords t) (iblk m c 0 t) (iblk m c 1 t) (iblk m c 2 t) (iblk m c 3 t) (iblk m c 4 t) (iblk m c 5 t) (ix3 (0 : Fin 1) r (0 : Fin 1))
    = lossArr fA lA vA (((cfg0.win 6).blk t).view.emb (ix3 (0 : Fin 1) r (0 : Fin 1)))
  refine (lossBlock_apply (grid0.coords t) (iblk m c 0 t) (iblk m c 1 t) (iblk m c 2 t) (iblk m c 3 t) (iblk m c 4 t) (iblk m c 5 t) r).trans ?_
  refine (Rows.loss_row (grid0.coords t) (iblk m c 0 t) (iblk m c 1 t) (iblk m c 2 t) (iblk m c 3 t) (iblk m c 4 t) (iblk m c 5 t)
    (fOf fA (pairOf t)) (lOf lA (pairOf t)) (vOf vA (pairOf t))
    (fun r ch => blk0_apply m c fA hf t r ch) (fun j ch => blk1_apply m c fA hf t j ch)
    (fun r => blk2_apply m c lA hlc t r) (fun j => blk3_apply m c lA hlr t j)
    (fun r => blk4_apply m c vA hvc t r) (fun j => blk5_apply m c vA hvr t j) r).trans ?_
  rw [emb6]
  unfold lossArr
  rfl

include hlc hlr hvc hvr in
/-- WHAT POINT `t` WRITES BACK into the flag array is block `t` of `flagArr`. -/
theorem flushed7_eq (t : Fin cfg0.N) :
    (dats m 0 c).flushed 7 t = ((cfg0.win 7).blk t).view.read (Elt Ideal) (flagArr lA vA) := by
  show (cfg0.win 7).cut (grid0.coords t) ((dats m 0 c).after 7 t) = _
  rw [after_7]
  funext y
  obtain ⟨r, rfl⟩ : ∃ r : Fin 128, y = ix3 (0 : Fin 1) r (0 : Fin 1) := ⟨_, blockIdx_eq y⟩
  show flagBlock (grid0.coords t) (iblk m c 2 t) (iblk m c 3 t) (iblk m c 4 t) (iblk m c 5 t) (ix3 (0 : Fin 1) r (0 : Fin 1))
    = flagArr lA vA (((cfg0.win 7).blk t).view.emb (ix3 (0 : Fin 1) r (0 : Fin 1)))
  refine (flagBlock_apply (grid0.coords t) (iblk m c 2 t) (iblk m c 3 t) (iblk m c 4 t) (iblk m c 5 t) r).trans ?_
  refine (Rows.flag_row (grid0.coords t) (iblk m c 2 t) (iblk m c 3 t) (iblk m c 4 t) (iblk m c 5 t)
    (lOf lA (pairOf t)) (vOf vA (pairOf t))
    (fun r => blk2_apply m c lA hlc t r) (fun j => blk3_apply m c lA hlr t j)
    (fun r => blk4_apply m c vA hvc t r) (fun j => blk5_apply m c vA hvr t j) r).trans ?_
  rw [emb7]
  unfold flagArr
  rfl

/-! ## The output blocks tile their arrays -/

theorem mem_blk6 (t : Fin cfg0.N) (i : S16x2048x1.Idx) :
    i ∈ ((cfg0.win 6).blk t).view.set ↔ ∀ a : Fin 3, win0_6.index t a * S1x128x1.size a ≤ (i a).val ∧ (i a).val < win0_6.index t a * S1x128x1.size a + S1x128x1.size a := by
  show i ∈ ((View.whole main_v49_0).slice (win0_6.rect t)).set ↔ _
  rw [View.set_slice_whole, Rect.mem_set_unit]
  exact Iff.rfl
theorem mem_blk7 (t : Fin cfg0.N) (i : S16x2048x1.Idx) :
    i ∈ ((cfg0.win 7).blk t).view.set ↔ ∀ a : Fin 3, win0_7.index t a * S1x128x1.size a ≤ (i a).val ∧ (i a).val < win0_7.index t a * S1x128x1.size a + S1x128x1.size a := by
  show i ∈ ((View.whole main_v49_1).slice (win0_7.rect t)).set ↔ _
  rw [View.set_slice_whole, Rect.mem_set_unit]
  exact Iff.rfl

theorem cover6 (i : S16x2048x1.Idx) : ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 1 := (i 2).isLt
  obtain ⟨t, ht0, ht1⟩ := idx_onto ⟨(i 0).val, h0⟩ ⟨(i 1).val / 128, by omega⟩
  obtain ⟨-, -, -, -, -, -, e6, -⟩ := idx_facts t
  have ht0' : (grid0.coords t 0).val = (i 0).val := ht0
  have ht1' : (grid0.coords t 1).val = (i 1).val / 128 := ht1
  refine ⟨t, flush0_6 t, (mem_blk6 t i).mpr fun a => ?_⟩
  match a with
  | ⟨0, _⟩ => show win0_6.index t (0 : Fin 3) * 1 ≤ (i 0).val ∧ (i 0).val < win0_6.index t (0 : Fin 3) * 1 + 1; rw [e6]; show (grid0.coords t 0).val * 1 ≤ (i 0).val ∧ (i 0).val < (grid0.coords t 0).val * 1 + 1; omega
  | ⟨1, _⟩ => show win0_6.index t (1 : Fin 3) * 128 ≤ (i 1).val ∧ (i 1).val < win0_6.index t (1 : Fin 3) * 128 + 128; rw [e6]; show (grid0.coords t 1).val * 128 ≤ (i 1).val ∧ (i 1).val < (grid0.coords t 1).val * 128 + 128; omega
  | ⟨2, _⟩ => show win0_6.index t (2 : Fin 3) * 1 ≤ (i 2).val ∧ (i 2).val < win0_6.index t (2 : Fin 3) * 1 + 1; rw [e6]; show 0 * 1 ≤ (i 2).val ∧ (i 2).val < 0 * 1 + 1; omega

theorem cover7 (i : S16x2048x1.Idx) : ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 1 := (i 2).isLt
  obtain ⟨t, ht0, ht1⟩ := idx_onto ⟨(i 0).val, h0⟩ ⟨(i 1).val / 128, by omega⟩
  obtain ⟨-, -, -, -, -, -, -, e7⟩ := idx_facts t
  have ht0' : (grid0.coords t 0).val = (i 0).val := ht0
  have ht1' : (grid0.coords t 1).val = (i 1).val / 128 := ht1
  refine ⟨t, flush0_7 t, (mem_blk7 t i).mpr fun a => ?_⟩
  match a with
  | ⟨0, _⟩ => show win0_7.index t (0 : Fin 3) * 1 ≤ (i 0).val ∧ (i 0).val < win0_7.index t (0 : Fin 3) * 1 + 1; rw [e7]; show (grid0.coords t 0).val * 1 ≤ (i 0).val ∧ (i 0).val < (grid0.coords t 0).val * 1 + 1; omega
  | ⟨1, _⟩ => show win0_7.index t (1 : Fin 3) * 128 ≤ (i 1).val ∧ (i 1).val < win0_7.index t (1 : Fin 3) * 128 + 128; rw [e7]; show (grid0.coords t 1).val * 128 ≤ (i 1).val ∧ (i 1).val < (grid0.coords t 1).val * 128 + 128; omega
  | ⟨2, _⟩ => show win0_7.index t (2 : Fin 3) * 1 ≤ (i 2).val ∧ (i 2).val < win0_7.index t (2 : Fin 3) * 1 + 1; rw [e7]; show 0 * 1 ≤ (i 2).val ∧ (i 2).val < 0 * 1 + 1; omega

include hf hlc hlr hvc hvr in
/-- THE LOSS ARRAY after the region. -/
theorem loss_final : (dats m 0 c).arrAt 6 cfg0.N = lossArr fA lA vA :=
  (dats m 0 c).arrAt_eq_of_cover 6 (lossArr fA lA vA) (fun t _ => flushed6_eq m c fA lA vA hf hlc hlr hvc hvr t) cover6

include hlc hlr hvc hvr in
/-- THE FLAG ARRAY after the region. -/
theorem flag_final : (dats m 0 c).arrAt 7 cfg0.N = flagArr lA vA :=
  (dats m 0 c).arrAt_eq_of_cover 7 (flagArr lA vA) (fun t _ => flushed7_eq m c lA vA hlc hlr hvc hvr t) cover7

include hf hlc hlr hvc hvr in
/-- THE RESULT: the last host operations applied to the two arrays of row losses and row flags. -/
theorem result_eq : Wf m c (Proc.devRef .tc main_v58) = tailOf (lossArr fA lA vA) (flagArr lA vA) := by
  rw [Wf_result]
  have e6 : Wx m c (Proc.devRef .tc main_v49_0) = lossArr fA lA vA := (Wx_out6 m c).trans (loss_final m c fA lA vA hf hlc hlr hvc hvr)
  have e7 : Wx m c (Proc.devRef .tc main_v49_1) = flagArr lA vA := (Wx_out7 m c).trans (flag_final m c lA vA hlc hlr hvc hvr)
  rw [e6, e7]

end Blocks2

end Cert.KernelIdeal.Run

end
-- ==== Proof.PrefixStages.lean ====
/-
  The host stretches before the kernel region, read against the reference program one stage at a time.

  Both programs sample 1024 pixels per image from the labels alone and pair each image with the next.  The labels and
  the validity mask go through the same operations in both, so their values agree as whole terms.  The features are
  gathered in two different layouts (channels before pixels in the kernel, pixels before channels in the reference);
  they are compared entry by entry, and everything after the sampled features is again the same operations.
-/
import proofs.«110907_j88038239634215_2_alg».proof.Proof.IdealRun
import proofs.«110907_j88038239634215_2_alg».proof.Proof.ReadP
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Prefix

open Cert.KernelIdeal Cert.KernelIdeal.Gen Cert.KernelIdeal.Run
open Idealize.ShloMosaic Idealize.ShloMosaic.TcCoe Idealize.ShloMosaic.StableHlo Idealize.SL.Sem
open Idealize.ShloMosaic.ValueIdx

variable (m : (ℓ : Loc nD τ sig) → Buf (Elt Ideal) ℓ) (c : Dev nD)

/-- The two programs order pairs (priority, position) by the same comparison of the priorities. -/
theorem comparator_eq : Cert.ReferenceIdeal.comparator_i32_i32_d1 = comparator_i32_i32_d1 := rfl

/-- Two arrays joined along an axis, the two operands as plain arguments. -/
def concat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ x₁ x₂ h := rfl

/-! ## The labels and the validities

Both programs compute the sampled labels and their validity mask from the label argument alone, by the same
operations in the same order: the priority of each pixel (two comparisons, two selects), the stable sort of the
priorities paired with their positions, the first 1024 positions, the priorities and the labels taken at those
positions, the mask "priority below 2", the label 255 where the mask is off, and each image's 1024 entries followed
by the next image's.  Once every stage of the reference is spelt out the two terms are one tree; the sort is named
by a variable before the trees are compared, so that the comparison never looks inside it. -/

set_option maxRecDepth 200000 in
set_option maxHeartbeats 1000000 in
/-- The 2048 labels of every image pair are the reference's. -/
theorem V_main_v25 :
    V m c main_v25 = Cert.ReferenceIdeal.ReadP.val_main_v25 (F := Ideal) (m ((c : Thread nD τ).loc main_arg1)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_call2_v1_0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v20, Cert.ReferenceIdeal.ReadP.val_main_c_5, Cert.ReferenceIdeal.ReadP.val_main_call6_v0, Cert.ReferenceIdeal.ReadP.val_main_call6_v1, Cert.ReferenceIdeal.ReadP.val_main_v21, Cert.ReferenceIdeal.ReadP.val_main_call8_v0, Cert.ReferenceIdeal.ReadP.val_main_call8_v1, Cert.ReferenceIdeal.ReadP.val_main_v24, Cert.ReferenceIdeal.ReadP.val_main_v25, Cert.ReferenceIdeal.ReadP.val_main_call9_v0, Cert.ReferenceIdeal.ReadP.val_main_call9_v1, Cert.ReferenceIdeal.ReadP.val_main_v26, Cert.ReferenceIdeal.ReadP.val_main_c_6, Cert.ReferenceIdeal.ReadP.val_main_v27, Cert.ReferenceIdeal.ReadP.val_main_v28, Cert.ReferenceIdeal.ReadP.val_main_v29, Cert.ReferenceIdeal.ReadP.val_main_c_7, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v39, concat2_eq]
  simp only [comparator_eq]
  generalize Host.sort2 S16x16384 1 comparator_i32_i32_d1 = srt
  exact rfl

set_option maxRecDepth 200000 in
set_option maxHeartbeats 1000000 in
/-- The 2048 validity bits of every image pair are the reference's. -/
theorem V_main_v33 :
    V m c main_v33 = Cert.ReferenceIdeal.ReadP.val_main_v33 (F := Ideal) (m ((c : Thread nD τ).loc main_arg1)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_call2_v1_0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v20, Cert.ReferenceIdeal.ReadP.val_main_c_5, Cert.ReferenceIdeal.ReadP.val_main_call6_v0, Cert.ReferenceIdeal.ReadP.val_main_call6_v1, Cert.ReferenceIdeal.ReadP.val_main_v21, Cert.ReferenceIdeal.ReadP.val_main_call8_v0, Cert.ReferenceIdeal.ReadP.val_main_call8_v1, Cert.ReferenceIdeal.ReadP.val_main_v24, Cert.ReferenceIdeal.ReadP.val_main_v25, Cert.ReferenceIdeal.ReadP.val_main_call9_v0, Cert.ReferenceIdeal.ReadP.val_main_call9_v1, Cert.ReferenceIdeal.ReadP.val_main_v26, Cert.ReferenceIdeal.ReadP.val_main_c_6, Cert.ReferenceIdeal.ReadP.val_main_v27, Cert.ReferenceIdeal.ReadP.val_main_v28, Cert.ReferenceIdeal.ReadP.val_main_v29, Cert.ReferenceIdeal.ReadP.val_main_c_7, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v39, concat2_eq]
  simp only [comparator_eq]
  generalize Host.sort2 S16x16384 1 comparator_i32_i32_d1 = srt
  exact rfl

/-- The labels as a column per image pair. -/
theorem labels_col :
    V m c main_v43 = broadcastInDim S16x2048x1 ![0, 1] bcast_S16x2048_S16x2048x1_0_1
      (Cert.ReferenceIdeal.ReadP.val_main_v25 (F := Ideal) (m ((c : Thread nD τ).loc main_arg1))) := by
  rw [← V_main_v25 m c]
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq] <;> exact rfl

/-- The labels as a row per image pair. -/
theorem labels_row :
    V m c main_v44 = broadcastInDim S16x1x2048 ![0, 2] bcast_S16x2048_S16x1x2048_0_2
      (Cert.ReferenceIdeal.ReadP.val_main_v25 (F := Ideal) (m ((c : Thread nD τ).loc main_arg1))) := by
  rw [← V_main_v25 m c]
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq] <;> exact rfl

/-- The validities, as numbers, as a column per image pair. -/
theorem valid_col :
    V m c main_v46 = broadcastInDim S16x2048x1 ![0, 1] bcast_S16x2048_S16x2048x1_0_1
      (Cert.ReferenceIdeal.ReadP.val_main_v39 (F := Ideal) (m ((c : Thread nD τ).loc main_arg1))) := by
  unfold Cert.ReferenceIdeal.ReadP.val_main_v39
  rw [← V_main_v33 m c]
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq] <;> exact rfl

/-- The validities, as numbers, as a row per image pair. -/
theorem valid_row :
    V m c main_v48 = broadcastInDim S16x1x2048 ![0, 2] bcast_S16x2048_S16x1x2048_0_2
      (Cert.ReferenceIdeal.ReadP.val_main_v39 (F := Ideal) (m ((c : Thread nD τ).loc main_arg1))) := by
  unfold Cert.ReferenceIdeal.ReadP.val_main_v39
  rw [← V_main_v33 m c]
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq] <;> exact rfl

/-! ## The sampled features

The kernel flattens the features to [16, 256, 16384], gathers along the last axis and transposes the small result;
the reference transposes the features to channels-last, flattens them to [16, 16384, 256] and gathers rows.  Both
read, for image `b`, sample `k` and channel `ch`, the feature at pixel `q = clamp (wrap (order b k))` — row `q / 128`,
column `q % 128` — replace it by the NaN word where the start index is out of range, and multiply by the sample's
validity. -/

section Feats

variable {α : Type}

/-- A start index read off the order: 16384 is added to a negative entry. -/
def wrap (o : BitVec 32) : BitVec 32 := Scalar.select (IntOp.cmpi .slt o 0#32) (IntOp.addi o 16384#32) o

/-- A start index read as a signed integer and clamped into the 16384 pixels of an image. -/
def clampq (o : BitVec 32) : Fin 16384 := ⟨min o.toInt.toNat 16383, by omega⟩

/-- Pixel `n` of image `b`, channel `ch`, as an index of the feature argument. -/
def pix (b : Fin 16) (ch : Fin 256) (n : Fin 16384) : (⟨4, ![16, 256, 128, 128]⟩ : Shape).Idx :=
  ix4 b ch ⟨n.val / 128, by have := n.isLt; omega⟩ ⟨n.val % 128, by omega⟩

/-- Whether a pixel's start index is in range: the mask both `take_along_axis` calls compute. -/
def inRange (idx : IVec S16x1024x1 32) : IVec S16x1024 1 :=
  Host.reduce IntOp.andi
    (andi (cmpi .sge idx (broadcastInDim S16x1024x1 ![] bcast_S_S16x1024x1 (constantI S_ 32 0#32)))
      (cmpi .sle idx (broadcastInDim S16x1024x1 ![0, 1, 2] bcast_S1x1x1_S16x1024x1_0_1_2
        (broadcastInDim S1x1x1 ![2] bcast_S1_S1x1x1_2 (constantI S1 32 16383#32)))))
    (constantI S_ 1 1#1) reducesTo_S16x1024x1_S16x1024_d2 h_S_

/-- The kernel's start indices: the order as [16, 1, 1024], wrapped, reshaped to [16, 1024, 1]. -/
def kIdx (ord : IVec S16x1024 32) : IVec S16x1024x1 32 :=
  shapeCast S16x1024x1
    (select
      (cmpi .slt (broadcastInDim S16x1x1024 ![0, 2] bcast_S16x1024_S16x1x1024_0_2 ord)
        (broadcastInDim S16x1x1024 ![] bcast_S_S16x1x1024 (constantI S_ 32 0#32)))
      (addi (broadcastInDim S16x1x1024 ![0, 2] bcast_S16x1024_S16x1x1024_0_2 ord)
        (broadcastInDim S16x1x1024 ![] bcast_S_S16x1x1024 (constantI S_ 32 16384#32)))
      (broadcastInDim S16x1x1024 ![0, 2] bcast_S16x1024_S16x1x1024_0_2 ord))
    shapeCasts_S16x1x1024_S16x1024x1

/-- The reference's start indices: the order as [16, 1024, 1], wrapped. -/
def rIdx (ord : IVec S16x1024 32) : IVec S16x1024x1 32 :=
  select
    (cmpi .slt (broadcastInDim S16x1024x1 ![0, 1] Cert.ReferenceIdeal.Gen.bcast_S16x1024_S16x1024x1_0_1 ord)
      (broadcastInDim S16x1024x1 ![] bcast_S_S16x1024x1 (constantI S_ 32 0#32)))
    (addi (broadcastInDim S16x1024x1 ![0, 1] Cert.ReferenceIdeal.Gen.bcast_S16x1024_S16x1024x1_0_1 ord)
      (broadcastInDim S16x1024x1 ![] bcast_S_S16x1024x1 (constantI S_ 32 16384#32)))
    (broadcastInDim S16x1024x1 ![0, 1] Cert.ReferenceIdeal.Gen.bcast_S16x1024_S16x1024x1_0_1 ord)

/-- The kernel's sampled features [16, 1024, 256], as a function of the features, the order and the validity mask. -/
def kFeats (x0 : (⟨S16x256x128x128, .f32⟩ : BufTy).Contents (Elt Ideal)) (ord : (⟨S16x1024, .i32⟩ : BufTy).Contents (Elt Ideal))
    (vld : (⟨S16x1024, .i1⟩ : BufTy).Contents (Elt Ideal)) : (⟨S16x1024x256, .f32⟩ : BufTy).Contents (Elt Ideal) :=
  transpose S16x1024x256 [0, 2, 1]
    (mulf (F := Ideal)
      (select (broadcastInDim S16x256x1024 ![0, 2] bcast_S16x1024_S16x256x1024_0_2 (inRange (kIdx ord)))
        (Host.gather gather_S16x256x16384_S16x1024x1_S16x256x1024_1_2_0_0_2_2_12561
          (shapeCast S16x256x16384 x0 shapeCasts_S16x256x128x128_S16x256x16384) (kIdx ord))
        (broadcastInDim S16x256x1024 ![] bcast_S_S16x256x1024 (constant (F := Ideal) S_ .f32 0x7FC00000#32)))
      (broadcastInDim S16x256x1024 ![0, 1, 2] bcast_S16x1x1024_S16x256x1024_0_1_2
        (uitofp (F := Ideal) .f32 (broadcastInDim S16x1x1024 ![0, 2] bcast_S16x1024_S16x1x1024_0_2 vld))))
    transposes_S16x256x1024_S16x1024x256_0_2_1

/-- The reference's sampled features [16, 1024, 256], as a function of the same three. -/
def rFeats (x0 : (⟨S16x256x128x128, .f32⟩ : BufTy).Contents (Elt Ideal)) (ord : (⟨S16x1024, .i32⟩ : BufTy).Contents (Elt Ideal))
    (vld : (⟨S16x1024, .i1⟩ : BufTy).Contents (Elt Ideal)) : (⟨S16x1024x256, .f32⟩ : BufTy).Contents (Elt Ideal) :=
  mulf (F := Ideal)
    (select (broadcastInDim S16x1024x256 ![0, 1] Cert.ReferenceIdeal.Gen.bcast_S16x1024_S16x1024x256_0_1 (inRange (rIdx ord)))
      (Host.gather Cert.ReferenceIdeal.gather_S16x16384x256_S16x1024x1_S16x1024x256_2_1_0_0_1_2_11256
        (shapeCast Cert.ReferenceIdeal.S16x16384x256
          (transpose Cert.ReferenceIdeal.S16x128x128x256 [0, 2, 3, 1] x0 Cert.ReferenceIdeal.Gen.transposes_S16x256x128x128_S16x128x128x256_0_2_3_1)
          Cert.ReferenceIdeal.Gen.shapeCasts_S16x128x128x256_S16x16384x256)
        (rIdx ord))
      (broadcastInDim S16x1024x256 ![] Cert.ReferenceIdeal.Gen.bcast_S_S16x1024x256 (constant (F := Ideal) S_ .f32 0x7FC00000#32)))
    (broadcastInDim S16x1024x256 ![0, 1, 2] Cert.ReferenceIdeal.Gen.bcast_S16x1024x1_S16x1024x256_0_1_2
      (uitofp (F := Ideal) .f32 (broadcastInDim S16x1024x1 ![0, 1] Cert.ReferenceIdeal.Gen.bcast_S16x1024_S16x1024x1_0_1 vld)))

/-! ### The layout operations read at an index -/

/-- [16, 1024] broadcast along a new middle axis reads the entry of the outer coordinates. -/
theorem bcast02_apply (x : (⟨2, ![16, 1024]⟩ : Shape).Idx → α)
    (h : (⟨2, ![16, 1024]⟩ : Shape).BroadcastsInDim ⟨3, ![16, 1, 1024]⟩ ![0, 2]) (b : Fin 16) (z : Fin 1) (k : Fin 1024) :
    broadcastInDim ⟨3, ![16, 1, 1024]⟩ ![0, 2] h x (ix3 b z k) = x (ix2 b k) :=
  broadcastInDim_apply _ h x _ (ix2 b k) (fun a => match a with | ⟨0, _⟩ => rfl | ⟨1, _⟩ => rfl)

/-- [16, 1024] broadcast along a new last axis reads the entry of the two leading coordinates. -/
theorem bcast01_apply (x : (⟨2, ![16, 1024]⟩ : Shape).Idx → α)
    (h : (⟨2, ![16, 1024]⟩ : Shape).BroadcastsInDim ⟨3, ![16, 1024, 1]⟩ ![0, 1]) (b : Fin 16) (k : Fin 1024) (z : Fin 1) :
    broadcastInDim ⟨3, ![16, 1024, 1]⟩ ![0, 1] h x (ix3 b k z) = x (ix2 b k) :=
  broadcastInDim_apply _ h x _ (ix2 b k) (fun a => match a with | ⟨0, _⟩ => rfl | ⟨1, _⟩ => rfl)

/-- [16, 1024] broadcast over 256 channels in the middle. -/
theorem bcast02c_apply (x : (⟨2, ![16, 1024]⟩ : Shape).Idx → α)
    (h : (⟨2, ![16, 1024]⟩ : Shape).BroadcastsInDim ⟨3, ![16, 256, 1024]⟩ ![0, 2]) (b : Fin 16) (ch : Fin 256) (k : Fin 1024) :
    broadcastInDim ⟨3, ![16, 256, 1024]⟩ ![0, 2] h x (ix3 b ch k) = x (ix2 b k) :=
  broadcastInDim_apply _ h x _ (ix2 b k) (fun a => match a with | ⟨0, _⟩ => rfl | ⟨1, _⟩ => rfl)

/-- [16, 1024] broadcast over 256 channels at the end. -/
theorem bcast01c_apply (x : (⟨2, ![16, 1024]⟩ : Shape).Idx → α)
    (h : (⟨2, ![16, 1024]⟩ : Shape).BroadcastsInDim ⟨3, ![16, 1024, 256]⟩ ![0, 1]) (b : Fin 16) (k : Fin 1024) (ch : Fin 256) :
    broadcastInDim ⟨3, ![16, 1024, 256]⟩ ![0, 1] h x (ix3 b k ch) = x (ix2 b k) :=
  broadcastInDim_apply _ h x _ (ix2 b k) (fun a => match a with | ⟨0, _⟩ => rfl | ⟨1, _⟩ => rfl)

/-- [16, 1, 1024] broadcast over 256 channels. -/
theorem bcast_mid_apply (x : (⟨3, ![16, 1, 1024]⟩ : Shape).Idx → α)
    (h : (⟨3, ![16, 1, 1024]⟩ : Shape).BroadcastsInDim ⟨3, ![16, 256, 1024]⟩ ![0, 1, 2]) (b : Fin 16) (ch : Fin 256) (k : Fin 1024) :
    broadcastInDim ⟨3, ![16, 256, 1024]⟩ ![0, 1, 2] h x (ix3 b ch k) = x (ix3 b (0 : Fin 1) k) :=
  broadcastInDim_apply _ h x _ (ix3 b (0 : Fin 1) k) (fun a => match a with | ⟨0, _⟩ => rfl | ⟨1, _⟩ => rfl | ⟨2, _⟩ => rfl)

/-- [16, 1024, 1] broadcast over 256 channels. -/
theorem bcast_last_apply (x : (⟨3, ![16, 1024, 1]⟩ : Shape).Idx → α)
    (h : (⟨3, ![16, 1024, 1]⟩ : Shape).BroadcastsInDim ⟨3, ![16, 1024, 256]⟩ ![0, 1, 2]) (b : Fin 16) (k : Fin 1024) (ch : Fin 256) :
    broadcastInDim ⟨3, ![16, 1024, 256]⟩ ![0, 1, 2] h x (ix3 b k ch) = x (ix3 b k (0 : Fin 1)) :=
  broadcastInDim_apply _ h x _ (ix3 b k (0 : Fin 1)) (fun a => match a with | ⟨0, _⟩ => rfl | ⟨1, _⟩ => rfl | ⟨2, _⟩ => rfl)

/-- The wrap of a start index, read at an index of any shape. -/
theorem wrap_apply {s : Shape} (B Z C : IVec s 32) (i : s.Idx) (o : BitVec 32) (hB : B i = o) (hZ : Z i = 0#32)
    (hC : C i = 16384#32) : select (cmpi .slt B Z) (addi B C) B i = wrap o := by
  show Scalar.select (IntOp.cmpi .slt (B i) (Z i)) (IntOp.addi (B i) (C i)) (B i) = wrap o
  rw [hB, hZ, hC]; rfl

theorem kIdx_apply (ord : IVec S16x1024 32) (b : Fin 16) (k : Fin 1024) (u : Fin 1) :
    kIdx ord (ix3 b k u) = wrap (ord (ix2 b k)) := by
  unfold kIdx
  refine (shapeCast_apply _ _ (ix3 b k u) (ix3 b (0 : Fin 1) k) (by
    have hu := u.isLt
    rw [Shape.rowMajor_val_three, Shape.rowMajor_val_three]
    show (b.val * 1 + 0) * 1024 + k.val = (b.val * 1024 + k.val) * 1 + u.val
    omega)).trans ?_
  exact wrap_apply _ _ _ _ _ (bcast02_apply ord _ b 0 k) rfl rfl

theorem rIdx_apply (ord : IVec S16x1024 32) (b : Fin 16) (k : Fin 1024) (u : Fin 1) :
    rIdx ord (ix3 b k u) = wrap (ord (ix2 b k)) := by
  unfold rIdx
  exact wrap_apply _ _ _ _ _ (bcast01_apply ord _ b k u) rfl rfl

/-- The two programs gather at the same start indices. -/
theorem idx_eq (ord : IVec S16x1024 32) : kIdx ord = rIdx ord := by
  funext j
  obtain ⟨b, k, u, rfl⟩ : ∃ (b : Fin 16) (k : Fin 1024) (u : Fin 1), j = ix3 b k u := ⟨j 0, j 1, j 2, eq_ix3 j⟩
  exact (kIdx_apply ord b k u).trans (rIdx_apply ord b k u).symm

/-- The features flattened to [16, 256, 16384] read pixel `n` of channel `ch`. -/
theorem ksrc_apply (x0 : (⟨4, ![16, 256, 128, 128]⟩ : Shape).Idx → α)
    (h : (⟨4, ![16, 256, 128, 128]⟩ : Shape).ShapeCasts ⟨3, ![16, 256, 16384]⟩) (b : Fin 16) (ch : Fin 256) (n : Fin 16384) :
    shapeCast ⟨3, ![16, 256, 16384]⟩ x0 h (ix3 b ch n) = x0 (pix b ch n) :=
  shapeCast_apply x0 h (ix3 b ch n) (pix b ch n) (by
    have hn := n.isLt
    rw [Shape.rowMajor_val_four, Shape.rowMajor_val_three]
    show ((b.val * 256 + ch.val) * 128 + n.val / 128) * 128 + n.val % 128 = (b.val * 256 + ch.val) * 16384 + n.val
    omega)

/-- The features made channels-last and flattened to [16, 16384, 256] read the same entry. -/
theorem rsrc_apply (x0 : (⟨4, ![16, 256, 128, 128]⟩ : Shape).Idx → α)
    (ht : (⟨4, ![16, 256, 128, 128]⟩ : Shape).Transposes [0, 2, 3, 1] ⟨4, ![16, 128, 128, 256]⟩)
    (h : (⟨4, ![16, 128, 128, 256]⟩ : Shape).ShapeCasts ⟨3, ![16, 16384, 256]⟩) (b : Fin 16) (n : Fin 16384) (ch : Fin 256) :
    shapeCast ⟨3, ![16, 16384, 256]⟩ (transpose ⟨4, ![16, 128, 128, 256]⟩ [0, 2, 3, 1] x0 ht) h (ix3 b n ch) = x0 (pix b ch n) := by
  have hn := n.isLt
  refine (shapeCast_apply _ h (ix3 b n ch)
    (ix4 b (⟨n.val / 128, by omega⟩ : Fin 128) (⟨n.val % 128, by omega⟩ : Fin 128) ch) (by
    rw [Shape.rowMajor_val_four, Shape.rowMajor_val_three]
    show ((b.val * 128 + n.val / 128) * 128 + n.val % 128) * 256 + ch.val = (b.val * 16384 + n.val) * 256 + ch.val
    omega)).trans ?_
  exact transpose_apply [0, 2, 3, 1] x0 ht _ (pix b ch n) (fun a => match a with
    | ⟨0, _⟩ => rfl
    | ⟨1, _⟩ => rfl
    | ⟨2, _⟩ => rfl
    | ⟨3, _⟩ => rfl)

/-- The kernel's gather along the pixel axis: image and channel are the result's, the pixel is the clamped start index. -/
theorem kgather_apply (x : (⟨3, ![16, 256, 16384]⟩ : Shape).Idx → α) (idx : IVec S16x1024x1 32) (b : Fin 16) (ch : Fin 256)
    (k : Fin 1024) :
    Host.gather gather_S16x256x16384_S16x1024x1_S16x256x1024_1_2_0_0_2_2_12561 x idx (ix3 b ch k)
      = x (ix3 b ch (clampq (idx (ix3 b k (0 : Fin 1))))) := by
  unfold Host.gather
  refine congrArg x (funext fun a => Fin.ext ?_)
  have hsi : gather_S16x256x16384_S16x1024x1_S16x256x1024_1_2_0_0_2_2_12561.siIdx (ix3 b ch k) ⟨0, Nat.zero_lt_one⟩
      = ix3 b k (0 : Fin 1) := by
    funext b'; refine Fin.ext ?_
    match b' with
    | ⟨0, _⟩ => rfl
    | ⟨1, _⟩ => rfl
    | ⟨2, _⟩ => rfl
  show gather_S16x256x16384_S16x1024x1_S16x256x1024_1_2_0_0_2_2_12561.start (ix3 b ch k) idx a + gather_S16x256x16384_S16x1024x1_S16x256x1024_1_2_0_0_2_2_12561.batchCoord (ix3 b ch k) a + gather_S16x256x16384_S16x1024x1_S16x256x1024_1_2_0_0_2_2_12561.offCoord (ix3 b ch k) a = _
  match a with
  | ⟨0, h0⟩ =>
    have hb : (⟨0, h0⟩ : Fin S16x256x16384.rank) ∈ gather_S16x256x16384_S16x1024x1_S16x256x1024_1_2_0_0_2_2_12561.operandBatchingDims := by decide +revert
    rw [GatherDims.start_batching _ _ _ _ hb, GatherDims.offCoord_eq_zero _ _ _ (by decide +revert)]
    unfold GatherDims.batchCoord
    rw [dif_pos hb]
    simp only [Nat.zero_add, Nat.add_zero]
    rfl
  | ⟨1, h1⟩ =>
    rw [GatherDims.batchCoord_eq_zero _ _ _ (by decide +revert)]
    unfold GatherDims.start GatherDims.offCoord
    rw [dif_neg (by decide +revert), dif_pos (by decide +revert)]
    simp only [Nat.zero_add, Nat.add_zero]
    rfl
  | ⟨2, h2⟩ =>
    rw [GatherDims.batchCoord_eq_zero _ _ _ (by decide +revert), GatherDims.offCoord_eq_zero _ _ _ (by decide +revert)]
    unfold GatherDims.start
    rw [dif_pos (by decide +revert)]
    simp only [Nat.zero_add, Nat.add_zero]
    exact (show _ = min (idx (gather_S16x256x16384_S16x1024x1_S16x256x1024_1_2_0_0_2_2_12561.siIdx (ix3 b ch k)
      ⟨0, Nat.zero_lt_one⟩)).toInt.toNat 16383 from rfl).trans (congrArg (fun q => min (idx q).toInt.toNat 16383) hsi)

/-- The reference's gather of rows: image and channel are the result's, the row is the clamped start index. -/
theorem rgather_apply (x : (⟨3, ![16, 16384, 256]⟩ : Shape).Idx → α) (idx : IVec S16x1024x1 32) (b : Fin 16) (k : Fin 1024)
    (ch : Fin 256) :
    Host.gather Cert.ReferenceIdeal.gather_S16x16384x256_S16x1024x1_S16x1024x256_2_1_0_0_1_2_11256 x idx (ix3 b k ch)
      = x (ix3 b (clampq (idx (ix3 b k (0 : Fin 1)))) ch) := by
  unfold Host.gather
  refine congrArg x (funext fun a => Fin.ext ?_)
  have hsi : Cert.ReferenceIdeal.gather_S16x16384x256_S16x1024x1_S16x1024x256_2_1_0_0_1_2_11256.siIdx (ix3 b k ch) ⟨0, Nat.zero_lt_one⟩
      = ix3 b k (0 : Fin 1) := by
    funext b'; refine Fin.ext ?_
    match b' with
    | ⟨0, _⟩ => rfl
    | ⟨1, _⟩ => rfl
    | ⟨2, _⟩ => rfl
  show Cert.ReferenceIdeal.gather_S16x16384x256_S16x1024x1_S16x1024x256_2_1_0_0_1_2_11256.start (ix3 b k ch) idx a + Cert.ReferenceIdeal.gather_S16x16384x256_S16x1024x1_S16x1024x256_2_1_0_0_1_2_11256.batchCoord (ix3 b k ch) a + Cert.ReferenceIdeal.gather_S16x16384x256_S16x1024x1_S16x1024x256_2_1_0_0_1_2_11256.offCoord (ix3 b k ch) a = _
  match a with
  | ⟨0, h0⟩ =>
    have hb : (⟨0, h0⟩ : Fin Cert.ReferenceIdeal.S16x16384x256.rank) ∈ Cert.ReferenceIdeal.gather_S16x16384x256_S16x1024x1_S16x1024x256_2_1_0_0_1_2_11256.operandBatchingDims := by decide +revert
    rw [GatherDims.start_batching _ _ _ _ hb, GatherDims.offCoord_eq_zero _ _ _ (by decide +revert)]
    unfold GatherDims.batchCoord
    rw [dif_pos hb]
    simp only [Nat.zero_add, Nat.add_zero]
    rfl
  | ⟨1, h1⟩ =>
    rw [GatherDims.batchCoord_eq_zero _ _ _ (by decide +revert), GatherDims.offCoord_eq_zero _ _ _ (by decide +revert)]
    unfold GatherDims.start
    rw [dif_pos (by decide +revert)]
    simp only [Nat.zero_add, Nat.add_zero]
    exact (show _ = min (idx (Cert.ReferenceIdeal.gather_S16x16384x256_S16x1024x1_S16x1024x256_2_1_0_0_1_2_11256.siIdx (ix3 b k ch)
      ⟨0, Nat.zero_lt_one⟩)).toInt.toNat 16383 from rfl).trans (congrArg (fun q => min (idx q).toInt.toNat 16383) hsi)
  | ⟨2, h2⟩ =>
    rw [GatherDims.batchCoord_eq_zero _ _ _ (by decide +revert)]
    unfold GatherDims.start GatherDims.offCoord
    rw [dif_neg (by decide +revert), dif_pos (by decide +revert)]
    simp only [Nat.zero_add, Nat.add_zero]
    rfl

/-- A product of a select and a fourth array, read at an index of each of two shapes. -/
theorem mul_sel_congr {s s' : Shape} (M : IVec s 1) (G N W : FVec Ideal s .f32) (M' : IVec s' 1) (G' N' W' : FVec Ideal s' .f32)
    (i : s.Idx) (j : s'.Idx) (hM : M i = M' j) (hG : G i = G' j) (hN : N i = N' j) (hW : W i = W' j) :
    mulf (select M G N) W i = mulf (select M' G' N') W' j := by
  rw [mulf_apply, mulf_apply, select_apply, select_apply, hM, hG, hN, hW]

/-- A conversion of a mask to numbers, read at an index of each of two shapes. -/
theorem uitofp_congr {s s' : Shape} (x : IVec s 1) (x' : IVec s' 1) (i : s.Idx) (j : s'.Idx) (h : x i = x' j) :
    (uitofp .f32 x : FVec Ideal s .f32) i = (uitofp .f32 x' : FVec Ideal s' .f32) j := by
  simp only [uitofp]; rw [h]

/-- THE SAMPLED FEATURES AGREE. -/
theorem feats_eq (x0 : (⟨S16x256x128x128, .f32⟩ : BufTy).Contents (Elt Ideal)) (ord : (⟨S16x1024, .i32⟩ : BufTy).Contents (Elt Ideal))
    (vld : (⟨S16x1024, .i1⟩ : BufTy).Contents (Elt Ideal)) : kFeats x0 ord vld = rFeats x0 ord vld := by
  funext j
  obtain ⟨b, k, ch, rfl⟩ : ∃ (b : Fin 16) (k : Fin 1024) (ch : Fin 256), j = ix3 b k ch := ⟨j 0, j 1, j 2, eq_ix3 j⟩
  unfold kFeats rFeats
  refine (transpose_apply [0, 2, 1] _ transposes_S16x256x1024_S16x1024x256_0_2_1 (ix3 b k ch) (ix3 b ch k) ?_).trans ?_
  · intro a
    match a with
    | ⟨0, _⟩ => rfl
    | ⟨1, _⟩ => rfl
    | ⟨2, _⟩ => rfl
  refine mul_sel_congr _ _ _ _ _ _ _ _ (ix3 b ch k) (ix3 b k ch) ?_ ?_ rfl ?_
  · rw [bcast02c_apply, bcast01c_apply, idx_eq]
  · rw [kgather_apply, rgather_apply, ksrc_apply, rsrc_apply, kIdx_apply, rIdx_apply]
  · rw [bcast_mid_apply, bcast_last_apply]
    exact uitofp_congr _ _ _ _ ((bcast02_apply vld _ b 0 k).trans (bcast01_apply vld _ b k 0).symm)

end Feats

/-! ## From the sampled features to the normalised rows

After the sampled features both programs apply the same operations: each image's 1024 rows are followed by the next
image's, and every row of 256 channels is divided by its Euclidean norm (at least the f32 word of 1e-12). -/

/-- Each image's 1024 sampled rows followed by the next image's. -/
def pairUp (y : (⟨S16x1024x256, .f32⟩ : BufTy).Contents (Elt Ideal)) : (⟨S16x2048x256, .f32⟩ : BufTy).Contents (Elt Ideal) :=
  concat2 S16x2048x256 1 S16x1024x256 S16x1024x256 y
    (concat2 S16x1024x256 0 S15x1024x256 S1x1024x256
      (extractStridedSlice S15x1024x256 ![1, 0, 0] y slices_S16x1024x256_S15x1024x256_1_0_0)
      (extractStridedSlice S1x1024x256 ![0, 0, 0] y slices_S16x1024x256_S1x1024x256_0_0_0)
      concatenates_S15x1024x256_S1x1024x256_S16x1024x256_d0)
    concatenates_S16x1024x256_S16x1024x256_S16x2048x256_d1

/-- Every row divided by its norm. -/
def normRows (z : (⟨S16x2048x256, .f32⟩ : BufTy).Contents (Elt Ideal)) : (⟨S16x2048x256, .f32⟩ : BufTy).Contents (Elt Ideal) :=
  Host.divf (F := Ideal) z
    (broadcastInDim S16x2048x256 ![0, 1, 2] bcast_S16x2048x1_S16x2048x256_0_1_2
      (maximumf (F := Ideal)
        (Host.sqrt (F := Ideal) (broadcastInDim S16x2048x1 ![0, 1] bcast_S16x2048_S16x2048x1_0_1
          (Host.reduceAdd (F := Ideal) (mulf (F := Ideal) z z) (constant (F := Ideal) S_ .f32 0x00000000#32)
            reducesTo_S16x2048x256_S16x2048_d2 h_S_)))
        (broadcastInDim S16x2048x1 ![] bcast_S_S16x2048x1 (constant (F := Ideal) S_ .f32 0x2B8CBCCC#32))))

set_option maxHeartbeats 400000 in
/-- The reference's sampled features are `rFeats` of its order and its validity mask. -/
theorem ref_v19 (x0 : (⟨Cert.ReferenceIdeal.S16x256x128x128, .f32⟩ : BufTy).Contents (Elt Ideal))
    (x1 : (⟨Cert.ReferenceIdeal.S16x128x128, .i32⟩ : BufTy).Contents (Elt Ideal)) :
    Cert.ReferenceIdeal.ReadP.val_main_v19 (F := Ideal) x0 x1
      = rFeats x0 (Cert.ReferenceIdeal.ReadP.val_main_v10 (F := Ideal) x1) (Cert.ReferenceIdeal.ReadP.val_main_v13 (F := Ideal) x1) := by
  simp only [Cert.ReferenceIdeal.ReadP.val_main_v19, Cert.ReferenceIdeal.ReadP.val_main_v15, Cert.ReferenceIdeal.ReadP.val_main_v18, Cert.ReferenceIdeal.ReadP.val_main_v17, Cert.ReferenceIdeal.ReadP.val_main_v16, Cert.ReferenceIdeal.ReadP.val_main_call4_v14, Cert.ReferenceIdeal.ReadP.val_main_call4_cst, Cert.ReferenceIdeal.ReadP.val_main_call4_v13, Cert.ReferenceIdeal.ReadP.val_main_call4_v12, Cert.ReferenceIdeal.ReadP.val_main_call4_v11, Cert.ReferenceIdeal.ReadP.val_main_call4_c_3, Cert.ReferenceIdeal.ReadP.val_main_call4_v10, Cert.ReferenceIdeal.ReadP.val_main_call4_v9, Cert.ReferenceIdeal.ReadP.val_main_call4_v8, Cert.ReferenceIdeal.ReadP.val_main_call4_v7, Cert.ReferenceIdeal.ReadP.val_main_call4_v6, Cert.ReferenceIdeal.ReadP.val_main_call4_v5, Cert.ReferenceIdeal.ReadP.val_main_call4_c_2, Cert.ReferenceIdeal.ReadP.val_main_call4_c_1, Cert.ReferenceIdeal.ReadP.val_main_call4_v4, Cert.ReferenceIdeal.ReadP.val_main_call4_v3, Cert.ReferenceIdeal.ReadP.val_main_call4_v2, Cert.ReferenceIdeal.ReadP.val_main_call4_c_0, Cert.ReferenceIdeal.ReadP.val_main_call4_v1, Cert.ReferenceIdeal.ReadP.val_main_call4_v0, Cert.ReferenceIdeal.ReadP.val_main_call4_c, Cert.ReferenceIdeal.ReadP.val_main_v14, Cert.ReferenceIdeal.ReadP.val_main_v1, Cert.ReferenceIdeal.ReadP.val_main_v0]
  generalize Cert.ReferenceIdeal.ReadP.val_main_v10 (F := Ideal) x1 = ord
  generalize Cert.ReferenceIdeal.ReadP.val_main_v13 (F := Ideal) x1 = vld
  exact rfl

set_option maxHeartbeats 400000 in
/-- The reference's normalised rows are `normRows` of the paired sampled features. -/
theorem ref_v38 (x0 : (⟨Cert.ReferenceIdeal.S16x256x128x128, .f32⟩ : BufTy).Contents (Elt Ideal))
    (x1 : (⟨Cert.ReferenceIdeal.S16x128x128, .i32⟩ : BufTy).Contents (Elt Ideal)) :
    Cert.ReferenceIdeal.ReadP.val_main_v38 (F := Ideal) x0 x1
      = normRows (pairUp (Cert.ReferenceIdeal.ReadP.val_main_v19 (F := Ideal) x0 x1)) := by
  simp only [Cert.ReferenceIdeal.ReadP.val_main_v38, Cert.ReferenceIdeal.ReadP.val_main_v37, Cert.ReferenceIdeal.ReadP.val_main_v36, Cert.ReferenceIdeal.ReadP.val_main_v35, Cert.ReferenceIdeal.ReadP.val_main_cst, Cert.ReferenceIdeal.ReadP.val_main_v34, Cert.ReferenceIdeal.ReadP.val_main_call10_v2, Cert.ReferenceIdeal.ReadP.val_main_call10_v1, Cert.ReferenceIdeal.ReadP.val_main_call10_cst, Cert.ReferenceIdeal.ReadP.val_main_call10_v0, Cert.ReferenceIdeal.ReadP.val_main_v23, Cert.ReferenceIdeal.ReadP.val_main_v22, Cert.ReferenceIdeal.ReadP.val_main_call7_v1, Cert.ReferenceIdeal.ReadP.val_main_call7_v0, concat2_eq]
  generalize Cert.ReferenceIdeal.ReadP.val_main_v19 (F := Ideal) x0 x1 = y
  exact rfl

/-! ## The normalised features at the region's entry -/

set_option maxRecDepth 200000 in
set_option maxHeartbeats 1000000 in
/-- The first 1024 positions of the sorted order are the reference's. -/
theorem V_main_v9 :
    V m c main_v9 = Cert.ReferenceIdeal.ReadP.val_main_v10 (F := Ideal) (m ((c : Thread nD τ).loc main_arg1)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_call2_v1_0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v20, Cert.ReferenceIdeal.ReadP.val_main_c_5, Cert.ReferenceIdeal.ReadP.val_main_call6_v0, Cert.ReferenceIdeal.ReadP.val_main_call6_v1, Cert.ReferenceIdeal.ReadP.val_main_v21, Cert.ReferenceIdeal.ReadP.val_main_call8_v0, Cert.ReferenceIdeal.ReadP.val_main_call8_v1, Cert.ReferenceIdeal.ReadP.val_main_v24, Cert.ReferenceIdeal.ReadP.val_main_v25, Cert.ReferenceIdeal.ReadP.val_main_call9_v0, Cert.ReferenceIdeal.ReadP.val_main_call9_v1, Cert.ReferenceIdeal.ReadP.val_main_v26, Cert.ReferenceIdeal.ReadP.val_main_c_6, Cert.ReferenceIdeal.ReadP.val_main_v27, Cert.ReferenceIdeal.ReadP.val_main_v28, Cert.ReferenceIdeal.ReadP.val_main_v29, Cert.ReferenceIdeal.ReadP.val_main_c_7, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v39, concat2_eq]
  simp only [comparator_eq]
  generalize Host.sort2 S16x16384 1 comparator_i32_i32_d1 = srt
  exact rfl

set_option maxRecDepth 200000 in
set_option maxHeartbeats 1000000 in
/-- The validity mask of the 1024 samples is the reference's. -/
theorem V_main_v12 :
    V m c main_v12 = Cert.ReferenceIdeal.ReadP.val_main_v13 (F := Ideal) (m ((c : Thread nD τ).loc main_arg1)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_call2_v1_0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v20, Cert.ReferenceIdeal.ReadP.val_main_c_5, Cert.ReferenceIdeal.ReadP.val_main_call6_v0, Cert.ReferenceIdeal.ReadP.val_main_call6_v1, Cert.ReferenceIdeal.ReadP.val_main_v21, Cert.ReferenceIdeal.ReadP.val_main_call8_v0, Cert.ReferenceIdeal.ReadP.val_main_call8_v1, Cert.ReferenceIdeal.ReadP.val_main_v24, Cert.ReferenceIdeal.ReadP.val_main_v25, Cert.ReferenceIdeal.ReadP.val_main_call9_v0, Cert.ReferenceIdeal.ReadP.val_main_call9_v1, Cert.ReferenceIdeal.ReadP.val_main_v26, Cert.ReferenceIdeal.ReadP.val_main_c_6, Cert.ReferenceIdeal.ReadP.val_main_v27, Cert.ReferenceIdeal.ReadP.val_main_v28, Cert.ReferenceIdeal.ReadP.val_main_v29, Cert.ReferenceIdeal.ReadP.val_main_c_7, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v39, concat2_eq]
  simp only [comparator_eq]
  generalize Host.sort2 S16x16384 1 comparator_i32_i32_d1 = srt
  exact rfl

set_option maxRecDepth 200000 in
set_option maxHeartbeats 2000000 in
/-- The kernel's normalised features (rounded to bf16, the identity on extended reals) are `normRows` of the paired
    sampled features, those `kFeats` of the feature argument, the order and the validity mask. -/
theorem V_main_v42 :
    V m c main_v42 = truncf (F := Ideal) .bf16
      (normRows (pairUp (kFeats (m ((c : Thread nD τ).loc main_arg0)) (V m c main_v9) (V m c main_v12)))) bitsLt_bf16_f32 := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  generalize Host.sort2 S16x16384 1 comparator_i32_i32_d1 = srt
  exact rfl

/-- The normalised features of every image pair are the reference's, entry by entry. -/
theorem feats_norm : ∀ (b : Fin 16) (j : Fin 2048) (ch : Fin 256),
    V m c main_v42 (Idealize.ShloMosaic.ValueIdx.ix3 b j ch)
      = Cert.ReferenceIdeal.ReadP.val_main_v38 (F := Ideal) (m ((c : Thread nD τ).loc main_arg0)) (m ((c : Thread nD τ).loc main_arg1))
          (Idealize.ShloMosaic.ValueIdx.ix3 b j ch) := by
  intro b j ch
  rw [V_main_v42 m c, V_main_v9 m c, V_main_v12 m c, feats_eq, ← ref_v19, ← ref_v38]
  generalize Cert.ReferenceIdeal.ReadP.val_main_v38 (F := Ideal) (m ((c : Thread nD τ).loc main_arg0)) (m ((c : Thread nD τ).loc main_arg1)) = Y
  rfl

end Cert.KernelIdeal.Prefix

end
-- ==== Proof.RefRows.lean ====
/-
  The reference's per-row loss, read off its stages one operation at a time.

  For an image pair b the reference holds 2048 sampled pixels: their normalised features (stage 38), their labels
  (stage 25) and their validities as numbers (stage 39).  Every later stage, read at (b, i, j) or at (b, i), is a term of
  Spec.lean at those three rows:
    * the masks: both valid (51), same label and both valid (58), not the pixel itself (82 and 84: one minus the
      identity matrix), both in the same image of the pair (70: the Kronecker product of the 2×2 identity with the
      1024×1024 matrix of ones, read through its row-major reshape), the positives (83) and the negatives (85);
    * the scaled logits (42: the inner product divided by the temperature's word, which is the product with its exact
      reciprocal), their row maxima (43: a fold of max from minus infinity) and the shifted logits (46);
    * the sum of the negatives' exponentials (88), the log-probabilities (95), the number of positives (96, 102), the
      positives' sum (100);
    * the flag (105) and the row's loss (107).
  Each lemma opens one stage with the stage's reading lemma, identifies the composed index with the coordinates
  (b, i, j) (every coordinate equality holds by computation), and cites the lemmas of the stages below it.
-/
import proofs.«110907_j88038239634215_2_alg».proof.Proof.ReadP
import proofs.«110907_j88038239634215_2_alg».proof.Proof.Spec
import proofs.«110907_j88038239634215_2_alg».proof.Proof.LibMatrixLayout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Rows

open Cert.ReferenceIdeal Cert.ReferenceIdeal.Gen Cert.ReferenceIdeal.ReadP Idealize.ShloMosaic Idealize.ShloMosaic.ValueIdx

/-! ## Bits, comparisons and two literals as numbers -/

/-- A one-bit word is 1 exactly when the boolean it was made from is true. -/
theorem ofBool_eq_one (c : Bool) : (BitVec.ofBool c = 1#1) ↔ c = true := by cases c <;> decide

/-- A bit converted to a float is the indicator of its being set. -/
theorem uitofp_bit (w : BitVec 1) : FloatOps.uitofp (F := Ideal) .f32 w = Cert.Spec.ind (w = 1#1) := by
  show (((w.toNat : ℕ) : ℝ) : EReal) = Cert.Spec.ind (w = 1#1)
  unfold Cert.Spec.ind
  rcases BitVec.eq_zero_or_eq_one w with h | h
  · subst h; simp
  · subst h; simp

/-- The converted result of an integer equality test is the indicator of the equality. -/
theorem uitofp_cmpi_eq (x y : BitVec 32) :
    FloatOps.uitofp (F := Ideal) .f32 (IntOp.cmpi .eq x y) = Cert.Spec.ind (x = y) := by
  rw [uitofp_bit]
  have h : (IntOp.cmpi .eq x y = 1#1) ↔ x = y := by
    show (BitVec.ofBool (x == y) = 1#1) ↔ x = y
    rw [ofBool_eq_one]; exact beq_iff_eq
  unfold Cert.Spec.ind
  exact if_congr h rfl rfl

/-- The converted result of a float "greater than" test is the indicator of the strict inequality. -/
theorem uitofp_cmpf_ogt (x y : EReal) :
    FloatOps.uitofp (F := Ideal) .f32 (FloatOps.cmpf (F := Ideal) (φ := .f32) .ogt x y) = Cert.Spec.ind (y < x) := by
  rw [uitofp_bit]
  have h : (FloatOps.cmpf (F := Ideal) (φ := .f32) .ogt x y = 1#1) ↔ y < x := by
    show (BitVec.ofBool (decide (y < x)) = 1#1) ↔ y < x
    rw [ofBool_eq_one]; exact decide_eq_true_iff
  unfold Cert.Spec.ind
  exact if_congr h rfl rfl

/-- Two coordinates below 2^32 give the same 32-bit word exactly when they are equal. -/
theorem ofNat_eq_iff {n : ℕ} (hn : n ≤ 4294967296) (p q : Fin n) :
    (BitVec.ofNat 32 p.val = BitVec.ofNat 32 q.val) ↔ p = q := by
  have hp := p.isLt
  have hq := q.isLt
  constructor
  · intro h
    have h' := congrArg BitVec.toNat h
    rw [BitVec.toNat_ofNat, BitVec.toNat_ofNat, Nat.mod_eq_of_lt (by omega), Nat.mod_eq_of_lt (by omega)] at h'
    exact Fin.ext h'
  · intro h; rw [h]

/-- The identity matrix as the reference builds it: the row coordinate plus the zero word, compared with the column
    coordinate, converted. -/
theorem eye_entry {n : ℕ} (hn : n ≤ 4294967296) (p q : Fin n) :
    FloatOps.uitofp (F := Ideal) .f32 (IntOp.cmpi .eq (IntOp.addi (BitVec.ofNat 32 p.val) 0#32) (BitVec.ofNat 32 q.val))
      = Cert.Spec.ind (p = q) := by
  rw [uitofp_cmpi_eq]
  have h0 : IntOp.addi (BitVec.ofNat 32 p.val) 0#32 = BitVec.ofNat 32 p.val := by
    show BitVec.ofNat 32 p.val + 0#32 = _
    exact BitVec.add_zero _
  rw [h0]
  unfold Cert.Spec.ind
  exact if_congr (ofNat_eq_iff hn p q) rfl rfl

/-- The temperature's word is 9395241 / 2^27. -/
theorem ofBits_temp : Ideal.ofBits .f32 0x3D8F5C29#32 = ((9395241 / 134217728 : ℝ) : EReal) := by
  simp [Ideal.ofBits, Ideal.ieee, -EReal.coe_mul]; norm_num

/-- Division by the temperature's word is the product with its exact reciprocal. -/
theorem div_temp (x : EReal) : Ideal.div x (Ideal.ofBits .f32 0x3D8F5C29#32) = x * Cert.Spec.cinv := by
  rw [ofBits_temp, Ideal.div_coe (by norm_num)]
  have h : (1 / (9395241 / 134217728) : ℝ) = 134217728 / 9395241 := by norm_num
  rw [h]; rfl

/-- The word of 1.0 is the number one. -/
theorem oneW_eq : Cert.Spec.oneW = 1 := Ideal.ofBits_one_f32

/-- One minus the indicator of an equality is the indicator of the inequality. -/
theorem one_sub_ind_eq {α : Type} [DecidableEq α] (p q : α) :
    (1 : EReal) - Cert.Spec.ind (p = q) = Cert.Spec.ind (p ≠ q) := by
  unfold Cert.Spec.ind
  by_cases h : p = q
  · rw [if_pos h, if_neg (not_not.mpr h)]
    rw [show (1 : EReal) = ((1 : ℝ) : EReal) from rfl, ← EReal.coe_sub, sub_self]; rfl
  · rw [if_neg h, if_pos h]; exact sub_zero _

/-! ## The three rows of an image pair -/

variable (x0 : (⟨S16x256x128x128, .f32⟩ : BufTy).Contents (Elt Ideal)) (x1 : (⟨S16x128x128, .i32⟩ : BufTy).Contents (Elt Ideal))
  (b : Fin 16) (i j : Fin 2048)

/-- The pair's normalised features. -/
abbrev fR : Fin 2048 → Fin 256 → EReal := fun j c => val_main_v38 (F := Ideal) x0 x1 (ix3 b j c)
/-- The pair's labels. -/
abbrev lR : Fin 2048 → BitVec 32 := fun j => val_main_v25 (F := Ideal) x1 (ix2 b j)
/-- The pair's validities. -/
abbrev vR : Fin 2048 → EReal := fun j => val_main_v39 (F := Ideal) x1 (ix2 b j)

/-! ## The masks -/

/-- Stage 49: the row's validity, along the columns. -/
theorem v49_at : val_main_v49 (F := Ideal) x1 (ix3 b i j) = vR x1 b i := by
  rw [val_main_v49_apply, val_main_v47_apply]
  exact congrArg (val_main_v39 (F := Ideal) x1) (funext fun a => Fin.ext (by match a with | ⟨0, _⟩ => rfl | ⟨1, _⟩ => rfl))

/-- Stage 50: the column's validity, down the rows. -/
theorem v50_at : val_main_v50 (F := Ideal) x1 (ix3 b i j) = vR x1 b j := by
  rw [val_main_v50_apply, val_main_v48_apply]
  exact congrArg (val_main_v39 (F := Ideal) x1) (funext fun a => Fin.ext (by match a with | ⟨0, _⟩ => rfl | ⟨1, _⟩ => rfl))

/-- Stage 51: both valid. -/
theorem v51_at : val_main_v51 (F := Ideal) x1 (ix3 b i j) = Cert.Spec.vm (vR x1 b) i j := by
  rw [val_main_v51_apply, v49_at, v50_at]; rfl

/-- Stage 54: the row's label, along the columns. -/
theorem v54_at : val_main_v54 (F := Ideal) x1 (ix3 b i j) = lR x1 b i := by
  rw [val_main_v54_apply, val_main_v52_apply]
  exact congrArg (val_main_v25 (F := Ideal) x1) (funext fun a => Fin.ext (by match a with | ⟨0, _⟩ => rfl | ⟨1, _⟩ => rfl))

/-- Stage 55: the column's label, down the rows. -/
theorem v55_at : val_main_v55 (F := Ideal) x1 (ix3 b i j) = lR x1 b j := by
  rw [val_main_v55_apply, val_main_v53_apply]
  exact congrArg (val_main_v25 (F := Ideal) x1) (funext fun a => Fin.ext (by match a with | ⟨0, _⟩ => rfl | ⟨1, _⟩ => rfl))

/-- Stage 58: same label and both valid. -/
theorem v58_at : val_main_v58 (F := Ideal) x1 (ix3 b i j) = Cert.Spec.pr (lR x1 b) (vR x1 b) i j := by
  rw [val_main_v58_apply, val_main_v57_apply, val_main_v56_apply, v54_at, v55_at, v51_at, uitofp_cmpi_eq]; rfl

/-- Stage 78: the 2048 × 2048 identity matrix. -/
theorem v78_at (i j : Fin 2048) : val_main_v78 (F := Ideal) (ix2 i j) = Cert.Spec.ind (i = j) := by
  rw [val_main_v78_apply, val_main_v77_apply, val_main_v76_apply, val_main_v73_apply, val_main_v74_apply,
    val_main_v75_apply, val_main_c_13_apply]
  exact eye_entry (by norm_num) i j

/-- Stage 81: one minus the identity matrix, with a leading axis of extent one. -/
theorem v81_at (u : Fin 1) (i j : Fin 2048) : val_main_v81 (F := Ideal) (ix3 u i j) = Cert.Spec.ns i j := by
  rw [val_main_v81_apply, val_main_v80_apply, val_main_cst_14_apply, val_main_v79_apply]
  have e : idx_main_v79 (ix3 u i j) = ix2 i j :=
    funext fun a => Fin.ext (by match a with | ⟨0, _⟩ => rfl | ⟨1, _⟩ => rfl)
  rw [e, v78_at]
  show Ideal.ofBits .f32 0x3F800000#32 - Cert.Spec.ind (i = j) = Cert.Spec.ind (i ≠ j)
  rw [Ideal.ofBits_one_f32]; exact one_sub_ind_eq i j

/-- Stage 82: not the pixel itself (the positives' copy). -/
theorem v82_at : val_main_v82 (F := Ideal) (ix3 b i j) = Cert.Spec.ns i j := by
  rw [val_main_v82_apply]
  have e : idx_main_v82 (ix3 b i j) = ix3 (0 : Fin 1) i j :=
    funext fun a => Fin.ext (by match a with | ⟨0, _⟩ => rfl | ⟨1, _⟩ => rfl | ⟨2, _⟩ => rfl)
  rw [e]; exact v81_at 0 i j

/-- Stage 84: not the pixel itself (the negatives' copy). -/
theorem v84_at : val_main_v84 (F := Ideal) (ix3 b i j) = Cert.Spec.ns i j := by
  rw [val_main_v84_apply]
  have e : idx_main_v84 (ix3 b i j) = ix3 (0 : Fin 1) i j :=
    funext fun a => Fin.ext (by match a with | ⟨0, _⟩ => rfl | ⟨1, _⟩ => rfl | ⟨2, _⟩ => rfl)
  rw [e]; exact v81_at 0 i j

/-- Stage 64: the 2 × 2 identity matrix. -/
theorem v64_at (p q : Fin 2) : val_main_v64 (F := Ideal) (ix2 p q) = Cert.Spec.ind (p = q) := by
  rw [val_main_v64_apply, val_main_v63_apply, val_main_v62_apply, val_main_v59_apply, val_main_v60_apply,
    val_main_v61_apply, val_main_c_10_apply]
  exact eye_entry (by norm_num) p q

/-- Stage 66: the Kronecker product of the 2 × 2 identity with the 1024 × 1024 matrix of ones.  Row i = p·1024 + u and
    column j = q·1024 + w read the identity at (p, q): the pixels lie in the same image of the pair. -/
theorem v66_at (i j : Fin 2048) : val_main_v66 (F := Ideal) (ix2 i j) = Cert.Spec.si i j := by
  rw [val_main_v66_apply, val_main_call11_v4_apply, val_main_call11_v2_apply, val_main_call11_v0_apply,
    val_main_call11_v3_apply, val_main_call11_v1_apply, val_main_v65_apply, val_main_cst_11_apply]
  have hi : i.val < 2048 := i.isLt
  have hj : j.val < 2048 := j.isLt
  have e : idx_main_call11_v0 (idx_main_call11_v2 (idx_main_v66 (ix2 i j)))
      = ix2 (⟨(i.val * 2048 + j.val) / 2097152, by omega⟩ : Fin 2) (⟨(i.val * 2048 + j.val) / 1024 % 2, by omega⟩ : Fin 2) :=
    funext fun a => Fin.ext (by match a with | ⟨0, _⟩ => rfl | ⟨1, _⟩ => rfl)
  rw [e, v64_at]
  show Cert.Spec.ind _ * Ideal.ofBits .f32 0x3F800000#32 = _
  rw [Ideal.ofBits_one_f32, mul_one]
  unfold Cert.Spec.si Cert.Spec.ind
  refine if_congr ?_ rfl rfl
  rw [Fin.ext_iff]
  show (i.val * 2048 + j.val) / 2097152 = (i.val * 2048 + j.val) / 1024 % 2 ↔ (1024 ≤ i.val ↔ 1024 ≤ j.val)
  omega

/-- Stage 70: both in the same image of the pair. -/
theorem v70_at : val_main_v70 (F := Ideal) (ix3 b i j) = Cert.Spec.si i j := by
  rw [val_main_v70_apply, val_main_v67_apply]
  have e : idx_main_v67 (idx_main_v70 (ix3 b i j)) = ix2 i j :=
    funext fun a => Fin.ext (by match a with | ⟨0, _⟩ => rfl | ⟨1, _⟩ => rfl)
  rw [e]; exact v66_at i j

/-- Stage 83: the positive mask. -/
theorem v83_at : val_main_v83 (F := Ideal) x1 (ix3 b i j) = Cert.Spec.pm (lR x1 b) (vR x1 b) i j := by
  rw [val_main_v83_apply, v58_at, v82_at]; rfl

/-- Stage 85: the negative mask. -/
theorem v85_at : val_main_v85 (F := Ideal) x1 (ix3 b i j) = Cert.Spec.nm (lR x1 b) (vR x1 b) i j := by
  rw [val_main_v85_apply, val_main_v72_apply, val_main_v71_apply, val_main_v69_apply, val_main_v68_apply,
    val_main_cst_12_apply, v58_at, v70_at, v51_at, v84_at]; rfl

/-! ## The logits -/

/-- Stage 40: the inner product of two feature rows. -/
theorem v40_at : val_main_v40 (F := Ideal) x0 x1 (ix3 b i j) = ∑ c : Fin 256, fR x0 x1 b i c * fR x0 x1 b j c := by
  rw [val_main_v40_apply]
  refine Finset.sum_congr rfl fun c _ => ?_
  have e1 : lidx_main_v40 (ix3 b i j) c = ix3 b i c :=
    funext fun a => Fin.ext (by match a with | ⟨0, _⟩ => rfl | ⟨1, _⟩ => rfl | ⟨2, _⟩ => rfl)
  have e2 : ridx_main_v40 (ix3 b i j) c = ix3 b j c :=
    funext fun a => Fin.ext (by match a with | ⟨0, _⟩ => rfl | ⟨1, _⟩ => rfl | ⟨2, _⟩ => rfl)
  rw [e1, e2]

/-- Stage 42: the scaled logit; dividing by the temperature's word multiplies by its exact reciprocal. -/
theorem v42_at : val_main_v42 (F := Ideal) x0 x1 (ix3 b i j) = Cert.Spec.z (fR x0 x1 b) i j := by
  rw [val_main_v42_apply, v40_at, val_main_v41_apply, val_main_cst_8_apply]
  show Ideal.div _ (Ideal.ofBits .f32 0x3D8F5C29#32) = _
  rw [div_temp]; rfl

/-- A max-reduce of a [16, 2048, 2048] array over its last axis, read at (b, i), is the fold of max from the initial
    value over the 2048 columns of row (b, i): the reduced index with column k put back is (b, i, k). -/
theorem reduce_max_at (y : S16x2048x2048.Idx → EReal) (init : S_.Idx → EReal) (b : Fin 16) (i : Fin 2048) :
    Host.reduce (FloatOps.maximumf (F := Ideal) (φ := .f32)) y init reducesTo_S16x2048x2048_S16x2048_d2 h_S_ (ix2 b i)
      = (Finset.univ : Finset (Fin 2048)).fold max (init (Shape.Idx.first h_S_)) (fun k => y (ix3 b i k)) := by
  have h : S16x2048x2048.Reduces [2] S16x2048 := by decide
  refine (Host.reduce_eq_fold_single (FloatOps.maximumf (F := Ideal) (φ := .f32)) y init
    reducesTo_S16x2048x2048_S16x2048_d2 h h_S_ (ix2 b i)).trans ?_
  have hf : (y ∘ h.lift (ix2 b i)) = fun k : Fin 2048 => y (ix3 b i k) :=
    funext fun k => congrArg y
      (funext fun a => Fin.ext (by match a with | ⟨0, _⟩ => rfl | ⟨1, _⟩ => rfl | ⟨2, _⟩ => rfl))
  exact congrArg (fun f => Finset.fold max (init (Shape.Idx.first h_S_)) f (Finset.univ : Finset (Fin 2048))) hf

/-- Stage 43: the row's maximum, a fold of max from minus infinity over the row's 2048 columns. -/
theorem v43_at : val_main_v43 (F := Ideal) x0 x1 (ix2 b i) = Cert.Spec.rowMax (fR x0 x1 b) i := by
  unfold val_main_v43
  refine (reduce_max_at (val_main_v42 (F := Ideal) x0 x1) (val_main_cst_9 (F := Ideal)) b i).trans ?_
  have hf : (fun k : Fin 2048 => val_main_v42 (F := Ideal) x0 x1 (ix3 b i k)) = fun k => Cert.Spec.z (fR x0 x1 b) i k :=
    funext fun k => v42_at x0 x1 b i k
  rw [hf]; rfl

/-- Stage 46: the shifted logit. -/
theorem v46_at : val_main_v46 (F := Ideal) x0 x1 (ix3 b i j) = Cert.Spec.g (fR x0 x1 b) i j := by
  rw [val_main_v46_apply, v42_at, val_main_v45_apply, val_main_v44_apply]
  have e : idx_main_v44 (idx_main_v45 (ix3 b i j)) = ix2 b i :=
    funext fun a => Fin.ext (by match a with | ⟨0, _⟩ => rfl | ⟨1, _⟩ => rfl)
  rw [e, v43_at]; rfl

/-- Stage 86: the shifted logit's exponential. -/
theorem v86_at : val_main_v86 (F := Ideal) x0 x1 (ix3 b i j) = Ideal.exp (Cert.Spec.g (fR x0 x1 b) i j) := by
  rw [val_main_v86_apply, v46_at]; rfl

/-! ## The row sums -/

/-- Stage 88: the sum of the exponentials of the row's negatives. -/
theorem v88_at : val_main_v88 (F := Ideal) x0 x1 (ix2 b i) = Cert.Spec.sn (fR x0 x1 b) (lR x1 b) (vR x1 b) i := by
  rw [val_main_v88_apply, val_main_cst_15_apply]
  show Ideal.ofBits .f32 0x00000000#32 + _ = _
  rw [Ideal.ofBits_zero_f32, zero_add]
  unfold Cert.Spec.sn
  refine Finset.sum_congr rfl fun k _ => ?_
  have e : idx_main_v88 (ix2 b i) k = ix3 b i k :=
    funext fun a => Fin.ext (by match a with | ⟨0, _⟩ => rfl | ⟨1, _⟩ => rfl | ⟨2, _⟩ => rfl)
  rw [e, val_main_v87_apply, v86_at, v85_at]; rfl

/-- Stage 90: that sum, along the columns. -/
theorem v90_at : val_main_v90 (F := Ideal) x0 x1 (ix3 b i j) = Cert.Spec.sn (fR x0 x1 b) (lR x1 b) (vR x1 b) i := by
  rw [val_main_v90_apply, val_main_v89_apply]
  have e : idx_main_v89 (idx_main_v90 (ix3 b i j)) = ix2 b i :=
    funext fun a => Fin.ext (by match a with | ⟨0, _⟩ => rfl | ⟨1, _⟩ => rfl)
  rw [e]; exact v88_at x0 x1 b i

/-- Stage 95: the log-probability of column j against the row's negatives. -/
theorem v95_at : val_main_v95 (F := Ideal) x0 x1 (ix3 b i j) = Cert.Spec.lpr (fR x0 x1 b) (lR x1 b) (vR x1 b) i j := by
  rw [val_main_v95_apply, val_main_v94_apply, val_main_v93_apply, val_main_v91_apply, val_main_v92_apply,
    val_main_cst_16_apply, v46_at, v86_at, v90_at]; rfl

/-- Stage 96: the number of positives (the divisor's copy). -/
theorem v96_at : val_main_v96 (F := Ideal) x1 (ix2 b i) = Cert.Spec.np (lR x1 b) (vR x1 b) i := by
  rw [val_main_v96_apply, val_main_cst_17_apply]
  show Ideal.ofBits .f32 0x00000000#32 + _ = _
  rw [Ideal.ofBits_zero_f32, zero_add]
  unfold Cert.Spec.np
  refine Finset.sum_congr rfl fun k _ => ?_
  have e : idx_main_v96 (ix2 b i) k = ix3 b i k :=
    funext fun a => Fin.ext (by match a with | ⟨0, _⟩ => rfl | ⟨1, _⟩ => rfl | ⟨2, _⟩ => rfl)
  rw [e]; exact v83_at x1 b i k

/-- Stage 102: the number of positives (the flag's copy). -/
theorem v102_at : val_main_v102 (F := Ideal) x1 (ix2 b i) = Cert.Spec.np (lR x1 b) (vR x1 b) i := by
  rw [val_main_v102_apply, val_main_cst_20_apply]
  show Ideal.ofBits .f32 0x00000000#32 + _ = _
  rw [Ideal.ofBits_zero_f32, zero_add]
  unfold Cert.Spec.np
  refine Finset.sum_congr rfl fun k _ => ?_
  have e : idx_main_v102 (ix2 b i) k = ix3 b i k :=
    funext fun a => Fin.ext (by match a with | ⟨0, _⟩ => rfl | ⟨1, _⟩ => rfl | ⟨2, _⟩ => rfl)
  rw [e]; exact v83_at x1 b i k

/-- Stage 100: the sum of the positives' log-probabilities. -/
theorem v100_at : val_main_v100 (F := Ideal) x0 x1 (ix2 b i) = Cert.Spec.num (fR x0 x1 b) (lR x1 b) (vR x1 b) i := by
  rw [val_main_v100_apply, val_main_cst_19_apply]
  show Ideal.ofBits .f32 0x00000000#32 + _ = _
  rw [Ideal.ofBits_zero_f32, zero_add]
  unfold Cert.Spec.num
  refine Finset.sum_congr rfl fun k _ => ?_
  have e : idx_main_v100 (ix2 b i) k = ix3 b i k :=
    funext fun a => Fin.ext (by match a with | ⟨0, _⟩ => rfl | ⟨1, _⟩ => rfl | ⟨2, _⟩ => rfl)
  rw [e, val_main_v99_apply, v83_at, v95_at]; rfl

/-! ## The flag and the loss -/

/-- Stage 105: whether the row has a positive. -/
theorem v105_at : val_main_v105 (F := Ideal) x1 (ix2 b i) = Cert.Spec.flag (lR x1 b) (vR x1 b) i := by
  rw [val_main_v105_apply, val_main_v104_apply, val_main_v103_apply, val_main_cst_21_apply, v102_at]
  show FloatOps.uitofp (F := Ideal) .f32 (FloatOps.cmpf (F := Ideal) (φ := .f32) .ogt _ (Ideal.ofBits .f32 0x00000000#32)) = _
  rw [Ideal.ofBits_zero_f32, uitofp_cmpf_ogt]; rfl

/-- Stage 107: the row's loss: minus the mean of the positives' log-probabilities, times the flag. -/
theorem v107_at : val_main_v107 (F := Ideal) x0 x1 (ix2 b i) = Cert.Spec.loss (fR x0 x1 b) (lR x1 b) (vR x1 b) i := by
  rw [val_main_v107_apply, val_main_v106_apply, val_main_v101_apply, val_main_v98_apply, val_main_v97_apply,
    val_main_cst_18_apply, v100_at, v96_at, v105_at]; rfl

/-- The reference's flag, row by row, is the specification's flag of the pair's labels and validities. -/
theorem flag_row (x1 : (⟨S16x128x128, .i32⟩ : BufTy).Contents (Elt Ideal)) (b : Fin 16) (i : Fin 2048) :
    val_main_v105 (F := Ideal) x1 (ix2 b i)
      = Cert.Spec.flag (fun j => val_main_v25 (F := Ideal) x1 (ix2 b j)) (fun j => val_main_v39 (F := Ideal) x1 (ix2 b j)) i :=
  v105_at x1 b i

/-- The reference's loss, row by row, is the specification's loss of the pair's features, labels and validities. -/
theorem loss_row (x0 : (⟨S16x256x128x128, .f32⟩ : BufTy).Contents (Elt Ideal)) (x1 : (⟨S16x128x128, .i32⟩ : BufTy).Contents (Elt Ideal))
    (b : Fin 16) (i : Fin 2048) :
    val_main_v107 (F := Ideal) x0 x1 (ix2 b i)
      = Cert.Spec.loss (fun j c => val_main_v38 (F := Ideal) x0 x1 (ix3 b j c)) (fun j => val_main_v25 (F := Ideal) x1 (ix2 b j))
          (fun j => val_main_v39 (F := Ideal) x1 (ix2 b j)) i :=
  v107_at x0 x1 b i

end Cert.ReferenceIdeal.Rows

end
-- ==== Proof.RefSplit.lean ====
/-
  The reference's 229 host operations cut in two: the first 129 sample the pixels and normalise the features (they
  end with %38), the last 100 are the pairwise reductions (from %39 on; they read %38, %25 and %33 only).  The two
  lists are the operation list of RefRun.lean, `ValueP.ops`, copied in two pieces; `ops_split` says so.
-/
import proofs.«110907_j88038239634215_2_alg».proof.Proof.RefRun

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The sampling and the normalisation: operations 1 … 129. -/
abbrev opsA : List (HloOp τ sig (Elt F)) :=
  [ unary main_arg0 main_v0 ((transpose S16x128x128x256 [0, 2, 3, 1] · transposes_S16x256x128x128_S16x128x128x256_0_2_3_1) : (⟨S16x256x128x128, .f32⟩ : BufTy).Contents (Elt F) → (⟨S16x128x128x256, .f32⟩ : BufTy).Contents (Elt F)),
    reshape main_v0 main_v1 rfl shapeCasts_S16x128x128x256_S16x16384x256,
    reshape main_arg1 main_v2 rfl shapeCasts_S16x128x128_S16x16384,
    nullary main_c (constantI S_ 32 255#32),
    unary main_c main_v3 (broadcastInDim S16x16384 ![] bcast_S_S16x16384 : (⟨S_, .i32⟩ : BufTy).Contents (Elt F) → (⟨S16x16384, .i32⟩ : BufTy).Contents (Elt F)),
    binary main_v2 main_v3 main_v4 (cmpi .eq : (⟨S16x16384, .i32⟩ : BufTy).Contents (Elt F) → (⟨S16x16384, .i32⟩ : BufTy).Contents (Elt F) → (⟨S16x16384, .i1⟩ : BufTy).Contents (Elt F)),
    nullary main_c_0 (constantI S_ 32 0#32),
    unary main_c_0 main_v5 (broadcastInDim S16x16384 ![] bcast_S_S16x16384 : (⟨S_, .i32⟩ : BufTy).Contents (Elt F) → (⟨S16x16384, .i32⟩ : BufTy).Contents (Elt F)),
    binary main_v2 main_v5 main_v6 (cmpi .eq : (⟨S16x16384, .i32⟩ : BufTy).Contents (Elt F) → (⟨S16x16384, .i32⟩ : BufTy).Contents (Elt F) → (⟨S16x16384, .i1⟩ : BufTy).Contents (Elt F)),
    nullary main_c_1 (constantI S_ 32 1#32),
    nullary main_c_2 (constantI S_ 32 0#32),
    TRef.unary (TRef.of (T := ⟨S_, .i32⟩) main_c_1) (TRef.of (T := ⟨S16x16384, .i32⟩) main_call0_v0) (broadcastInDim S16x16384 ![] bcast_S_S16x16384),
    TRef.unary (TRef.of (T := ⟨S_, .i32⟩) main_c_2) (TRef.of (T := ⟨S16x16384, .i32⟩) main_call0_v1) (broadcastInDim S16x16384 ![] bcast_S_S16x16384),
    TRef.ternary (TRef.of (T := ⟨S16x16384, .i1⟩) main_v6) (TRef.of (T := ⟨S16x16384, .i32⟩) main_call0_v0) (TRef.of (T := ⟨S16x16384, .i32⟩) main_call0_v1) (TRef.of (T := ⟨S16x16384, .i32⟩) main_v7) select,
    nullary main_c_3 (constantI S_ 32 2#32),
    TRef.unary (TRef.of (T := ⟨S_, .i32⟩) main_c_3) (TRef.of (T := ⟨S16x16384, .i32⟩) main_call1_v0) (broadcastInDim S16x16384 ![] bcast_S_S16x16384),
    TRef.ternary (TRef.of (T := ⟨S16x16384, .i1⟩) main_v4) (TRef.of (T := ⟨S16x16384, .i32⟩) main_call1_v0) (TRef.of (T := ⟨S16x16384, .i32⟩) main_v7) (TRef.of (T := ⟨S16x16384, .i32⟩) main_v8) select,
    TRef.nullary (TRef.of (T := ⟨S16x16384, .i32⟩) main_call2_v0) (iotaInDim S16x16384 32 1),
    TRef.binary (TRef.of (T := ⟨S16x16384, .i32⟩) main_v8) (TRef.of (T := ⟨S16x16384, .i32⟩) main_call2_v0) (TRef.of (T := ⟨S16x16384, .i32⟩) main_call2_v1_0) (fun x y => (Host.sort2 S16x16384 1 comparator_i32_i32_d1 x y).1),
    TRef.binary (TRef.of (T := ⟨S16x16384, .i32⟩) main_v8) (TRef.of (T := ⟨S16x16384, .i32⟩) main_call2_v0) (TRef.of (T := ⟨S16x16384, .i32⟩) main_v9) (fun x y => (Host.sort2 S16x16384 1 comparator_i32_i32_d1 x y).2),
    unary main_v9 main_v10 ((extractStridedSlice S16x1024 ![0, 0] · slices_S16x16384_S16x1024_0_0) : (⟨S16x16384, .i32⟩ : BufTy).Contents (Elt F) → (⟨S16x1024, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S16x1024, .i32⟩) main_call3_v0) (broadcastInDim S16x1024 ![] bcast_S_S16x1024),
    TRef.binary (TRef.of (T := ⟨S16x1024, .i32⟩) main_v10) (TRef.of (T := ⟨S16x1024, .i32⟩) main_call3_v0) (TRef.of (T := ⟨S16x1024, .i1⟩) main_call3_v1) (cmpi .slt),
    TRef.nullary (TRef.of (T := ⟨S_, .i32⟩) main_call3_c_0) (constantI S_ 32 16384#32),
    TRef.unary (TRef.of (T := ⟨S_, .i32⟩) main_call3_c_0) (TRef.of (T := ⟨S16x1024, .i32⟩) main_call3_v2) (broadcastInDim S16x1024 ![] bcast_S_S16x1024),
    TRef.binary (TRef.of (T := ⟨S16x1024, .i32⟩) main_v10) (TRef.of (T := ⟨S16x1024, .i32⟩) main_call3_v2) (TRef.of (T := ⟨S16x1024, .i32⟩) main_call3_v3) addi,
    TRef.ternary (TRef.of (T := ⟨S16x1024, .i1⟩) main_call3_v1) (TRef.of (T := ⟨S16x1024, .i32⟩) main_call3_v3) (TRef.of (T := ⟨S16x1024, .i32⟩) main_v10) (TRef.of (T := ⟨S16x1024, .i32⟩) main_call3_v4) select,
    TRef.reshape (TRef.of (T := ⟨S16x1024, .i32⟩) main_call3_v4) (TRef.of (T := ⟨S16x1024x1, .i32⟩) main_call3_v5) rfl shapeCasts_S16x1024_S16x1024x1,
    TRef.nullary (TRef.of (T := ⟨S1, .i32⟩) main_call3_c_1) (constantI S1 32 16383#32),
    TRef.nullary (TRef.of (T := ⟨S_, .i32⟩) main_call3_c_2) (constantI S_ 32 0#32),
    TRef.unary (TRef.of (T := ⟨S_, .i32⟩) main_call3_c_2) (TRef.of (T := ⟨S16x1024x1, .i32⟩) main_call3_v6) (broadcastInDim S16x1024x1 ![] bcast_S_S16x1024x1),
    TRef.binary (TRef.of (T := ⟨S16x1024x1, .i32⟩) main_call3_v5) (TRef.of (T := ⟨S16x1024x1, .i32⟩) main_call3_v6) (TRef.of (T := ⟨S16x1024x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S16x1024x1, .i32⟩) main_call3_v9) (broadcastInDim S16x1024x1 ![0, 1, 2] bcast_S1x1x1_S16x1024x1_0_1_2),
    TRef.binary (TRef.of (T := ⟨S16x1024x1, .i32⟩) main_call3_v5) (TRef.of (T := ⟨S16x1024x1, .i32⟩) main_call3_v9) (TRef.of (T := ⟨S16x1024x1, .i1⟩) main_call3_v10) (cmpi .sle),
    TRef.binary (TRef.of (T := ⟨S16x1024x1, .i1⟩) main_call3_v7) (TRef.of (T := ⟨S16x1024x1, .i1⟩) main_call3_v10) (TRef.of (T := ⟨S16x1024x1, .i1⟩) main_call3_v11) andi,
    TRef.nullary (TRef.of (T := ⟨S_, .i1⟩) main_call3_c_3) (constantI S_ 1 1#1),
    TRef.binary (TRef.of (T := ⟨S16x1024x1, .i1⟩) main_call3_v11) (TRef.of (T := ⟨S_, .i1⟩) main_call3_c_3) (TRef.of (T := ⟨S16x1024, .i1⟩) main_call3_v12) (fun x v => Host.reduce IntOp.andi x v reducesTo_S16x1024x1_S16x1024_d2 h_S_),
    TRef.binary (TRef.of (T := ⟨S16x16384, .i32⟩) main_v8) (TRef.of (T := ⟨S16x1024x1, .i32⟩) main_call3_v5) (TRef.of (T := ⟨S16x1024, .i32⟩) main_call3_v13) (fun x i => Host.gather gather_S16x16384_S16x1024x1_S16x1024_n_1_0_0_1_2_11 x i),
    TRef.nullary (TRef.of (T := ⟨S_, .i32⟩) main_call3_c_4) (constantI S_ 32 2147483648#32),
    TRef.unary (TRef.of (T := ⟨S_, .i32⟩) main_call3_c_4) (TRef.of (T := ⟨S16x1024, .i32⟩) main_call3_v14) (broadcastInDim S16x1024 ![] bcast_S_S16x1024),
    TRef.ternary (TRef.of (T := ⟨S16x1024, .i1⟩) main_call3_v12) (TRef.of (T := ⟨S16x1024, .i32⟩) main_call3_v13) (TRef.of (T := ⟨S16x1024, .i32⟩) main_call3_v14) (TRef.of (T := ⟨S16x1024, .i32⟩) main_v11) select,
    nullary main_c_4 (constantI S_ 32 2#32),
    unary main_c_4 main_v12 (broadcastInDim S16x1024 ![] bcast_S_S16x1024 : (⟨S_, .i32⟩ : BufTy).Contents (Elt F) → (⟨S16x1024, .i32⟩ : BufTy).Contents (Elt F)),
    binary main_v11 main_v12 main_v13 (cmpi .slt : (⟨S16x1024, .i32⟩ : BufTy).Contents (Elt F) → (⟨S16x1024, .i32⟩ : BufTy).Contents (Elt F) → (⟨S16x1024, .i1⟩ : BufTy).Contents (Elt F)),
    unary main_v10 main_v14 (broadcastInDim S16x1024x1 ![0, 1] bcast_S16x1024_S16x1024x1_0_1 : (⟨S16x1024, .i32⟩ : BufTy).Contents (Elt F) → (⟨S16x1024x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16x1024x1, .i32⟩) main_call4_v0) (broadcastInDim S16x1024x1 ![] bcast_S_S16x1024x1),
    TRef.binary (TRef.of (T := ⟨S16x1024x1, .i32⟩) main_v14) (TRef.of (T := ⟨S16x1024x1, .i32⟩) main_call4_v0) (TRef.of (T := ⟨S16x1024x1, .i1⟩) main_call4_v1) (cmpi .slt),
    TRef.nullary (TRef.of (T := ⟨S_, .i32⟩) main_call4_c_0) (constantI S_ 32 16384#32),
    TRef.unary (TRef.of (T := ⟨S_, .i32⟩) main_call4_c_0) (TRef.of (T := ⟨S16x1024x1, .i32⟩) main_call4_v2) (broadcastInDim S16x1024x1 ![] bcast_S_S16x1024x1),
    TRef.binary (TRef.of (T := ⟨S16x1024x1, .i32⟩) main_v14) (TRef.of (T := ⟨S16x1024x1, .i32⟩) main_call4_v2) (TRef.of (T := ⟨S16x1024x1, .i32⟩) main_call4_v3) addi,
    TRef.ternary (TRef.of (T := ⟨S16x1024x1, .i1⟩) main_call4_v1) (TRef.of (T := ⟨S16x1024x1, .i32⟩) main_call4_v3) (TRef.of (T := ⟨S16x1024x1, .i32⟩) main_v14) (TRef.of (T := ⟨S16x1024x1, .i32⟩) main_call4_v4) select,
    TRef.nullary (TRef.of (T := ⟨S1, .i32⟩) main_call4_c_1) (constantI S1 32 16383#32),
    TRef.nullary (TRef.of (T := ⟨S_, .i32⟩) main_call4_c_2) (constantI S_ 32 0#32),
    TRef.unary (TRef.of (T := ⟨S_, .i32⟩) main_call4_c_2) (TRef.of (T := ⟨S16x1024x1, .i32⟩) main_call4_v5) (broadcastInDim S16x1024x1 ![] bcast_S_S16x1024x1),
    TRef.binary (TRef.of (T := ⟨S16x1024x1, .i32⟩) main_call4_v4) (TRef.of (T := ⟨S16x1024x1, .i32⟩) main_call4_v5) (TRef.of (T := ⟨S16x1024x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S16x1024x1, .i32⟩) main_call4_v8) (broadcastInDim S16x1024x1 ![0, 1, 2] bcast_S1x1x1_S16x1024x1_0_1_2),
    TRef.binary (TRef.of (T := ⟨S16x1024x1, .i32⟩) main_call4_v4) (TRef.of (T := ⟨S16x1024x1, .i32⟩) main_call4_v8) (TRef.of (T := ⟨S16x1024x1, .i1⟩) main_call4_v9) (cmpi .sle),
    TRef.binary (TRef.of (T := ⟨S16x1024x1, .i1⟩) main_call4_v6) (TRef.of (T := ⟨S16x1024x1, .i1⟩) main_call4_v9) (TRef.of (T := ⟨S16x1024x1, .i1⟩) main_call4_v10) andi,
    TRef.nullary (TRef.of (T := ⟨S_, .i1⟩) main_call4_c_3) (constantI S_ 1 1#1),
    TRef.binary (TRef.of (T := ⟨S16x1024x1, .i1⟩) main_call4_v10) (TRef.of (T := ⟨S_, .i1⟩) main_call4_c_3) (TRef.of (T := ⟨S16x1024, .i1⟩) main_call4_v11) (fun x v => Host.reduce IntOp.andi x v reducesTo_S16x1024x1_S16x1024_d2 h_S_),
    TRef.binary (TRef.of (T := ⟨S16x16384x256, .f32⟩) main_v1) (TRef.of (T := ⟨S16x1024x1, .i32⟩) main_call4_v4) (TRef.of (T := ⟨S16x1024x256, .f32⟩) main_call4_v12) (fun x i => Host.gather gather_S16x16384x256_S16x1024x1_S16x1024x256_2_1_0_0_1_2_11256 x i),
    TRef.unary (TRef.of (T := ⟨S16x1024, .i1⟩) main_call4_v11) (TRef.of (T := ⟨S16x1024x256, .i1⟩) main_call4_v13) (broadcastInDim S16x1024x256 ![0, 1] bcast_S16x1024_S16x1024x256_0_1),
    TRef.nullary (TRef.of (T := ⟨S_, .f32⟩) main_call4_cst) (constant S_ .f32 0x7FC00000#32),
    TRef.unary (TRef.of (T := ⟨S_, .f32⟩) main_call4_cst) (TRef.of (T := ⟨S16x1024x256, .f32⟩) main_call4_v14) (broadcastInDim S16x1024x256 ![] bcast_S_S16x1024x256),
    TRef.ternary (TRef.of (T := ⟨S16x1024x256, .i1⟩) main_call4_v13) (TRef.of (T := ⟨S16x1024x256, .f32⟩) main_call4_v12) (TRef.of (T := ⟨S16x1024x256, .f32⟩) main_call4_v14) (TRef.of (T := ⟨S16x1024x256, .f32⟩) main_v15) select,
    unary main_v13 main_v16 (broadcastInDim S16x1024x1 ![0, 1] bcast_S16x1024_S16x1024x1_0_1 : (⟨S16x1024, .i1⟩ : BufTy).Contents (Elt F) → (⟨S16x1024x1, .i1⟩ : BufTy).Contents (Elt F)),
    unary main_v16 main_v17 (uitofp .f32 : (⟨S16x1024x1, .i1⟩ : BufTy).Contents (Elt F) → (⟨S16x1024x1, .f32⟩ : BufTy).Contents (Elt F)),
    unary main_v17 main_v18 (broadcastInDim S16x1024x256 ![0, 1, 2] bcast_S16x1024x1_S16x1024x256_0_1_2 : (⟨S16x1024x1, .f32⟩ : BufTy).Contents (Elt F) → (⟨S16x1024x256, .f32⟩ : BufTy).Contents (Elt F)),
    binary main_v15 main_v18 main_v19 (mulf : (⟨S16x1024x256, .f32⟩ : BufTy).Contents (Elt F) → (⟨S16x1024x256, .f32⟩ : BufTy).Contents (Elt F) → (⟨S16x1024x256, .f32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S16x1024, .i32⟩) main_call5_v0) (broadcastInDim S16x1024 ![] bcast_S_S16x1024),
    TRef.binary (TRef.of (T := ⟨S16x1024, .i32⟩) main_v10) (TRef.of (T := ⟨S16x1024, .i32⟩) main_call5_v0) (TRef.of (T := ⟨S16x1024, .i1⟩) main_call5_v1) (cmpi .slt),
    TRef.nullary (TRef.of (T := ⟨S_, .i32⟩) main_call5_c_0) (constantI S_ 32 16384#32),
    TRef.unary (TRef.of (T := ⟨S_, .i32⟩) main_call5_c_0) (TRef.of (T := ⟨S16x1024, .i32⟩) main_call5_v2) (broadcastInDim S16x1024 ![] bcast_S_S16x1024),
    TRef.binary (TRef.of (T := ⟨S16x1024, .i32⟩) main_v10) (TRef.of (T := ⟨S16x1024, .i32⟩) main_call5_v2) (TRef.of (T := ⟨S16x1024, .i32⟩) main_call5_v3) addi,
    TRef.ternary (TRef.of (T := ⟨S16x1024, .i1⟩) main_call5_v1) (TRef.of (T := ⟨S16x1024, .i32⟩) main_call5_v3) (TRef.of (T := ⟨S16x1024, .i32⟩) main_v10) (TRef.of (T := ⟨S16x1024, .i32⟩) main_call5_v4) select,
    TRef.reshape (TRef.of (T := ⟨S16x1024, .i32⟩) main_call5_v4) (TRef.of (T := ⟨S16x1024x1, .i32⟩) main_call5_v5) rfl shapeCasts_S16x1024_S16x1024x1,
    TRef.nullary (TRef.of (T := ⟨S1, .i32⟩) main_call5_c_1) (constantI S1 32 16383#32),
    TRef.nullary (TRef.of (T := ⟨S_, .i32⟩) main_call5_c_2) (constantI S_ 32 0#32),
    TRef.unary (TRef.of (T := ⟨S_, .i32⟩) main_call5_c_2) (TRef.of (T := ⟨S16x1024x1, .i32⟩) main_call5_v6) (broadcastInDim S16x1024x1 ![] bcast_S_S16x1024x1),
    TRef.binary (TRef.of (T := ⟨S16x1024x1, .i32⟩) main_call5_v5) (TRef.of (T := ⟨S16x1024x1, .i32⟩) main_call5_v6) (TRef.of (T := ⟨S16x1024x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S16x1024x1, .i32⟩) main_call5_v9) (broadcastInDim S16x1024x1 ![0, 1, 2] bcast_S1x1x1_S16x1024x1_0_1_2),
    TRef.binary (TRef.of (T := ⟨S16x1024x1, .i32⟩) main_call5_v5) (TRef.of (T := ⟨S16x1024x1, .i32⟩) main_call5_v9) (TRef.of (T := ⟨S16x1024x1, .i1⟩) main_call5_v10) (cmpi .sle),
    TRef.binary (TRef.of (T := ⟨S16x1024x1, .i1⟩) main_call5_v7) (TRef.of (T := ⟨S16x1024x1, .i1⟩) main_call5_v10) (TRef.of (T := ⟨S16x1024x1, .i1⟩) main_call5_v11) andi,
    TRef.nullary (TRef.of (T := ⟨S_, .i1⟩) main_call5_c_3) (constantI S_ 1 1#1),
    TRef.binary (TRef.of (T := ⟨S16x1024x1, .i1⟩) main_call5_v11) (TRef.of (T := ⟨S_, .i1⟩) main_call5_c_3) (TRef.of (T := ⟨S16x1024, .i1⟩) main_call5_v12) (fun x v => Host.reduce IntOp.andi x v reducesTo_S16x1024x1_S16x1024_d2 h_S_),
    TRef.binary (TRef.of (T := ⟨S16x16384, .i32⟩) main_v2) (TRef.of (T := ⟨S16x1024x1, .i32⟩) main_call5_v5) (TRef.of (T := ⟨S16x1024, .i32⟩) main_call5_v13) (fun x i => Host.gather gather_S16x16384_S16x1024x1_S16x1024_n_1_0_0_1_2_11 x i),
    TRef.nullary (TRef.of (T := ⟨S_, .i32⟩) main_call5_c_4) (constantI S_ 32 2147483648#32),
    TRef.unary (TRef.of (T := ⟨S_, .i32⟩) main_call5_c_4) (TRef.of (T := ⟨S16x1024, .i32⟩) main_call5_v14) (broadcastInDim S16x1024 ![] bcast_S_S16x1024),
    TRef.ternary (TRef.of (T := ⟨S16x1024, .i1⟩) main_call5_v12) (TRef.of (T := ⟨S16x1024, .i32⟩) main_call5_v13) (TRef.of (T := ⟨S16x1024, .i32⟩) main_call5_v14) (TRef.of (T := ⟨S16x1024, .i32⟩) main_v20) select,
    nullary main_c_5 (constantI S_ 32 255#32),
    TRef.unary (TRef.of (T := ⟨S_, .i32⟩) main_c_5) (TRef.of (T := ⟨S_, .i32⟩) main_call6_v0) id,
    TRef.unary (TRef.of (T := ⟨S_, .i32⟩) main_call6_v0) (TRef.of (T := ⟨S16x1024, .i32⟩) main_call6_v1) (broadcastInDim S16x1024 ![] bcast_S_S16x1024),
    TRef.ternary (TRef.of (T := ⟨S16x1024, .i1⟩) main_v13) (TRef.of (T := ⟨S16x1024, .i32⟩) main_v20) (TRef.of (T := ⟨S16x1024, .i32⟩) main_call6_v1) (TRef.of (T := ⟨S16x1024, .i32⟩) main_v21) select,
    TRef.unary (TRef.of (T := ⟨S16x1024x256, .f32⟩) main_v19) (TRef.of (T := ⟨S15x1024x256, .f32⟩) main_call7_v0) (extractStridedSlice S15x1024x256 ![1, 0, 0] · slices_S16x1024x256_S15x1024x256_1_0_0),
    TRef.unary (TRef.of (T := ⟨S16x1024x256, .f32⟩) main_v19) (TRef.of (T := ⟨S1x1024x256, .f32⟩) main_call7_v1) (extractStridedSlice S1x1024x256 ![0, 0, 0] · slices_S16x1024x256_S1x1024x256_0_0_0),
    TRef.binary (TRef.of (T := ⟨S15x1024x256, .f32⟩) main_call7_v0) (TRef.of (T := ⟨S1x1024x256, .f32⟩) main_call7_v1) (TRef.of (T := ⟨S16x1024x256, .f32⟩) main_v22) (fun a b => concatenate S16x1024x256 0 [⟨S15x1024x256, a⟩, ⟨S1x1024x256, b⟩] concatenates_S15x1024x256_S1x1024x256_S16x1024x256_d0),
    binary main_v19 main_v22 main_v23 ((fun a b => concatenate S16x2048x256 1 [⟨S16x1024x256, a⟩, ⟨S16x1024x256, b⟩] concatenates_S16x1024x256_S16x1024x256_S16x2048x256_d1) : (⟨S16x1024x256, .f32⟩ : BufTy).Contents (Elt F) → (⟨S16x1024x256, .f32⟩ : BufTy).Contents (Elt F) → (⟨S16x2048x256, .f32⟩ : BufTy).Contents (Elt F)),
    TRef.unary (TRef.of (T := ⟨S16x1024, .i32⟩) main_v21) (TRef.of (T := ⟨S15x1024, .i32⟩) main_call8_v0) (extractStridedSlice S15x1024 ![1, 0] · slices_S16x1024_S15x1024_1_0),
    TRef.unary (TRef.of (T := ⟨S16x1024, .i32⟩) main_v21) (TRef.of (T := ⟨S1x1024, .i32⟩) main_call8_v1) (extractStridedSlice S1x1024 ![0, 0] · slices_S16x1024_S1x1024_0_0),
    TRef.binary (TRef.of (T := ⟨S15x1024, .i32⟩) main_call8_v0) (TRef.of (T := ⟨S1x1024, .i32⟩) main_call8_v1) (TRef.of (T := ⟨S16x1024, .i32⟩) main_v24) (fun a b => concatenate S16x1024 0 [⟨S15x1024, a⟩, ⟨S1x1024, b⟩] concatenates_S15x1024_S1x1024_S16x1024_d0),
    binary main_v21 main_v24 main_v25 ((fun a b => concatenate S16x2048 1 [⟨S16x1024, a⟩, ⟨S16x1024, b⟩] concatenates_S16x1024_S16x1024_S16x2048_d1) : (⟨S16x1024, .i32⟩ : BufTy).Contents (Elt F) → (⟨S16x1024, .i32⟩ : BufTy).Contents (Elt F) → (⟨S16x2048, .i32⟩ : BufTy).Contents (Elt F)),
    TRef.unary (TRef.of (T := ⟨S16x1024, .i1⟩) main_v13) (TRef.of (T := ⟨S15x1024, .i1⟩) main_call9_v0) (extractStridedSlice S15x1024 ![1, 0] · slices_S16x1024_S15x1024_1_0),
    TRef.unary (TRef.of (T := ⟨S16x1024, .i1⟩) main_v13) (TRef.of (T := ⟨S1x1024, .i1⟩) main_call9_v1) (extractStridedSlice S1x1024 ![0, 0] · slices_S16x1024_S1x1024_0_0),
    TRef.binary (TRef.of (T := ⟨S15x1024, .i1⟩) main_call9_v0) (TRef.of (T := ⟨S1x1024, .i1⟩) main_call9_v1) (TRef.of (T := ⟨S16x1024, .i1⟩) main_v26) (fun a b => concatenate S16x1024 0 [⟨S15x1024, a⟩, ⟨S1x1024, b⟩] concatenates_S15x1024_S1x1024_S16x1024_d0),
    nullary main_c_6 (constantI S_ 1 0#1),
    unary main_c_6 main_v27 (broadcastInDim S16x1024 ![] bcast_S_S16x1024 : (⟨S_, .i1⟩ : BufTy).Contents (Elt F) → (⟨S16x1024, .i1⟩ : BufTy).Contents (Elt F)),
    binary main_v13 main_v27 main_v28 (cmpi .ne : (⟨S16x1024, .i1⟩ : BufTy).Contents (Elt F) → (⟨S16x1024, .i1⟩ : BufTy).Contents (Elt F) → (⟨S16x1024, .i1⟩ : BufTy).Contents (Elt F)),
    unary main_v28 main_v29 (id : (⟨S16x1024, .i1⟩ : BufTy).Contents (Elt F) → (⟨S16x1024, .i1⟩ : BufTy).Contents (Elt F)),
    nullary main_c_7 (constantI S_ 1 0#1),
    unary main_c_7 main_v30 (broadcastInDim S16x1024 ![] bcast_S_S16x1024 : (⟨S_, .i1⟩ : BufTy).Contents (Elt F) → (⟨S16x1024, .i1⟩ : BufTy).Contents (Elt F)),
    binary main_v26 main_v30 main_v31 (cmpi .ne : (⟨S16x1024, .i1⟩ : BufTy).Contents (Elt F) → (⟨S16x1024, .i1⟩ : BufTy).Contents (Elt F) → (⟨S16x1024, .i1⟩ : BufTy).Contents (Elt F)),
    unary main_v31 main_v32 (id : (⟨S16x1024, .i1⟩ : BufTy).Contents (Elt F) → (⟨S16x1024, .i1⟩ : BufTy).Contents (Elt F)),
    binary main_v29 main_v32 main_v33 ((fun a b => concatenate S16x2048 1 [⟨S16x1024, a⟩, ⟨S16x1024, b⟩] concatenates_S16x1024_S16x1024_S16x2048_d1) : (⟨S16x1024, .i1⟩ : BufTy).Contents (Elt F) → (⟨S16x1024, .i1⟩ : BufTy).Contents (Elt F) → (⟨S16x2048, .i1⟩ : BufTy).Contents (Elt F)),
    TRef.binary (TRef.of (T := ⟨S16x2048x256, .f32⟩) main_v23) (TRef.of (T := ⟨S16x2048x256, .f32⟩) main_v23) (TRef.of (T := ⟨S16x2048x256, .f32⟩) main_call10_v0) mulf,
    TRef.nullary (TRef.of (T := ⟨S_, .f32⟩) main_call10_cst) (constant S_ .f32 0x00000000#32),
    TRef.binary (TRef.of (T := ⟨S16x2048x256, .f32⟩) main_call10_v0) (TRef.of (T := ⟨S_, .f32⟩) main_call10_cst) (TRef.of (T := ⟨S16x2048, .f32⟩) main_call10_v1) (fun x v => Host.reduceAdd x v reducesTo_S16x2048x256_S16x2048_d2 h_S_),
    TRef.unary (TRef.of (T := ⟨S16x2048, .f32⟩) main_call10_v1) (TRef.of (T := ⟨S16x2048x1, .f32⟩) main_call10_v2) (broadcastInDim S16x2048x1 ![0, 1] bcast_S16x2048_S16x2048x1_0_1),
    TRef.unary (TRef.of (T := ⟨S16x2048x1, .f32⟩) main_call10_v2) (TRef.of (T := ⟨S16x2048x1, .f32⟩) main_v34) Host.sqrt,
    nullary main_cst (constant S_ .f32 0x2B8CBCCC#32),
    unary main_cst main_v35 (broadcastInDim S16x2048x1 ![] bcast_S_S16x2048x1 : (⟨S_, .f32⟩ : BufTy).Contents (Elt F) → (⟨S16x2048x1, .f32⟩ : BufTy).Contents (Elt F)),
    binary main_v34 main_v35 main_v36 (maximumf : (⟨S16x2048x1, .f32⟩ : BufTy).Contents (Elt F) → (⟨S16x2048x1, .f32⟩ : BufTy).Contents (Elt F) → (⟨S16x2048x1, .f32⟩ : BufTy).Contents (Elt F)),
    unary main_v36 main_v37 (broadcastInDim S16x2048x256 ![0, 1, 2] bcast_S16x2048x1_S16x2048x256_0_1_2 : (⟨S16x2048x1, .f32⟩ : BufTy).Contents (Elt F) → (⟨S16x2048x256, .f32⟩ : BufTy).Contents (Elt F)),
    binary main_v23 main_v37 main_v38 (Host.divf : (⟨S16x2048x256, .f32⟩ : BufTy).Contents (Elt F) → (⟨S16x2048x256, .f32⟩ : BufTy).Contents (Elt F) → (⟨S16x2048x256, .f32⟩ : BufTy).Contents (Elt F)) ]

/-- The pairwise reductions: operations 130 … 229. -/
abbrev opsB : List (HloOp τ sig (Elt F)) :=
  [ unary main_v33 main_v39 (uitofp .f32 : (⟨S16x2048, .i1⟩ : BufTy).Contents (Elt F) → (⟨S16x2048, .f32⟩ : BufTy).Contents (Elt F)),
    binary main_v38 main_v38 main_v40 ((fun l r => Host.dotGeneral dot_S16x2048x256_S16x2048x256_S16x2048x2048_2_2_1_1_0_0 none l r) : (⟨S16x2048x256, .f32⟩ : BufTy).Contents (Elt F) → (⟨S16x2048x256, .f32⟩ : BufTy).Contents (Elt F) → (⟨S16x2048x2048, .f32⟩ : BufTy).Contents (Elt F)),
    nullary main_cst_8 (constant S_ .f32 0x3D8F5C29#32),
    unary main_cst_8 main_v41 (broadcastInDim S16x2048x2048 ![] bcast_S_S16x2048x2048 : (⟨S_, .f32⟩ : BufTy).Contents (Elt F) → (⟨S16x2048x2048, .f32⟩ : BufTy).Contents (Elt F)),
    binary main_v40 main_v41 main_v42 (Host.divf : (⟨S16x2048x2048, .f32⟩ : BufTy).Contents (Elt F) → (⟨S16x2048x2048, .f32⟩ : BufTy).Contents (Elt F) → (⟨S16x2048x2048, .f32⟩ : BufTy).Contents (Elt F)),
    nullary main_cst_9 (constant S_ .f32 0xFF800000#32),
    binary main_v42 main_cst_9 main_v43 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v43 main_v44 (broadcastInDim S16x2048x1 ![0, 1] bcast_S16x2048_S16x2048x1_0_1 : (⟨S16x2048, .f32⟩ : BufTy).Contents (Elt F) → (⟨S16x2048x1, .f32⟩ : BufTy).Contents (Elt F)),
    unary main_v44 main_v45 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v42 main_v45 main_v46 (subf : (⟨S16x2048x2048, .f32⟩ : BufTy).Contents (Elt F) → (⟨S16x2048x2048, .f32⟩ : BufTy).Contents (Elt F) → (⟨S16x2048x2048, .f32⟩ : BufTy).Contents (Elt F)),
    unary main_v39 main_v47 (broadcastInDim S16x2048x1 ![0, 1] bcast_S16x2048_S16x2048x1_0_1 : (⟨S16x2048, .f32⟩ : BufTy).Contents (Elt F) → (⟨S16x2048x1, .f32⟩ : BufTy).Contents (Elt F)),
    unary main_v39 main_v48 (broadcastInDim S16x1x2048 ![0, 2] bcast_S16x2048_S16x1x2048_0_2 : (⟨S16x2048, .f32⟩ : BufTy).Contents (Elt F) → (⟨S16x1x2048, .f32⟩ : BufTy).Contents (Elt F)),
    unary main_v47 main_v49 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    unary main_v48 main_v50 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v49 main_v50 main_v51 (mulf : (⟨S16x2048x2048, .f32⟩ : BufTy).Contents (Elt F) → (⟨S16x2048x2048, .f32⟩ : BufTy).Contents (Elt F) → (⟨S16x2048x2048, .f32⟩ : BufTy).Contents (Elt F)),
    unary main_v25 main_v52 (broadcastInDim S16x2048x1 ![0, 1] bcast_S16x2048_S16x2048x1_0_1 : (⟨S16x2048, .i32⟩ : BufTy).Contents (Elt F) → (⟨S16x2048x1, .i32⟩ : BufTy).Contents (Elt F)),
    unary main_v25 main_v53 (broadcastInDim S16x1x2048 ![0, 2] bcast_S16x2048_S16x1x2048_0_2 : (⟨S16x2048, .i32⟩ : BufTy).Contents (Elt F) → (⟨S16x1x2048, .i32⟩ : BufTy).Contents (Elt F)),
    unary main_v52 main_v54 (broadcastInDim S16x2048x2048 ![0, 1, 2] bcast_S16x2048x1_S16x2048x2048_0_1_2 : (⟨S16x2048x1, .i32⟩ : BufTy).Contents (Elt F) → (⟨S16x2048x2048, .i32⟩ : BufTy).Contents (Elt F)),
    unary main_v53 main_v55 (broadcastInDim S16x2048x2048 ![0, 1, 2] bcast_S16x1x2048_S16x2048x2048_0_1_2 : (⟨S16x1x2048, .i32⟩ : BufTy).Contents (Elt F) → (⟨S16x2048x2048, .i32⟩ : BufTy).Contents (Elt F)),
    binary main_v54 main_v55 main_v56 (cmpi .eq : (⟨S16x2048x2048, .i32⟩ : BufTy).Contents (Elt F) → (⟨S16x2048x2048, .i32⟩ : BufTy).Contents (Elt F) → (⟨S16x2048x2048, .i1⟩ : BufTy).Contents (Elt F)),
    unary main_v56 main_v57 (uitofp .f32 : (⟨S16x2048x2048, .i1⟩ : BufTy).Contents (Elt F) → (⟨S16x2048x2048, .f32⟩ : BufTy).Contents (Elt F)),
    binary main_v57 main_v51 main_v58 (mulf : (⟨S16x2048x2048, .f32⟩ : BufTy).Contents (Elt F) → (⟨S16x2048x2048, .f32⟩ : BufTy).Contents (Elt F) → (⟨S16x2048x2048, .f32⟩ : BufTy).Contents (Elt F)),
    nullary main_v59 (iotaInDim S2x2 32 0),
    nullary main_v60 (iotaInDim S2x2 32 1),
    nullary main_c_10 (constantI S_ 32 0#32),
    unary main_c_10 main_v61 (broadcastInDim S2x2 ![] bcast_S_S2x2 : (⟨S_, .i32⟩ : BufTy).Contents (Elt F) → (⟨S2x2, .i32⟩ : BufTy).Contents (Elt F)),
    binary main_v59 main_v61 main_v62 (addi : (⟨S2x2, .i32⟩ : BufTy).Contents (Elt F) → (⟨S2x2, .i32⟩ : BufTy).Contents (Elt F) → (⟨S2x2, .i32⟩ : BufTy).Contents (Elt F)),
    binary main_v62 main_v60 main_v63 (cmpi .eq : (⟨S2x2, .i32⟩ : BufTy).Contents (Elt F) → (⟨S2x2, .i32⟩ : BufTy).Contents (Elt F) → (⟨S2x2, .i1⟩ : BufTy).Contents (Elt F)),
    unary main_v63 main_v64 (uitofp .f32 : (⟨S2x2, .i1⟩ : BufTy).Contents (Elt F) → (⟨S2x2, .f32⟩ : BufTy).Contents (Elt F)),
    nullary main_cst_11 (constant S_ .f32 0x3F800000#32),
    unary main_cst_11 main_v65 (broadcastInDim S1024x1024 ![] bcast_S_S1024x1024 : (⟨S_, .f32⟩ : BufTy).Contents (Elt F) → (⟨S1024x1024, .f32⟩ : BufTy).Contents (Elt F)),
    TRef.unary (TRef.of (T := ⟨S2x2, .f32⟩) main_v64) (TRef.of (T := ⟨S2x1x2x1, .f32⟩) main_call11_v0) (broadcastInDim S2x1x2x1 ![0, 2] bcast_S2x2_S2x1x2x1_0_2),
    TRef.unary (TRef.of (T := ⟨S1024x1024, .f32⟩) main_v65) (TRef.of (T := ⟨S1x1024x1x1024, .f32⟩) main_call11_v1) (broadcastInDim S1x1024x1x1024 ![1, 3] bcast_S1024x1024_S1x1024x1x1024_1_3),
    TRef.unary (TRef.of (T := ⟨S2x1x2x1, .f32⟩) main_call11_v0) (TRef.of (T := ⟨S2x1024x2x1024, .f32⟩) main_call11_v2) (broadcastInDim S2x1024x2x1024 ![0, 1, 2, 3] bcast_S2x1x2x1_S2x1024x2x1024_0_1_2_3),
    TRef.unary (TRef.of (T := ⟨S1x1024x1x1024, .f32⟩) main_call11_v1) (TRef.of (T := ⟨S2x1024x2x1024, .f32⟩) main_call11_v3) (broadcastInDim S2x1024x2x1024 ![0, 1, 2, 3] bcast_S1x1024x1x1024_S2x1024x2x1024_0_1_2_3),
    TRef.binary (TRef.of (T := ⟨S2x1024x2x1024, .f32⟩) main_call11_v2) (TRef.of (T := ⟨S2x1024x2x1024, .f32⟩) main_call11_v3) (TRef.of (T := ⟨S2x1024x2x1024, .f32⟩) main_call11_v4) mulf,
    TRef.reshape (TRef.of (T := ⟨S2x1024x2x1024, .f32⟩) main_call11_v4) (TRef.of (T := ⟨S2048x2048, .f32⟩) main_v66) rfl shapeCasts_S2x1024x2x1024_S2048x2048,
    unary main_v66 main_v67 (broadcastInDim S1x2048x2048 ![1, 2] bcast_S2048x2048_S1x2048x2048_1_2 : (⟨S2048x2048, .f32⟩ : BufTy).Contents (Elt F) → (⟨S1x2048x2048, .f32⟩ : BufTy).Contents (Elt F)),
    nullary main_cst_12 (constant S_ .f32 0x3F800000#32),
    unary main_cst_12 main_v68 (broadcastInDim S16x2048x2048 ![] bcast_S_S16x2048x2048 : (⟨S_, .f32⟩ : BufTy).Contents (Elt F) → (⟨S16x2048x2048, .f32⟩ : BufTy).Contents (Elt F)),
    binary main_v68 main_v58 main_v69 (subf : (⟨S16x2048x2048, .f32⟩ : BufTy).Contents (Elt F) → (⟨S16x2048x2048, .f32⟩ : BufTy).Contents (Elt F) → (⟨S16x2048x2048, .f32⟩ : BufTy).Contents (Elt F)),
    unary main_v67 main_v70 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_v69 main_v70 main_v71 (mulf : (⟨S16x2048x2048, .f32⟩ : BufTy).Contents (Elt F) → (⟨S16x2048x2048, .f32⟩ : BufTy).Contents (Elt F) → (⟨S16x2048x2048, .f32⟩ : BufTy).Contents (Elt F)),
    binary main_v71 main_v51 main_v72 (mulf : (⟨S16x2048x2048, .f32⟩ : BufTy).Contents (Elt F) → (⟨S16x2048x2048, .f32⟩ : BufTy).Contents (Elt F) → (⟨S16x2048x2048, .f32⟩ : BufTy).Contents (Elt F)),
    nullary main_v73 (iotaInDim S2048x2048 32 0),
    nullary main_v74 (iotaInDim S2048x2048 32 1),
    nullary main_c_13 (constantI S_ 32 0#32),
    unary main_c_13 main_v75 (broadcastInDim S2048x2048 ![] bcast_S_S2048x2048 : (⟨S_, .i32⟩ : BufTy).Contents (Elt F) → (⟨S2048x2048, .i32⟩ : BufTy).Contents (Elt F)),
    binary main_v73 main_v75 main_v76 (addi : (⟨S2048x2048, .i32⟩ : BufTy).Contents (Elt F) → (⟨S2048x2048, .i32⟩ : BufTy).Contents (Elt F) → (⟨S2048x2048, .i32⟩ : BufTy).Contents (Elt F)),
    binary main_v76 main_v74 main_v77 (cmpi .eq : (⟨S2048x2048, .i32⟩ : BufTy).Contents (Elt F) → (⟨S2048x2048, .i32⟩ : BufTy).Contents (Elt F) → (⟨S2048x2048, .i1⟩ : BufTy).Contents (Elt F)),
    unary main_v77 main_v78 (uitofp .f32 : (⟨S2048x2048, .i1⟩ : BufTy).Contents (Elt F) → (⟨S2048x2048, .f32⟩ : BufTy).Contents (Elt F)),
    unary main_v78 main_v79 (broadcastInDim S1x2048x2048 ![1, 2] bcast_S2048x2048_S1x2048x2048_1_2 : (⟨S2048x2048, .f32⟩ : BufTy).Contents (Elt F) → (⟨S1x2048x2048, .f32⟩ : BufTy).Contents (Elt F)),
    nullary main_cst_14 (constant S_ .f32 0x3F800000#32),
    unary main_cst_14 main_v80 (broadcastInDim S1x2048x2048 ![] bcast_S_S1x2048x2048 : (⟨S_, .f32⟩ : BufTy).Contents (Elt F) → (⟨S1x2048x2048, .f32⟩ : BufTy).Contents (Elt F)),
    binary main_v80 main_v79 main_v81 (subf : (⟨S1x2048x2048, .f32⟩ : BufTy).Contents (Elt F) → (⟨S1x2048x2048, .f32⟩ : BufTy).Contents (Elt F) → (⟨S1x2048x2048, .f32⟩ : BufTy).Contents (Elt F)),
    unary main_v81 main_v82 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_v58 main_v82 main_v83 (mulf : (⟨S16x2048x2048, .f32⟩ : BufTy).Contents (Elt F) → (⟨S16x2048x2048, .f32⟩ : BufTy).Contents (Elt F) → (⟨S16x2048x2048, .f32⟩ : BufTy).Contents (Elt F)),
    unary main_v81 main_v84 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_v72 main_v84 main_v85 (mulf : (⟨S16x2048x2048, .f32⟩ : BufTy).Contents (Elt F) → (⟨S16x2048x2048, .f32⟩ : BufTy).Contents (Elt F) → (⟨S16x2048x2048, .f32⟩ : BufTy).Contents (Elt F)),
    unary main_v46 main_v86 (Host.exp : (⟨S16x2048x2048, .f32⟩ : BufTy).Contents (Elt F) → (⟨S16x2048x2048, .f32⟩ : BufTy).Contents (Elt F)),
    binary main_v86 main_v85 main_v87 (mulf : (⟨S16x2048x2048, .f32⟩ : BufTy).Contents (Elt F) → (⟨S16x2048x2048, .f32⟩ : BufTy).Contents (Elt F) → (⟨S16x2048x2048, .f32⟩ : BufTy).Contents (Elt F)),
    nullary main_cst_15 (constant S_ .f32 0x00000000#32),
    binary main_v87 main_cst_15 main_v88 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v88 main_v89 (broadcastInDim S16x2048x1 ![0, 1] bcast_S16x2048_S16x2048x1_0_1 : (⟨S16x2048, .f32⟩ : BufTy).Contents (Elt F) → (⟨S16x2048x1, .f32⟩ : BufTy).Contents (Elt F)),
    unary main_v89 main_v90 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v86 main_v90 main_v91 (addf : (⟨S16x2048x2048, .f32⟩ : BufTy).Contents (Elt F) → (⟨S16x2048x2048, .f32⟩ : BufTy).Contents (Elt F) → (⟨S16x2048x2048, .f32⟩ : BufTy).Contents (Elt F)),
    nullary main_cst_16 (constant S_ .f32 0x322BCC77#32),
    unary main_cst_16 main_v92 (broadcastInDim S16x2048x2048 ![] bcast_S_S16x2048x2048 : (⟨S_, .f32⟩ : BufTy).Contents (Elt F) → (⟨S16x2048x2048, .f32⟩ : BufTy).Contents (Elt F)),
    binary main_v91 main_v92 main_v93 (addf : (⟨S16x2048x2048, .f32⟩ : BufTy).Contents (Elt F) → (⟨S16x2048x2048, .f32⟩ : BufTy).Contents (Elt F) → (⟨S16x2048x2048, .f32⟩ : BufTy).Contents (Elt F)),
    unary main_v93 main_v94 (Host.log : (⟨S16x2048x2048, .f32⟩ : BufTy).Contents (Elt F) → (⟨S16x2048x2048, .f32⟩ : BufTy).Contents (Elt F)),
    binary main_v46 main_v94 main_v95 (subf : (⟨S16x2048x2048, .f32⟩ : BufTy).Contents (Elt F) → (⟨S16x2048x2048, .f32⟩ : BufTy).Contents (Elt F) → (⟨S16x2048x2048, .f32⟩ : BufTy).Contents (Elt F)),
    nullary main_cst_17 (constant S_ .f32 0x00000000#32),
    binary main_v83 main_cst_17 main_v96 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_18 (constant S_ .f32 0x3F800000#32),
    unary main_cst_18 main_v97 (broadcastInDim S16x2048 ![] bcast_S_S16x2048 : (⟨S_, .f32⟩ : BufTy).Contents (Elt F) → (⟨S16x2048, .f32⟩ : BufTy).Contents (Elt F)),
    binary main_v96 main_v97 main_v98 (maximumf : (⟨S16x2048, .f32⟩ : BufTy).Contents (Elt F) → (⟨S16x2048, .f32⟩ : BufTy).Contents (Elt F) → (⟨S16x2048, .f32⟩ : BufTy).Contents (Elt F)),
    binary main_v83 main_v95 main_v99 (mulf : (⟨S16x2048x2048, .f32⟩ : BufTy).Contents (Elt F) → (⟨S16x2048x2048, .f32⟩ : BufTy).Contents (Elt F) → (⟨S16x2048x2048, .f32⟩ : BufTy).Contents (Elt F)),
    nullary main_cst_19 (constant S_ .f32 0x00000000#32),
    binary main_v99 main_cst_19 main_v100 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    binary main_v100 main_v98 main_v101 (Host.divf : (⟨S16x2048, .f32⟩ : BufTy).Contents (Elt F) → (⟨S16x2048, .f32⟩ : BufTy).Contents (Elt F) → (⟨S16x2048, .f32⟩ : BufTy).Contents (Elt F)),
    nullary main_cst_20 (constant S_ .f32 0x00000000#32),
    binary main_v83 main_cst_20 main_v102 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_21 (constant S_ .f32 0x00000000#32),
    unary main_cst_21 main_v103 (broadcastInDim S16x2048 ![] bcast_S_S16x2048 : (⟨S_, .f32⟩ : BufTy).Contents (Elt F) → (⟨S16x2048, .f32⟩ : BufTy).Contents (Elt F)),
    binary main_v102 main_v103 main_v104 (cmpf .ogt : (⟨S16x2048, .f32⟩ : BufTy).Contents (Elt F) → (⟨S16x2048, .f32⟩ : BufTy).Contents (Elt F) → (⟨S16x2048, .i1⟩ : BufTy).Contents (Elt F)),
    unary main_v104 main_v105 (uitofp .f32 : (⟨S16x2048, .i1⟩ : BufTy).Contents (Elt F) → (⟨S16x2048, .f32⟩ : BufTy).Contents (Elt F)),
    unary main_v101 main_v106 (Host.negf : (⟨S16x2048, .f32⟩ : BufTy).Contents (Elt F) → (⟨S16x2048, .f32⟩ : BufTy).Contents (Elt F)),
    binary main_v106 main_v105 main_v107 (mulf : (⟨S16x2048, .f32⟩ : BufTy).Contents (Elt F) → (⟨S16x2048, .f32⟩ : BufTy).Contents (Elt F) → (⟨S16x2048, .f32⟩ : BufTy).Contents (Elt F)),
    nullary main_cst_22 (constant S_ .f32 0x00000000#32),
    binary main_v107 main_cst_22 main_v108 ((fun x v => Host.reduceAdd x v reducesTo_S16x2048_S16_d1 h_S_) : (⟨S16x2048, .f32⟩ : BufTy).Contents (Elt F) → (⟨S_, .f32⟩ : BufTy).Contents (Elt F) → (⟨S16, .f32⟩ : BufTy).Contents (Elt F)),
    nullary main_cst_23 (constant S_ .f32 0x00000000#32),
    binary main_v105 main_cst_23 main_v109 ((fun x v => Host.reduceAdd x v reducesTo_S16x2048_S16_d1 h_S_) : (⟨S16x2048, .f32⟩ : BufTy).Contents (Elt F) → (⟨S_, .f32⟩ : BufTy).Contents (Elt F) → (⟨S16, .f32⟩ : BufTy).Contents (Elt F)),
    nullary main_cst_24 (constant S_ .f32 0x3F800000#32),
    unary main_cst_24 main_v110 (broadcastInDim S16 ![] bcast_S_S16 : (⟨S_, .f32⟩ : BufTy).Contents (Elt F) → (⟨S16, .f32⟩ : BufTy).Contents (Elt F)),
    binary main_v109 main_v110 main_v111 (maximumf : (⟨S16, .f32⟩ : BufTy).Contents (Elt F) → (⟨S16, .f32⟩ : BufTy).Contents (Elt F) → (⟨S16, .f32⟩ : BufTy).Contents (Elt F)),
    binary main_v108 main_v111 main_v112 (Host.divf : (⟨S16, .f32⟩ : BufTy).Contents (Elt F) → (⟨S16, .f32⟩ : BufTy).Contents (Elt F) → (⟨S16, .f32⟩ : BufTy).Contents (Elt F)),
    nullary main_cst_25 (constant S_ .f32 0x00000000#32),
    binary main_v112 main_cst_25 main_v113 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_26 (constant S_ .f32 0x41800000#32),
    binary main_v113 main_cst_26 main_v114 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (ops : List (HloOp τ sig (Elt F))) = opsA ++ opsB := rfl

/-- Folding two lists one after the other is folding their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole list folds as the first piece, then the second. -/
theorem after_split (V : Valuation τ sig (Elt F)) : after ops V = after opsB (after opsA V) := by
  rw [ops_split, after_app]

end Cert.ReferenceIdeal.ValueP

end
-- ==== Proof.RefCore.lean ====
/-
  The reference's last hundred operations compute its result from three arrays.

  From any valuation that holds the normalised features %38, the labels %25 and the validities %33 at their stages,
  the operations from %39 on leave the result buffer at the result's stage %114: the fold of the hundred operations is
  the same tree of operations as the stages' definitions, over those three leaves.
-/
import proofs.«110907_j88038239634215_2_alg».proof.Proof.RefSplit
import proofs.«110907_j88038239634215_2_alg».proof.Proof.ReadP

noncomputable section

namespace Cert.ReferenceIdeal.ValueP

open Cert.ReferenceIdeal Cert.ReferenceIdeal.Gen Idealize.ShloMosaic Idealize.ShloMosaic.TcCoe Idealize.SL.Sem Idealize.ShloMosaic.StableHlo

set_option maxRecDepth 1000000 in
set_option maxHeartbeats 91600000 in
/-- The result buffer after the hundred operations, from a valuation holding %38, %25, %33 at their stages. -/
theorem core_stage (W : Valuation τ sig (Elt Ideal))
    (x0 : (⟨S16x256x128x128, .f32⟩ : BufTy).Contents (Elt Ideal)) (x1 : (⟨S16x128x128, .i32⟩ : BufTy).Contents (Elt Ideal))
    (h38 : W (Proc.devRef .tc main_v38) = Cert.ReferenceIdeal.ReadP.val_main_v38 (F := Ideal) x0 x1)
    (h25 : W (Proc.devRef .tc main_v25) = Cert.ReferenceIdeal.ReadP.val_main_v25 (F := Ideal) x1)
    (h33 : W (Proc.devRef .tc main_v33) = Cert.ReferenceIdeal.ReadP.val_main_v33 (F := Ideal) x1) :
    after (opsB (F := Ideal)) W (Proc.devRef .tc main_v114) = Cert.ReferenceIdeal.ReadP.val_main_v114 (F := Ideal) x0 x1 := by
  after_results_simp
  all_goals simp only [TRef.toBuf, TRef.ofBuf, cast_eq]
  all_goals rw [h38, h25, h33]
  all_goals simp only [Cert.ReferenceIdeal.ReadP.val_main_v39, Cert.ReferenceIdeal.ReadP.val_main_v40, Cert.ReferenceIdeal.ReadP.val_main_cst_8, Cert.ReferenceIdeal.ReadP.val_main_v41, Cert.ReferenceIdeal.ReadP.val_main_v42, Cert.ReferenceIdeal.ReadP.val_main_cst_9, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_c_10, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_cst_11, Cert.ReferenceIdeal.ReadP.val_main_v65, Cert.ReferenceIdeal.ReadP.val_main_call11_v0, Cert.ReferenceIdeal.ReadP.val_main_call11_v1, Cert.ReferenceIdeal.ReadP.val_main_call11_v2, Cert.ReferenceIdeal.ReadP.val_main_call11_v3, Cert.ReferenceIdeal.ReadP.val_main_call11_v4, Cert.ReferenceIdeal.ReadP.val_main_v66, Cert.ReferenceIdeal.ReadP.val_main_v67, Cert.ReferenceIdeal.ReadP.val_main_cst_12, Cert.ReferenceIdeal.ReadP.val_main_v68, Cert.ReferenceIdeal.ReadP.val_main_v69, Cert.ReferenceIdeal.ReadP.val_main_v70, Cert.ReferenceIdeal.ReadP.val_main_v71, Cert.ReferenceIdeal.ReadP.val_main_v72, Cert.ReferenceIdeal.ReadP.val_main_v73, Cert.ReferenceIdeal.ReadP.val_main_v74, Cert.ReferenceIdeal.ReadP.val_main_c_13, Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_cst_14, Cert.ReferenceIdeal.ReadP.val_main_v80, Cert.ReferenceIdeal.ReadP.val_main_v81, Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_cst_15, Cert.ReferenceIdeal.ReadP.val_main_v88, Cert.ReferenceIdeal.ReadP.val_main_v89, Cert.ReferenceIdeal.ReadP.val_main_v90, Cert.ReferenceIdeal.ReadP.val_main_v91, Cert.ReferenceIdeal.ReadP.val_main_cst_16, Cert.ReferenceIdeal.ReadP.val_main_v92, Cert.ReferenceIdeal.ReadP.val_main_v93, Cert.ReferenceIdeal.ReadP.val_main_v94, Cert.ReferenceIdeal.ReadP.val_main_v95, Cert.ReferenceIdeal.ReadP.val_main_cst_17, Cert.ReferenceIdeal.ReadP.val_main_v96, Cert.ReferenceIdeal.ReadP.val_main_cst_18, Cert.ReferenceIdeal.ReadP.val_main_v97, Cert.ReferenceIdeal.ReadP.val_main_v98, Cert.ReferenceIdeal.ReadP.val_main_v99, Cert.ReferenceIdeal.ReadP.val_main_cst_19, Cert.ReferenceIdeal.ReadP.val_main_v100, Cert.ReferenceIdeal.ReadP.val_main_v101, Cert.ReferenceIdeal.ReadP.val_main_cst_20, Cert.ReferenceIdeal.ReadP.val_main_v102, Cert.ReferenceIdeal.ReadP.val_main_cst_21, Cert.ReferenceIdeal.ReadP.val_main_v103, Cert.ReferenceIdeal.ReadP.val_main_v104, Cert.ReferenceIdeal.ReadP.val_main_v105, Cert.ReferenceIdeal.ReadP.val_main_v106, Cert.ReferenceIdeal.ReadP.val_main_v107, Cert.ReferenceIdeal.ReadP.val_main_cst_22, Cert.ReferenceIdeal.ReadP.val_main_v108, Cert.ReferenceIdeal.ReadP.val_main_cst_23, Cert.ReferenceIdeal.ReadP.val_main_v109, Cert.ReferenceIdeal.ReadP.val_main_cst_24, Cert.ReferenceIdeal.ReadP.val_main_v110, Cert.ReferenceIdeal.ReadP.val_main_v111, Cert.ReferenceIdeal.ReadP.val_main_v112, Cert.ReferenceIdeal.ReadP.val_main_cst_25, Cert.ReferenceIdeal.ReadP.val_main_v113, Cert.ReferenceIdeal.ReadP.val_main_cst_26, Cert.ReferenceIdeal.ReadP.val_main_v114]
  all_goals first | rfl | fail "core: syntactic rfl failed"

end Cert.ReferenceIdeal.ValueP

end
-- ==== Proof.RefStages.lean ====
/-
  The first 129 operations of the reference program, read one stage at a time.

  Folding a list of operations over a valuation rewrites, for each operation in turn, the buffer it writes with its
  function of the buffers it reads.  The stages of the reference are those same functions composed, from the two
  arguments up.  So after the first 129 operations each buffer holds its stage applied to the launch contents of the
  arguments.  This is shown for the three buffers the remaining operations read: the normalised sampled features
  (%38), the sampled labels of every image pair (%25) and their validity bits (%33).
-/
import proofs.«110907_j88038239634215_2_alg».proof.Proof.RefSplit
import proofs.«110907_j88038239634215_2_alg».proof.Proof.ReadP

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

/-- Two arrays joined along an axis, the two operands as plain arguments. -/
def concat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ x₁ x₂ h := rfl

variable (m : (ℓ : Loc nD τ sig) → Buf (Elt Ideal) ℓ) (c : Dev nD)

/-! ## The labels and the validities

The sampled labels and their validity bits are computed from the label argument alone: the priority of each pixel
(two comparisons, two selects), the stable sort of the priorities paired with their positions, the first 1024
positions, the priorities and the labels taken at those positions, the bit "priority below 2", the label 255 where
the bit is off, and each image's 1024 entries followed by the next image's.  Unfolding the fold on one side and the
stages on the other gives one and the same tree; the sort is named by a variable before the two trees are compared,
so that the comparison never looks inside it. -/

set_option maxRecDepth 200000 in
set_option maxHeartbeats 1000000 in
/-- After the first 129 operations %25 holds the 2048 labels of every image pair. -/
theorem stage_v25 : after (opsA (F := Ideal)) (launchContents m c) (Proc.devRef .tc main_v25)
    = Cert.ReferenceIdeal.ReadP.val_main_v25 (F := Ideal) (m ((c.tc : Thread nD τ).loc main_arg1)) := by
  simp only [opsA]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v20, Cert.ReferenceIdeal.ReadP.val_main_c_5, Cert.ReferenceIdeal.ReadP.val_main_call6_v0, Cert.ReferenceIdeal.ReadP.val_main_call6_v1, Cert.ReferenceIdeal.ReadP.val_main_v21, Cert.ReferenceIdeal.ReadP.val_main_call8_v0, Cert.ReferenceIdeal.ReadP.val_main_call8_v1, Cert.ReferenceIdeal.ReadP.val_main_v24, Cert.ReferenceIdeal.ReadP.val_main_v25, concat2_eq]
  generalize Host.sort2 S16x16384 1 comparator_i32_i32_d1 = srt
  exact rfl

set_option maxRecDepth 200000 in
set_option maxHeartbeats 1000000 in
/-- After the first 129 operations %33 holds the 2048 validity bits of every image pair. -/
theorem stage_v33 : after (opsA (F := Ideal)) (launchContents m c) (Proc.devRef .tc main_v33)
    = Cert.ReferenceIdeal.ReadP.val_main_v33 (F := Ideal) (m ((c.tc : Thread nD τ).loc main_arg1)) := by
  simp only [opsA]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_call9_v0, Cert.ReferenceIdeal.ReadP.val_main_call9_v1, Cert.ReferenceIdeal.ReadP.val_main_v26, Cert.ReferenceIdeal.ReadP.val_main_c_6, Cert.ReferenceIdeal.ReadP.val_main_v27, Cert.ReferenceIdeal.ReadP.val_main_v28, Cert.ReferenceIdeal.ReadP.val_main_v29, Cert.ReferenceIdeal.ReadP.val_main_c_7, Cert.ReferenceIdeal.ReadP.val_main_v30, Cert.ReferenceIdeal.ReadP.val_main_v31, Cert.ReferenceIdeal.ReadP.val_main_v32, Cert.ReferenceIdeal.ReadP.val_main_v33, concat2_eq]
  generalize Host.sort2 S16x16384 1 comparator_i32_i32_d1 = srt
  exact rfl

/-! ## The normalised features

The features are gathered at the sampled positions (pixels before channels), zeroed where the validity bit is off,
each image's 1024 rows followed by the next image's, and every row divided by the larger of its Euclidean norm and
1e-12.  The same unfolding on both sides gives one tree here too: the paired features occur three times in it (the
dividend and twice in the square), and the masked gather twice in each of those. -/

set_option maxRecDepth 200000 in
set_option maxHeartbeats 4000000 in
/-- After the first 129 operations %38 holds the normalised sampled features of every image pair. -/
theorem stage_v38 : after (opsA (F := Ideal)) (launchContents m c) (Proc.devRef .tc main_v38)
    = Cert.ReferenceIdeal.ReadP.val_main_v38 (F := Ideal) (m ((c.tc : Thread nD τ).loc main_arg0)) (m ((c.tc : Thread nD τ).loc main_arg1)) := by
  simp only [opsA]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq]
  simp only [TRef.toBuf, TRef.ofBuf, cast_eq]
  simp only [Cert.ReferenceIdeal.ReadP.val_main_v0, Cert.ReferenceIdeal.ReadP.val_main_v1, Cert.ReferenceIdeal.ReadP.val_main_v2, Cert.ReferenceIdeal.ReadP.val_main_c, Cert.ReferenceIdeal.ReadP.val_main_v3, Cert.ReferenceIdeal.ReadP.val_main_v4, Cert.ReferenceIdeal.ReadP.val_main_c_0, Cert.ReferenceIdeal.ReadP.val_main_v5, Cert.ReferenceIdeal.ReadP.val_main_v6, Cert.ReferenceIdeal.ReadP.val_main_c_1, Cert.ReferenceIdeal.ReadP.val_main_c_2, Cert.ReferenceIdeal.ReadP.val_main_call0_v0, Cert.ReferenceIdeal.ReadP.val_main_call0_v1, Cert.ReferenceIdeal.ReadP.val_main_v7, Cert.ReferenceIdeal.ReadP.val_main_c_3, Cert.ReferenceIdeal.ReadP.val_main_call1_v0, Cert.ReferenceIdeal.ReadP.val_main_v8, Cert.ReferenceIdeal.ReadP.val_main_call2_v0, Cert.ReferenceIdeal.ReadP.val_main_v9, Cert.ReferenceIdeal.ReadP.val_main_v10, Cert.ReferenceIdeal.ReadP.val_main_call3_c, Cert.ReferenceIdeal.ReadP.val_main_call3_v0, Cert.ReferenceIdeal.ReadP.val_main_call3_v1, Cert.ReferenceIdeal.ReadP.val_main_call3_c_0, Cert.ReferenceIdeal.ReadP.val_main_call3_v2, Cert.ReferenceIdeal.ReadP.val_main_call3_v3, Cert.ReferenceIdeal.ReadP.val_main_call3_v4, Cert.ReferenceIdeal.ReadP.val_main_call3_v5, Cert.ReferenceIdeal.ReadP.val_main_call3_c_1, Cert.ReferenceIdeal.ReadP.val_main_call3_c_2, Cert.ReferenceIdeal.ReadP.val_main_call3_v6, Cert.ReferenceIdeal.ReadP.val_main_call3_v7, Cert.ReferenceIdeal.ReadP.val_main_call3_v8, Cert.ReferenceIdeal.ReadP.val_main_call3_v9, Cert.ReferenceIdeal.ReadP.val_main_call3_v10, Cert.ReferenceIdeal.ReadP.val_main_call3_v11, Cert.ReferenceIdeal.ReadP.val_main_call3_c_3, Cert.ReferenceIdeal.ReadP.val_main_call3_v12, Cert.ReferenceIdeal.ReadP.val_main_call3_v13, Cert.ReferenceIdeal.ReadP.val_main_call3_c_4, Cert.ReferenceIdeal.ReadP.val_main_call3_v14, Cert.ReferenceIdeal.ReadP.val_main_v11, Cert.ReferenceIdeal.ReadP.val_main_c_4, Cert.ReferenceIdeal.ReadP.val_main_v12, Cert.ReferenceIdeal.ReadP.val_main_v13, Cert.ReferenceIdeal.ReadP.val_main_v14, Cert.ReferenceIdeal.ReadP.val_main_call4_c, Cert.ReferenceIdeal.ReadP.val_main_call4_v0, Cert.ReferenceIdeal.ReadP.val_main_call4_v1, Cert.ReferenceIdeal.ReadP.val_main_call4_c_0, Cert.ReferenceIdeal.ReadP.val_main_call4_v2, Cert.ReferenceIdeal.ReadP.val_main_call4_v3, Cert.ReferenceIdeal.ReadP.val_main_call4_v4, Cert.ReferenceIdeal.ReadP.val_main_call4_c_1, Cert.ReferenceIdeal.ReadP.val_main_call4_c_2, Cert.ReferenceIdeal.ReadP.val_main_call4_v5, Cert.ReferenceIdeal.ReadP.val_main_call4_v6, Cert.ReferenceIdeal.ReadP.val_main_call4_v7, Cert.ReferenceIdeal.ReadP.val_main_call4_v8, Cert.ReferenceIdeal.ReadP.val_main_call4_v9, Cert.ReferenceIdeal.ReadP.val_main_call4_v10, Cert.ReferenceIdeal.ReadP.val_main_call4_c_3, Cert.ReferenceIdeal.ReadP.val_main_call4_v11, Cert.ReferenceIdeal.ReadP.val_main_call4_v12, Cert.ReferenceIdeal.ReadP.val_main_call4_v13, Cert.ReferenceIdeal.ReadP.val_main_call4_cst, Cert.ReferenceIdeal.ReadP.val_main_call4_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_call7_v0, Cert.ReferenceIdeal.ReadP.val_main_call7_v1, Cert.ReferenceIdeal.ReadP.val_main_v22, Cert.ReferenceIdeal.ReadP.val_main_v23, Cert.ReferenceIdeal.ReadP.val_main_call10_v0, Cert.ReferenceIdeal.ReadP.val_main_call10_cst, Cert.ReferenceIdeal.ReadP.val_main_call10_v1, Cert.ReferenceIdeal.ReadP.val_main_call10_v2, Cert.ReferenceIdeal.ReadP.val_main_v34, Cert.ReferenceIdeal.ReadP.val_main_cst, Cert.ReferenceIdeal.ReadP.val_main_v35, Cert.ReferenceIdeal.ReadP.val_main_v36, Cert.ReferenceIdeal.ReadP.val_main_v37, Cert.ReferenceIdeal.ReadP.val_main_v38, concat2_eq]
  generalize Host.sort2 S16x16384 1 comparator_i32_i32_d1 = srt
  exact rfl

end Cert.ReferenceIdeal.ValueP

end
-- ==== Proof.Bridge.lean ====
/-
  The two idealized programs compute the same number.

  Kernel side: the result is the last host operations applied to the arrays of row losses and row flags of every
  pair's data (`Run.result_eq`), the data being the reference's own stages: its normalised features %38, its labels
  %25 and its validities %39 (`Prefix.feats_norm`, `labels_col`, `labels_row`, `valid_col`, `valid_row`).
  Reference side: its result is the same last operations (its %108 … %114) applied to its %107 and %105, which row by
  row are the same row losses and row flags (`Rows.loss_row`, `Rows.flag_row`).  The last operations are one function
  `tail2` of two [16,2048] arrays on both sides: the kernel reshapes its [16,2048,1] columns to it first.
-/
import proofs.«110907_j88038239634215_2_alg».proof.Defs
import proofs.«110907_j88038239634215_2_alg».proof.Proof.IdealValue
import proofs.«110907_j88038239634215_2_alg».proof.Proof.PrefixStages
import proofs.«110907_j88038239634215_2_alg».proof.Proof.RefRows
import proofs.«110907_j88038239634215_2_alg».proof.Proof.RefRun
import proofs.«110907_j88038239634215_2_alg».proof.Proof.ReadP
import proofs.«110907_j88038239634215_2_alg».proof.Proof.RefCore
import proofs.«110907_j88038239634215_2_alg».proof.Proof.RefStages

set_option maxRecDepth 16384

noncomputable section

namespace Cert.KernelIdeal.Run

open Cert.KernelIdeal Cert.KernelIdeal.Gen Idealize.ShloMosaic Idealize.ShloMosaic.ValueIdx Idealize.SL.Sem

/-- The seven last operations of either program as one function of the [16,2048] arrays of row losses and row flags:
    each pair's entries summed, the loss sum over the flag count (at least 1), the sixteen quotients averaged. -/
def tail2 (A B : (⟨S16x2048, .f32⟩ : BufTy).Contents (Elt Ideal)) : (⟨S_, .f32⟩ : BufTy).Contents (Elt Ideal) :=
  Host.divf (F := Ideal) (Host.reduceAdd (F := Ideal) (Host.divf (F := Ideal)
      (Host.reduceAdd (F := Ideal) A (constant (F := Ideal) S_ .f32 0x00000000#32) reducesTo_S16x2048_S16_d1 h_S_)
      (maximumf (Host.reduceAdd (F := Ideal) B (constant (F := Ideal) S_ .f32 0x00000000#32) reducesTo_S16x2048_S16_d1 h_S_)
        (broadcastInDim S16 ![] bcast_S_S16 (constant (F := Ideal) S_ .f32 0x3F800000#32))))
    (constant (F := Ideal) S_ .f32 0x00000000#32) reducesTo_S16_S_d0 h_S_) (constant (F := Ideal) S_ .f32 0x41800000#32)

theorem tailOf_eq (L R : (⟨S16x2048x1, .f32⟩ : BufTy).Contents (Elt Ideal)) :
    tailOf (F := Ideal) L R = tail2 (shapeCast S16x2048 L shapeCasts_S16x2048x1_S16x2048) (shapeCast S16x2048 R shapeCasts_S16x2048x1_S16x2048) := rfl

/-- A column array [16,2048,1] viewed [16,2048], read at an index. -/
theorem col_cast_apply {α : Type} (x : S16x2048x1.Idx → α) (b : Fin 16) (i : Fin 2048) :
    shapeCast S16x2048 x shapeCasts_S16x2048x1_S16x2048 (ix2 b i) = x (ix3 b i (0 : Fin 1)) :=
  shapeCast_apply x shapeCasts_S16x2048x1_S16x2048 _ _ (by
    rw [Shape.rowMajor_val_three, Shape.rowMajor_val_two]
    show (b.val * 2048 + i.val) * 1 + 0 = b.val * 2048 + i.val
    omega)

end Cert.KernelIdeal.Run

namespace Cert.Proof.Bridge

open Idealize.ShloMosaic Idealize.ShloMosaic.ValueIdx Idealize.SL.Sem Idealize.ShloMosaic.StableHlo
open Cert.ReferenceIdeal.ReadP

/-- The reference's result is the last operations of its row losses %107 and row flags %105. -/
theorem ref_tail (x0 : (⟨Cert.ReferenceIdeal.S16x256x128x128, .f32⟩ : BufTy).Contents (Elt Ideal))
    (x1 : (⟨Cert.ReferenceIdeal.S16x128x128, .i32⟩ : BufTy).Contents (Elt Ideal)) :
    val_main_v114 (F := Ideal) x0 x1 = Cert.KernelIdeal.Run.tail2 (val_main_v107 (F := Ideal) x0 x1) (val_main_v105 (F := Ideal) x1) := by
  unfold val_main_v114 val_main_v113 val_main_v112 val_main_v111 val_main_v110 val_main_v109 val_main_v108
    val_main_cst_22 val_main_cst_23 val_main_cst_24 val_main_cst_25 val_main_cst_26 Cert.KernelIdeal.Run.tail2
  rfl

/-- The kernel's loss array, over the reference's stages, viewed [16,2048], is the reference's %107. -/
theorem loss_rows (x0 : (⟨Cert.ReferenceIdeal.S16x256x128x128, .f32⟩ : BufTy).Contents (Elt Ideal))
    (x1 : (⟨Cert.ReferenceIdeal.S16x128x128, .i32⟩ : BufTy).Contents (Elt Ideal)) :
    shapeCast Cert.KernelIdeal.S16x2048
        (Cert.KernelIdeal.Run.lossArr (val_main_v38 (F := Ideal) x0 x1) (val_main_v25 (F := Ideal) x1) (val_main_v39 (F := Ideal) x1))
        Cert.KernelIdeal.Facts₀.shapeCasts_S16x2048x1_S16x2048
      = val_main_v107 (F := Ideal) x0 x1 := by
  funext idx
  obtain ⟨b, i, rfl⟩ : ∃ (b : Fin 16) (i : Fin 2048), idx = ix2 b i := ⟨idx 0, idx 1, eq_ix2 idx⟩
  rw [Cert.KernelIdeal.Run.col_cast_apply]
  exact (Cert.ReferenceIdeal.Rows.loss_row x0 x1 b i).symm

/-- The kernel's flag array viewed [16,2048] is the reference's %105. -/
theorem flag_rows (x1 : (⟨Cert.ReferenceIdeal.S16x128x128, .i32⟩ : BufTy).Contents (Elt Ideal)) :
    shapeCast Cert.KernelIdeal.S16x2048
        (Cert.KernelIdeal.Run.flagArr (val_main_v25 (F := Ideal) x1) (val_main_v39 (F := Ideal) x1))
        Cert.KernelIdeal.Facts₀.shapeCasts_S16x2048x1_S16x2048
      = val_main_v105 (F := Ideal) x1 := by
  funext idx
  obtain ⟨b, i, rfl⟩ : ∃ (b : Fin 16) (i : Fin 2048), idx = ix2 b i := ⟨idx 0, idx 1, eq_ix2 idx⟩
  rw [Cert.KernelIdeal.Run.col_cast_apply]
  exact (Cert.ReferenceIdeal.Rows.flag_row x1 b i).symm

/-- What the reference's run leaves in its result buffer is the result's stage of the arguments: the first 129
    operations leave %38, %25 and %33 at their stages, the last hundred compute %114 from them. -/
theorem result_stage (m : (ℓ : Loc Cert.ReferenceIdeal.nD Cert.ReferenceIdeal.τ Cert.ReferenceIdeal.sig) → Buf (Elt Ideal) ℓ) (c : Dev Cert.ReferenceIdeal.nD) :
    after (Cert.ReferenceIdeal.ValueP.ops (F := Ideal)) (launchContents m c) (Proc.devRef .tc Cert.ReferenceIdeal.main_v114)
      = val_main_v114 (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  rw [Cert.ReferenceIdeal.ValueP.after_split]
  exact Cert.ReferenceIdeal.ValueP.core_stage _ _ _ (Cert.ReferenceIdeal.ValueP.stage_v38 m c)
    (Cert.ReferenceIdeal.ValueP.stage_v25 m c) (Cert.ReferenceIdeal.ValueP.stage_v33 m c)

/-- The kernel program's result, from a memory `m`, is the reference's result stage of `m`'s arguments. -/
theorem kernel_result (m : (ℓ : Loc Cert.KernelIdeal.nD Cert.KernelIdeal.τ Cert.KernelIdeal.sig) → Buf (Elt Ideal) ℓ) (c : Dev Cert.KernelIdeal.nD) :
    Cert.KernelIdeal.Run.Wf m c (Proc.devRef .tc Cert.KernelIdeal.main_v58)
      = val_main_v114 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.Run.result_eq m c _ _ _ (Cert.KernelIdeal.Prefix.feats_norm m c) (Cert.KernelIdeal.Prefix.labels_col m c)
      (Cert.KernelIdeal.Prefix.labels_row m c) (Cert.KernelIdeal.Prefix.valid_col m c) (Cert.KernelIdeal.Prefix.valid_row m c),
    Cert.KernelIdeal.Run.tailOf_eq, loss_rows, flag_rows, ← ref_tail]

end Cert.Proof.Bridge

end
-- ==== Proof.lean ====
/-
  The pixel-contrastive loss kernel against its jnp reference.

  Both programs sample 1024 pixels per image by a stable sort of the labels' priorities, pair each image with the next,
  normalise the sampled features, and reduce the 2048 x 2048 pairwise logits of each pair, row by row, to one number.
  The kernel does the row reductions in a Pallas region on a 16 x 16 grid (image pair x tile of 128 rows) whose first two
  windows read one array, the normalised features: the tile's rows and all the pair's rows.

  The frames: the kernel's body is run once at a symbolic grid point (`Body.body_triple`); the launch holds the shared
  array by the two halves of the full share, one per window, and rejoins them when the region is left, so that the
  fourteen host operations after it run over all the buffers again (`Run.run_main`, `Run.frame`); the same text serves
  the word-level program and its idealization.  The idealization names one constant, the logit scale `14.2857141`, as
  the exact reciprocal `2^27 / 9395241` of the reference's temperature word: `preserves` is that entry's statement.

  The values: row by row, the kernel's two output columns and the reference's row losses and row flags are one
  specification of a pair's 2048 sampled pixels (`Spec`; `KernelRows`, `RefRows`); the data the kernel stages are the
  reference's own stages (`PrefixStages`: the same sampling, the feature gather read through either order of the
  transpose); the last reductions are the same operations on both sides (`Bridge`).
-/
import proofs.«110907_j88038239634215_2_alg».proof.Defs
import proofs.«110907_j88038239634215_2_alg».proof.Proof.Gen.Kernel
import proofs.«110907_j88038239634215_2_alg».proof.Proof.Gen.KernelIdeal
import proofs.«110907_j88038239634215_2_alg».proof.Proof.Gen.ReferenceIdeal
import proofs.«110907_j88038239634215_2_alg».proof.Proof.Gen.Pre_finite_inputs
import proofs.«110907_j88038239634215_2_alg».proof.Proof.IdealLaunch
import proofs.«110907_j88038239634215_2_alg».proof.Proof.BitsLaunch
import proofs.«110907_j88038239634215_2_alg».proof.Proof.RefRun
import proofs.«110907_j88038239634215_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Run.frame m ρ

/-- So does its idealization. -/
theorem frame_ki : Cert.frame_KernelIdeal := fun m ρ _ => Cert.KernelIdeal.Run.frame m ρ

/-- The reference is host operations only: its run with the result dropped. -/
theorem frame_r : Cert.frame_ReferenceIdeal := fun m ρ _ =>
  (θ_run Cert.ReferenceIdeal.defs _ _).mono (fun _ h c => (h c).2) (Cert.ReferenceIdeal.ValueP.run (F := Ideal) m ρ)

/-- The one rewrite of the ideal pass: the logit scale is the reciprocal of the temperature's word. -/
theorem preserves : Cert.preserves_Kernel_KernelIdeal :=
  IdealRules.named_const.statement Cert.KernelIdeal.κ "inv_temp" .f32 0x41649249#32 ((134217728 / 9395241 : ℝ) : EReal) rfl

/-- Both idealized programs, from memories agreeing on the arguments, run and end with the same result: the kernel's
    result is the reference's result stage of the arguments (`Bridge.kernel_result`), which is what the reference's run
    leaves in its result buffer (`Bridge.result_stage`). -/
theorem algebraic : Cert.algebraic_KernelIdeal_ReferenceIdeal := by
  intro m ρ m' ρ' _ hagree
  refine ⟨fun c => Cert.KernelIdeal.Run.Wf m c (Proc.devRef .tc Cert.KernelIdeal.main_v58),
    Cert.KernelIdeal.Run.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Proof.Bridge.result_stage m' c, (hagree c).1, (hagree c).2]
  exact (Cert.Proof.Bridge.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
